-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 91
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S1600000x1, .f32⟩
  | .hbm, ⟨80, _⟩ => ⟨S1600000x128, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_scratch0 : Ref sig .tc := ⟨.vmem, 16, rfl⟩
abbrev cc2_scratch1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48_0) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48_1) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .f32⟩
  | 104 => ⟨S100000, .f32⟩
  | 105 => ⟨S100000, .f32⟩
  | 106 => ⟨S100000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S1600000, .f32⟩
  | 126 => ⟨S_, .i32⟩
  | 127 => ⟨S1600000, .i32⟩
  | _ => ⟨S100000x64, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S1600000x1, .f32⟩
  | 8 => ⟨S1600000x128, .f32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S100000, .f32⟩
  | 15 => ⟨S100000x1, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_16 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_18 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_20 : Ref sig .tc := ⟨.hbm, 126, rfl⟩
abbrev main_v96 : Ref sig .tc := ⟨.hbm, 127, rfl⟩
abbrev main_v97 : Ref sig .tc := ⟨.hbm, 128, rfl⟩
abbrev main_c_21 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x64_S64x128_S100000x128_1_0_0_1_n_n_wf : DotDims.WF S100000x64 S64x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BRegion0.lean ====
/- Region 0 of @main, `cc0_matmul_kernel` (the first layer's matrix product), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out0_2`); the proof data `dat0` records this per point, and `body_obligation0` is the library's obligation for it.
   The body reads the output buffer once before overwriting it whole; what it read does not enter the stored value. -/
import proofs.«130829_j5128190951936_1_alg».proof.Proof.Gen.Kernel.Launch
import proofs.«130829_j5128190951936_1_alg».proof.Proof.Gen.Kernel.Skeleton
import proofs.«130829_j5128190951936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there (a
    point that does not fetch it has the block index of the point before), for any proof data whose array is `V`'s
    and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not it was fetched there (a
    point that does not fetch it has the block index of the point before), for any proof data whose array is `V`'s
    and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out0_2 (x0 : Vec F S5000x64 .f32) (x1 : Vec F S64x128 .f32) : Vec F S5000x128 .f32 :=
  View.canon [⟨r0_2, k0_pay1 (View.ld x0 r0_0) (View.ld x1 r0_1)⟩]

/-- The store's rectangle is the whole buffer, so it covers it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The kernel body on whole staging memrefs, the inputs' at read contents `xW` and the output's at anything, runs to
    the continuation holding the inputs' as they were and the output's at `out0_2` of the inputs', at any grid point. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant is the scoped rest
    and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1.lean ====
/- Region 1 of @main, `cc1_combine_kernel` (the first layer's sum of the aggregate, the scaled self term and the bias row), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out1_3`); the proof data `dat1` records this per point, and `body_obligation1` is the library's obligation for it.
   The body reads the output buffer once before overwriting it whole; what it read does not enter the stored value. -/
import proofs.«130829_j5128190951936_1_alg».proof.Proof.Gen.Kernel.Launch
import proofs.«130829_j5128190951936_1_alg».proof.Proof.Gen.Kernel.Skeleton
import proofs.«130829_j5128190951936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there (a
    point that does not fetch it has the block index of the point before), for any proof data whose array is `V`'s
    and whose body leaves the block in place. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not it was fetched there (a
    point that does not fetch it has the block index of the point before), for any proof data whose array is `V`'s
    and whose body leaves the block in place. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not it was fetched there (a
    point that does not fetch it has the block index of the point before), for any proof data whose array is `V`'s
    and whose body leaves the block in place. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x128 := Rect.unit (s := S5000x128) ![0, 0] S5000x128.size inb_S5000x128_S5000x128_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out1_3 (x0 : Vec F S5000x128 .f32) (x1 : Vec F S5000x128 .f32) (x2 : Vec F S1x128 .f32) : Vec F S5000x128 .f32 :=
  View.canon [⟨r1_3, k1_pay1 (View.ld x0 r1_0) (View.ld x1 r1_1) (View.ld x2 r1_2)⟩]

/-- The store's rectangle is the whole buffer, so it covers it. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The body's triple -/

set_option maxHeartbeats 1000000 in
/-- The kernel body on whole staging memrefs, the inputs' at read contents `xW` and the output's at anything, runs to
    the continuation holding the inputs' as they were and the output's at `out1_3` of the inputs', at any grid point. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_combine_kernel i arg1 harg1 arg2 harg2 arg3 harg3 arg4 harg4) K := by
  simp only [cc1_combine_kernel_eq_skeleton]; unfold cc1_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant is the scoped rest
    and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRegion2.lean ====
/-
  The third pallas_call of the kernel: per-column sums of the batch-norm input and of its squares, accumulated over the
  twenty blocks of 5000 rows in two row buffers that persist between grid points, and, at the last point, the column mean
  (sum / 100000) and the column variance (sum of squares / 100000 - mean * mean) written to the two outputs.
  A grid point is one of three kinds: the first (the two running rows are zeroed, then the block is added), a middle one (the
  block is added), the last (the block is added, then mean and variance are formed from the running rows). The outputs' staging
  rows are touched at the last point only; everywhere else they are handed back as they were found.
  Stated for any float instance, at a parameter `V`: the contents of the buffers when the call is entered.
-/
import proofs.«130829_j5128190951936_1_alg».proof.Proof.Gen.Kernel.Launch
import proofs.«130829_j5128190951936_1_alg».proof.Proof.Gen.Kernel.Skeleton
import proofs.«130829_j5128190951936_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the twenty grid points -/

/-- "This is the first grid point", as the body computes it from the grid coordinate. -/
abbrev isFirst2 (i : grid2.Coords) : Prop :=
  (Scalar.cmpi .ne (Scalar.extui (Scalar.cmpi .eq (BitVec.ofNat 32 (i 0).val) 0#32)) 0#32) = 1#1

/-- It holds at point 0 only. -/
theorem isFirst2_iff : ∀ t : Fin cfg2.N, isFirst2 (grid2.coords t) ↔ t.val = 0 :=
  (by decide +kernel : ∀ t : Fin grid2.N, isFirst2 (grid2.coords t) ↔ t.val = 0)

/-- "This is the last grid point" holds at point 19 only. -/
theorem isLast2_iff : ∀ t : Fin cfg2.N, k2_cond2 (grid2.coords t) = 1#1 ↔ t.val = 19 :=
  (by decide +kernel : ∀ t : Fin grid2.N, k2_cond2 (grid2.coords t) = 1#1 ↔ t.val = 19)

/-! ## Whole-row and whole-block accesses -/

theorem zero_off2 : (![0, 0] : Fin 2 → Nat) = fun _ => 0 := by
  funext a; match a with | ⟨0, _⟩ => rfl | ⟨1, _⟩ => rfl

/-- A store of a whole 1x128 row, made last, leaves its payload, whatever was stored before. -/
theorem read_store_row {κ : Kind} {sp : Space} (v : View sig κ sp S1x128 .f32) (f : v.ty.Contents (Elt F)) (w : Vec F S1x128 .f32)
    (L : List (View.Piece (Elt F) S1x128 .f32)) :
    v.read (Elt F) (v.writes (Elt F) f (⟨Rect.unit (s := S1x128) ![0, 0] S1x128.size inb_S1x128_S1x128_0_0, w⟩ :: L)) = w := by
  refine (View.read_writes_eq_canon v f _ fun y => ?_).trans (View.canon_cons_unit_zero zero_off2 _ w L)
  obtain ⟨p, hp, hy⟩ := View.cover_of_tiled [(⟨Rect.unit (s := S1x128) ![0, 0] S1x128.size inb_S1x128_S1x128_0_0, w⟩ : View.Piece (Elt F) S1x128 .f32)] S1x128.size (by rfl) y
  exact ⟨p, List.mem_cons.mpr (Or.inl (List.mem_singleton.mp hp)), hy⟩

/-- A load of a whole row after one store of a whole row reads what was stored. -/
theorem readCov_row {κ : Kind} {sp : Space} (v : View sig κ sp S1x128 .f32) (w : Vec F S1x128 .f32) :
    v.readCov [(⟨Rect.unit (s := S1x128) ![0, 0] S1x128.size inb_S1x128_S1x128_0_0, w⟩ : View.Piece (Elt F) S1x128 .f32)]
      (Rect.unit (s := S1x128) ![0, 0] S1x128.size inb_S1x128_S1x128_0_0).toLoadRect = w :=
  View.readCov_unit_zero v zero_off2 _ w

/-- A load of a whole row, or of a whole 5000x128 block, reads the contents. -/
theorem ld_row (X : Vec F S1x128 .f32) : View.ld X (Rect.unit (s := S1x128) ![0, 0] S1x128.size inb_S1x128_S1x128_0_0) = X :=
  View.ld_unit_zero zero_off2 _ X
theorem ld_block (X : Vec F S5000x128 .f32) : View.ld X (Rect.unit (s := S5000x128) ![0, 0] S5000x128.size inb_S5000x128_S5000x128_0_0) = X :=
  View.ld_unit_zero zero_off2 _ X

/-! ## The body at a middle point: the block is added to the two running rows -/

set_option maxHeartbeats 1000000 in
/-- Neither first nor last: with the block `x` in the input row-block and the running rows at `s`, `q`, the body leaves the
    block in place, the running sum at `s` plus the block's column sums and the running sum of squares at `q` plus the
    column sums of the block's squares. The outputs' rows are not touched. -/
theorem body2_middle (c : Dev nD) (E : Set ℕ) (i : grid2.Coords)
    (a1 : Memref sig .tc .vmem S5000x128 .f32) (ha1 : a1.IsWhole) (a2 : Memref sig .tc .vmem S1x128 .f32) (ha2 : a2.IsWhole)
    (a3 : Memref sig .tc .vmem S1x128 .f32) (ha3 : a3.IsWhole) (a4 : Memref sig .tc .vmem S1x128 .f32) (ha4 : a4.IsWhole)
    (a5 : Memref sig .tc .vmem S1x128 .f32) (ha5 : a5.IsWhole)
    (hfirst : ¬ isFirst2 i) (hlast : ¬ k2_cond2 i = 1#1)
    (x : Vec F S5000x128 .f32) (s q : Vec F S1x128 .f32) (K : PUnit → sProp 𝕄) :
    iprop(owns (c : Thread nD τ) a1 fullShare x ∗ owns (c : Thread nD τ) a4 fullShare s ∗ owns (c : Thread nD τ) a5 fullShare q
        ∗ (iprop(owns (c : Thread nD τ) a1 fullShare x ∗ owns (c : Thread nD τ) a4 fullShare (k2_pay4 x s)
            ∗ owns (c : Thread nD τ) a5 fullShare (k2_pay5 x q)) -∗ K ⟨⟩))
      ⊢ wp frame (wpE (defs₀ (F := F)) Variants.none c none) E (cc2_bn_reduce_kernel i a1 ha1 a2 ha2 a3 ha3 a4 ha4 a5 ha5) K := by
  simp only [cc2_bn_reduce_kernel_eq_skeleton]; unfold cc2_bn_reduce_kernel_skel
  unfold owns
  iintro ⟨⟨%f1, %hf1, H1⟩, ⟨%f4, %hf4, H4⟩, ⟨%f5, %hf5, H5⟩, Hk⟩
  subst hf1 hf4 hf5
  sl_exec (disch := first | exact hfirst | exact hlast)
  sl_step
  iapply Hk
  isplitl [H1]
  · iexists f1; isplitr; · ipureintro; rfl
    iexact H1
  isplitl [H4]
  · iexists _; isplitr
    swap; · iexact H4
    ipureintro
    rw [read_store_row, View.readAt_eq_ld, View.readAt_eq_ld, ld_block, ld_row]
  · iexists _; isplitr
    swap; · iexact H5
    ipureintro
    rw [read_store_row, View.readAt_eq_ld, View.readAt_eq_ld, ld_block, ld_row]

/-! ## The body at the first point: the running rows are zeroed, then the block is added -/

set_option maxHeartbeats 1000000 in
theorem body2_first (c : Dev nD) (E : Set ℕ) (i : grid2.Coords)
    (a1 : Memref sig .tc .vmem S5000x128 .f32) (ha1 : a1.IsWhole) (a2 : Memref sig .tc .vmem S1x128 .f32) (ha2 : a2.IsWhole)
    (a3 : Memref sig .tc .vmem S1x128 .f32) (ha3 : a3.IsWhole) (a4 : Memref sig .tc .vmem S1x128 .f32) (ha4 : a4.IsWhole)
    (a5 : Memref sig .tc .vmem S1x128 .f32) (ha5 : a5.IsWhole)
    (hfirst : isFirst2 i) (hlast : ¬ k2_cond2 i = 1#1)
    (x : Vec F S5000x128 .f32) (s q : Vec F S1x128 .f32) (K : PUnit → sProp 𝕄) :
    iprop(owns (c : Thread nD τ) a1 fullShare x ∗ owns (c : Thread nD τ) a4 fullShare s ∗ owns (c : Thread nD τ) a5 fullShare q
        ∗ (iprop(owns (c : Thread nD τ) a1 fullShare x ∗ owns (c : Thread nD τ) a4 fullShare (k2_pay4 x (k2_pay1 (F := F)))
            ∗ owns (c : Thread nD τ) a5 fullShare (k2_pay5 x (k2_pay2 (F := F)))) -∗ K ⟨⟩))
      ⊢ wp frame (wpE (defs₀ (F := F)) Variants.none c none) E (cc2_bn_reduce_kernel i a1 ha1 a2 ha2 a3 ha3 a4 ha4 a5 ha5) K := by
  simp only [cc2_bn_reduce_kernel_eq_skeleton]; unfold cc2_bn_reduce_kernel_skel
  unfold owns
  iintro ⟨⟨%f1, %hf1, H1⟩, ⟨%f4, %hf4, H4⟩, ⟨%f5, %hf5, H5⟩, Hk⟩
  subst hf1 hf4 hf5
  sl_exec (disch := first | exact hfirst | exact hlast)
  sl_step
  iapply Hk
  isplitl [H1]
  · iexists f1; isplitr; · ipureintro; rfl
    iexact H1
  isplitl [H4]
  · iexists _; isplitr
    swap; · iexact H4
    ipureintro
    rw [read_store_row]
    sl_unfold_run_names
    rw [readCov_row, View.readAt_eq_ld, ld_block]
  · iexists _; isplitr
    swap; · iexact H5
    ipureintro
    rw [read_store_row]
    sl_unfold_run_names
    rw [readCov_row, View.readAt_eq_ld, ld_block]

/-! ## The body at the last point: the block is added, then mean and variance are formed -/

set_option maxHeartbeats 1000000 in
theorem body2_last (c : Dev nD) (E : Set ℕ) (i : grid2.Coords)
    (a1 : Memref sig .tc .vmem S5000x128 .f32) (ha1 : a1.IsWhole) (a2 : Memref sig .tc .vmem S1x128 .f32) (ha2 : a2.IsWhole)
    (a3 : Memref sig .tc .vmem S1x128 .f32) (ha3 : a3.IsWhole) (a4 : Memref sig .tc .vmem S1x128 .f32) (ha4 : a4.IsWhole)
    (a5 : Memref sig .tc .vmem S1x128 .f32) (ha5 : a5.IsWhole)
    (hfirst : ¬ isFirst2 i) (hlast : k2_cond2 i = 1#1)
    (x : Vec F S5000x128 .f32) (s q d2 d3 : Vec F S1x128 .f32) (K : PUnit → sProp 𝕄) :
    iprop(owns (c : Thread nD τ) a1 fullShare x ∗ owns (c : Thread nD τ) a2 fullShare d2 ∗ owns (c : Thread nD τ) a3 fullShare d3
        ∗ owns (c : Thread nD τ) a4 fullShare s ∗ owns (c : Thread nD τ) a5 fullShare q
        ∗ (iprop(owns (c : Thread nD τ) a1 fullShare x ∗ owns (c : Thread nD τ) a2 fullShare (k2_pay6 (k2_pay4 x s))
            ∗ owns (c : Thread nD τ) a3 fullShare (k2_pay7 (k2_pay4 x s) (k2_pay5 x q))
            ∗ owns (c : Thread nD τ) a4 fullShare (k2_pay4 x s) ∗ owns (c : Thread nD τ) a5 fullShare (k2_pay5 x q)) -∗ K ⟨⟩))
      ⊢ wp frame (wpE (defs₀ (F := F)) Variants.none c none) E (cc2_bn_reduce_kernel i a1 ha1 a2 ha2 a3 ha3 a4 ha4 a5 ha5) K := by
  simp only [cc2_bn_reduce_kernel_eq_skeleton]; unfold cc2_bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hfirst | exact hlast)
  sl_step
  iapply Hk
  isplitl [H1]
  · iexists f1; isplitr; · ipureintro; rfl
    iexact H1
  isplitl [H2]
  · iexists _; isplitr
    swap; · iexact H2
    ipureintro
    rw [read_store_row]
    sl_unfold_run_names
    rw [readCov_row, View.readAt_eq_ld, View.readAt_eq_ld, ld_block, ld_row]
  isplitl [H3]
  · iexists _; isplitr
    swap; · iexact H3
    ipureintro
    rw [read_store_row]
    sl_unfold_run_names
    rw [readCov_row, readCov_row, View.readAt_eq_ld, View.readAt_eq_ld, View.readAt_eq_ld, ld_block, ld_row, ld_row]
  isplitl [H4]
  · iexists _; isplitr
    swap; · iexact H4
    ipureintro
    sl_unfold_run_names
    rw [read_store_row, View.readAt_eq_ld, View.readAt_eq_ld, ld_block, ld_row]
  · iexists _; isplitr
    swap; · iexact H5
    ipureintro
    sl_unfold_run_names
    rw [read_store_row, View.readAt_eq_ld, View.readAt_eq_ld, ld_block, ld_row]

/-! ## The block of each window, and the running rows after each point -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's current staging buffer holds the point's block of 5000 rows, at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The running column sums after the body at point `n`: zero plus the column sums of blocks 0 … n, added in that order. -/
def sumAt2 (c : Dev nD) : (n : ℕ) → n < cfg2.N → Vec F S1x128 .f32
  | 0, hn => k2_pay4 (iblk2 V c 0 ⟨0, hn⟩) (k2_pay1 (F := F))
  | n + 1, hn => k2_pay4 (iblk2 V c 0 ⟨n + 1, hn⟩) (sumAt2 c n (Nat.lt_of_succ_lt hn))

/-- The running column sums of squares after the body at point `n`. -/
def sqAt2 (c : Dev nD) : (n : ℕ) → n < cfg2.N → Vec F S1x128 .f32
  | 0, hn => k2_pay5 (iblk2 V c 0 ⟨0, hn⟩) (k2_pay2 (F := F))
  | n + 1, hn => k2_pay5 (iblk2 V c 0 ⟨n + 1, hn⟩) (sqAt2 c n (Nat.lt_of_succ_lt hn))

theorem sumAt2_first (c : Dev nD) (t : Fin cfg2.N) (h0 : t.val = 0) :
    sumAt2 V c t.val t.isLt = k2_pay4 (iblk2 V c 0 t) (k2_pay1 (F := F)) := by
  obtain ⟨n, hn⟩ := t
  cases n with
  | zero => rfl
  | succ n => exact absurd h0 (Nat.succ_ne_zero n)

theorem sumAt2_later (c : Dev nD) (t : Fin cfg2.N) (h0 : t.val ≠ 0) :
    sumAt2 V c t.val t.isLt = k2_pay4 (iblk2 V c 0 t) (sumAt2 V c (t.val - 1) (Nat.lt_of_le_of_lt (Nat.sub_le _ _) t.isLt)) := by
  obtain ⟨n, hn⟩ := t
  cases n with
  | zero => exact absurd rfl h0
  | succ n => rfl

theorem sqAt2_first (c : Dev nD) (t : Fin cfg2.N) (h0 : t.val = 0) :
    sqAt2 V c t.val t.isLt = k2_pay5 (iblk2 V c 0 t) (k2_pay2 (F := F)) := by
  obtain ⟨n, hn⟩ := t
  cases n with
  | zero => rfl
  | succ n => exact absurd h0 (Nat.succ_ne_zero n)

theorem sqAt2_later (c : Dev nD) (t : Fin cfg2.N) (h0 : t.val ≠ 0) :
    sqAt2 V c t.val t.isLt = k2_pay5 (iblk2 V c 0 t) (sqAt2 V c (t.val - 1) (Nat.lt_of_le_of_lt (Nat.sub_le _ _) t.isLt)) := by
  obtain ⟨n, hn⟩ := t
  cases n with
  | zero => exact absurd rfl h0
  | succ n => rfl

/-! ## What persists between grid points -/

/-- Every scoped buffer of the core that is neither a staging buffer of this call nor one of its two running rows, at some
    contents each, and the random-number register at some state: carried through the call unopened. -/
abbrev others2 (c : Dev nD) : sProp 𝕄 :=
  iprop(Pipeline.scopedRestBut (Ix := Unit) (Name := ℕ) (U := UR sig nD τ) (Lvl := ℕ) (Val := Elt F) spec2 c [cc2_scratch0, cc2_scratch1]
    ∗ ∃ r, prngReg c r)

/-- The call's invariant at position `n` of the grid: before the first point the two running rows hold anything; after the
    body at point `k` they hold the running sums through block `k`. -/
def keeps2 (c : Dev nD) : Fin (cfg2.N + 1) → sProp 𝕄
  | ⟨0, _⟩ => iprop((∃ s, owns (c : Thread nD τ) (Memref.whole cc2_scratch0 : Memref sig .tc .vmem S1x128 .f32) fullShare s)
      ∗ (∃ q, owns (c : Thread nD τ) (Memref.whole cc2_scratch1 : Memref sig .tc .vmem S1x128 .f32) fullShare q) ∗ others2 c)
  | ⟨k + 1, h⟩ => iprop(owns (c : Thread nD τ) (Memref.whole cc2_scratch0 : Memref sig .tc .vmem S1x128 .f32) fullShare (sumAt2 V c k (Nat.lt_of_succ_lt_succ h))
      ∗ owns (c : Thread nD τ) (Memref.whole cc2_scratch1 : Memref sig .tc .vmem S1x128 .f32) fullShare (sqAt2 V c k (Nat.lt_of_succ_lt_succ h)) ∗ others2 c)

theorem keeps2_succ (c : Dev nD) (t : Fin cfg2.N) :
    keeps2 V c t.succ = iprop(owns (c : Thread nD τ) (Memref.whole cc2_scratch0 : Memref sig .tc .vmem S1x128 .f32) fullShare (sumAt2 V c t.val t.isLt)
      ∗ owns (c : Thread nD τ) (Memref.whole cc2_scratch1 : Memref sig .tc .vmem S1x128 .f32) fullShare (sqAt2 V c t.val t.isLt) ∗ others2 c) := by
  obtain ⟨n, hn⟩ := t; rfl

theorem keeps2_first (c : Dev nD) (t : Fin cfg2.N) (h0 : t.val = 0) :
    keeps2 V c t.castSucc = iprop((∃ s, owns (c : Thread nD τ) (Memref.whole cc2_scratch0 : Memref sig .tc .vmem S1x128 .f32) fullShare s)
      ∗ (∃ q, owns (c : Thread nD τ) (Memref.whole cc2_scratch1 : Memref sig .tc .vmem S1x128 .f32) fullShare q) ∗ others2 c) := by
  obtain ⟨n, hn⟩ := t
  cases n with
  | zero => rfl
  | succ n => exact absurd h0 (Nat.succ_ne_zero n)

theorem keeps2_later (c : Dev nD) (t : Fin cfg2.N) (h0 : t.val ≠ 0) :
    keeps2 V c t.castSucc = iprop(owns (c : Thread nD τ) (Memref.whole cc2_scratch0 : Memref sig .tc .vmem S1x128 .f32) fullShare (sumAt2 V c (t.val - 1) (Nat.lt_of_le_of_lt (Nat.sub_le _ _) t.isLt))
      ∗ owns (c : Thread nD τ) (Memref.whole cc2_scratch1 : Memref sig .tc .vmem S1x128 .f32) fullShare (sqAt2 V c (t.val - 1) (Nat.lt_of_le_of_lt (Nat.sub_le _ _) t.isLt)) ∗ others2 c) := by
  obtain ⟨n, hn⟩ := t
  cases n with
  | zero => exact absurd rfl h0
  | succ n => rfl

/-! ## The proof data -/

/-- The proof data of this call on core `c`: the arrays as it finds them; after the body at point `t` the input's buffer at
    its block, the two outputs' at the mean and the variance formed from the running rows through block `t` (what the body
    stores there at the last point, the only one at which these buffers are written or written back); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay6 (sumAt2 V c t.val t.isLt)
    | ⟨2, _⟩ => k2_pay7 (sumAt2 V c t.val t.isLt) (sqAt2 V c t.val t.isLt)
  Φ n := keeps2 V c n
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = k2_pay6 (sumAt2 V c t.val t.isLt) := by dsimp only [dat2]
theorem after2_2 (c : Dev nD) (t : Fin cfg2.N) : (dat2 V c).after 2 t = k2_pay7 (sumAt2 V c t.val t.isLt) (sqAt2 V c t.val t.isLt) := by
  dsimp only [dat2]

theorem before2_0 (c : Dev nD) (t : Fin cfg2.N) (d) : (dat2 V c).before 0 t d = iblk2 V c 0 t :=
  before2_0_of V (dat2 V c) (A_eq2 V c 0) (after2_0 V c) t d

theorem Φ2_eq (c : Dev nD) (n : Fin (cfg2.N + 1)) : (dat2 V c).Φ n = keeps2 V c n := by dsimp only [dat2]

/-! ## Where the outputs' windows are idle, and where they are written back -/

theorem idle2_1_early (t : Fin cfg2.N) (h : t.val ≠ 19) : idle2 1 (grid2.coords t) = true := by
  have hl : ¬ k2_cond2 (grid2.coords t) = 1#1 := fun e => h ((isLast2_iff t).mp e)
  show (!(k2_cond2 (grid2.coords t) == 1#1)) = true
  rw [Bool.not_eq_true', beq_eq_false_iff_ne]; exact hl
theorem idle2_2_early (t : Fin cfg2.N) (h : t.val ≠ 19) : idle2 2 (grid2.coords t) = true := by
  have hl : ¬ k2_cond2 (grid2.coords t) = 1#1 := fun e => h ((isLast2_iff t).mp e)
  show (!(k2_cond2 (grid2.coords t) == 1#1)) = true
  rw [Bool.not_eq_true', beq_eq_false_iff_ne]; exact hl
theorem idle2_1_last (t : Fin cfg2.N) (h : t.val = 19) : idle2 1 (grid2.coords t) = false := by
  show (!(k2_cond2 (grid2.coords t) == 1#1)) = false
  rw [(isLast2_iff t).mpr h]; rfl
theorem idle2_2_last (t : Fin cfg2.N) (h : t.val = 19) : idle2 2 (grid2.coords t) = false := by
  show (!(k2_cond2 (grid2.coords t) == 1#1)) = false
  rw [(isLast2_iff t).mpr h]; rfl
theorem flush2_1_early (t : Fin cfg2.N) (h : t.val ≠ 19) : (cfg2.win 1).flush t = false := by
  have hN : t.val < 20 := lt_of_lt_of_eq t.isLt (show cfg2.N = 20 from N_2)
  exact Bool.eq_false_iff.mpr fun e => by have := (flush2_1 t).mp e; omega
theorem flush2_2_early (t : Fin cfg2.N) (h : t.val ≠ 19) : (cfg2.win 2).flush t = false := by
  have hN : t.val < 20 := lt_of_lt_of_eq t.isLt (show cfg2.N = 20 from N_2)
  exact Bool.eq_false_iff.mpr fun e => by have := (flush2_2 t).mp e; omega

/-! ## The body obligation -/

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns away from the last point: the outputs' rows as they were found. -/
def bodyPostEarly2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((dat2 V c).before 1 t d))
    ∗ (∃ d, owns (c : Thread nD τ) (st2_2 t) fullShare ((dat2 V c).before 2 t d)))

/-- What it returns at the last point: the outputs' rows at the mean and the variance. -/
def bodyPostLast2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
theorem sound_body2_middle (c : Dev nD) (t : Fin cfg2.N) (h0 : t.val ≠ 0) (h19 : t.val ≠ 19) :
    bodyPre2 V c t ⊢ wp frame (wpE (defs₀ (F := F)) Variants.none c none) Set.univ (bodyAt2 t) (fun _ => bodyPostEarly2 V c t) := by
  have hfirst : ¬ isFirst2 (grid2.coords t) := fun e => h0 ((isFirst2_iff t).mp e)
  have hlast : ¬ k2_cond2 (grid2.coords t) = 1#1 := fun e => h19 ((isLast2_iff t).mp e)
  unfold bodyPre2 bodyPostEarly2 bodyAt2
  simp only [before2_0]
  rw [Φ2_eq, Φ2_eq, keeps2_later V c t h0, keeps2_succ,
    show (dat2 V c).owesAt () t.succ = (dat2 V c).owesAt () t.castSucc from rfl, after2_0,
    sumAt2_later V c t h0, sqAt2_later V c t h0]
  iintro ⟨⟨Hs, Hq, Hoth⟩, Ho, ⟨%d0, H0⟩, H1, H2⟩
  iapply (body2_middle c Set.univ (grid2.coords t) _ _ _ _ _ _ _ _ _ _ hfirst hlast (iblk2 V c 0 t) _ _ _)
  isplitl [H0]; · iexact H0
  isplitl [Hs]; · iexact Hs
  isplitl [Hq]; · iexact Hq
  iintro ⟨H0, Hs, Hq⟩
  isplitl [Hs Hq Hoth]
  · isplitl [Hs]; · iexact Hs
    isplitl [Hq]; · iexact Hq
    iexact Hoth
  isplitl [Ho]; · iexact Ho
  isplitl [H0]; · iexact H0
  isplitl [H1]; · iexact H1
  iexact H2

set_option maxHeartbeats 800000 in
theorem sound_body2_first (c : Dev nD) (t : Fin cfg2.N) (h0 : t.val = 0) :
    bodyPre2 V c t ⊢ wp frame (wpE (defs₀ (F := F)) Variants.none c none) Set.univ (bodyAt2 t) (fun _ => bodyPostEarly2 V c t) := by
  have hN : t.val < 20 := lt_of_lt_of_eq t.isLt (show cfg2.N = 20 from N_2)
  have hfirst : isFirst2 (grid2.coords t) := (isFirst2_iff t).mpr h0
  have hlast : ¬ k2_cond2 (grid2.coords t) = 1#1 := fun e => by have := (isLast2_iff t).mp e; omega
  unfold bodyPre2 bodyPostEarly2 bodyAt2
  simp only [before2_0]
  rw [Φ2_eq, Φ2_eq, keeps2_first V c t h0, keeps2_succ,
    show (dat2 V c).owesAt () t.succ = (dat2 V c).owesAt () t.castSucc from rfl, after2_0,
    sumAt2_first V c t h0, sqAt2_first V c t h0]
  iintro ⟨⟨⟨%s, Hs⟩, ⟨%q, Hq⟩, Hoth⟩, Ho, ⟨%d0, H0⟩, H1, H2⟩
  iapply (body2_first c Set.univ (grid2.coords t) _ _ _ _ _ _ _ _ _ _ hfirst hlast (iblk2 V c 0 t) s q _)
  isplitl [H0]; · iexact H0
  isplitl [Hs]; · iexact Hs
  isplitl [Hq]; · iexact Hq
  iintro ⟨H0, Hs, Hq⟩
  isplitl [Hs Hq Hoth]
  · isplitl [Hs]; · iexact Hs
    isplitl [Hq]; · iexact Hq
    iexact Hoth
  isplitl [Ho]; · iexact Ho
  isplitl [H0]; · iexact H0
  isplitl [H1]; · iexact H1
  iexact H2

set_option maxHeartbeats 800000 in
theorem sound_body2_last (c : Dev nD) (t : Fin cfg2.N) (h19 : t.val = 19) :
    bodyPre2 V c t ⊢ wp frame (wpE (defs₀ (F := F)) Variants.none c none) Set.univ (bodyAt2 t) (fun _ => bodyPostLast2 V c t) := by
  have h0 : t.val ≠ 0 := by omega
  have hfirst : ¬ isFirst2 (grid2.coords t) := fun e => h0 ((isFirst2_iff t).mp e)
  have hlast : k2_cond2 (grid2.coords t) = 1#1 := (isLast2_iff t).mpr h19
  unfold bodyPre2 bodyPostLast2 bodyAt2
  simp only [before2_0]
  rw [Φ2_eq, Φ2_eq, keeps2_later V c t h0, keeps2_succ,
    show (dat2 V c).owesAt () t.succ = (dat2 V c).owesAt () t.castSucc from rfl, after2_0, after2_1, after2_2,
    sumAt2_later V c t h0, sqAt2_later V c t h0]
  iintro ⟨⟨Hs, Hq, Hoth⟩, Ho, ⟨%d0, H0⟩, ⟨%d1, H1⟩, ⟨%d2, H2⟩⟩
  iapply (body2_last c Set.univ (grid2.coords t) _ _ _ _ _ _ _ _ _ _ hfirst hlast (iblk2 V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  isplitl [Hs Hq Hoth]
  · isplitl [Hs]; · iexact Hs
    isplitl [Hq]; · iexact Hq
    iexact Hoth
  isplitl [Ho]; · iexact Ho
  isplitl [H0]; · iexact H0
  isplitl [H1]; · iexact H1
  iexact H2

/-- The body obligation at every point: the point is the first, a middle one or the last; away from the last the outputs'
    windows are idle and not written back, at the last they are live. -/
theorem body_obligation2 (c : Dev nD) : BodyObligation (dat2 (F := F) V c) (defs₀ (F := F)) Variants.none () Set.univ := fun t => by
  rw [bigSep_W2, bigSep_W2]
  by_cases h19 : t.val = 19
  · simp only [idle2_1_last t h19, idle2_2_last t h19]
    exact sound_body2_last V c t h19
  · simp only [idle2_1_early t h19, idle2_2_early t h19, flush2_1_early t h19, flush2_2_early t h19]
    by_cases h0 : t.val = 0
    · exact sound_body2_first V c t h0
    · exact sound_body2_middle V c t h0 h19

/-! ## Entering and leaving the call -/

theorem pos_zero2 : (0 : Fin (cfg2.N + 1)) = (⟨0, by rw [show cfg2.N = 20 from N_2]; decide⟩ : Fin cfg2.N).castSucc :=
  Fin.ext (by simp)

theorem pos_last2 : Fin.last cfg2.N = (⟨19, by rw [show cfg2.N = 20 from N_2]; decide⟩ : Fin cfg2.N).succ :=
  Fin.ext (by simp [show cfg2.N = 20 from N_2])

/-- On entry the two running rows are among the core's scoped buffers that are no staging buffer of the call, each at some
    contents: that is the invariant before the first point. -/
theorem keeps2_enter (c : Dev nD) :
    iprop((∃ r, prngReg c r) ∗ Pipeline.scopedRest (Ix := Unit) (Name := ℕ) (U := UR sig nD τ) (Lvl := ℕ) (Val := Elt F) spec2 c)
      ⊢ (keeps2 V c 0 : sProp 𝕄) := by
  rw [pos_zero2, keeps2_first V c _ rfl, scopedRest2_split]
  simp only [owns_whole]
  iintro ⟨Hr, ⟨H0, H1⟩, Hrest⟩
  isplitl [H0]; · iexact H0
  isplitl [H1]; · iexact H1
  isplitl [Hrest]; · iexact Hrest
  iexact Hr

/-- After the last point the two running rows, at the totals, go back among the scoped buffers at some contents. -/
theorem keeps2_leave (c : Dev nD) :
    (keeps2 V c (Fin.last cfg2.N) : sProp 𝕄)
      ⊢ iprop((∃ r, prngReg c r) ∗ Pipeline.scopedRest (Ix := Unit) (Name := ℕ) (U := UR sig nD τ) (Lvl := ℕ) (Val := Elt F) spec2 c) := by
  rw [pos_last2, keeps2_succ, scopedRest2_split]
  simp only [owns_whole]
  iintro ⟨H0, H1, Hrest, Hr⟩
  isplitl [Hr]; · iexact Hr
  isplitl [H0 H1]
  · isplitl [H0]
    · iexists _; iexact H0
    iexists _; iexact H1
  iexact Hrest

end Cert.Kernel.Hand

end
-- ==== Proof.BRegion3.lean ====
/- The normalisation region (custom_call 3, `cc3_bn_normalize_kernel`) of the kernel, bit for bit, at a PARAMETER `V` —
   the TensorCore's buffer contents when the region is entered. Six windows over a grid of 20 points: window 0 is
   the 5000x128 block of the array to normalise, fetched at every point; windows 1..4 are four 1x128 rows (mean,
   variance, scale, shift), each fetched at the first point only and left in place after; window 5 is the output,
   one store of the whole 5000x128 block at every point.
   The region is of the simplest class: the body reads its inputs, stores the whole output block once and carries
   nothing from point to point. So the proof data say: after the body each input's buffer holds its block, and the
   output's holds the store's payload `k3_pay1` of the five input blocks; the invariant is the class's (the scoped
   rest and the random-number register, untouched); nothing is owed; full shares. Stated for any `F`. -/
import proofs.«130829_j5128190951936_1_alg».proof.Proof.Gen.Kernel.Launch
import proofs.«130829_j5128190951936_1_alg».proof.Proof.Gen.Kernel.Skeleton
import proofs.«130829_j5128190951936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided coordinate by coordinate along the long axis, which takes
-- this depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the array to normalise, fetched at every point): its current staging buffer holds its block at
    every point, for ANY proof data whose array is `V`'s (`hA`) and whose body leaves the block in place
    (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the mean row, fetched at the first point only): at a point where it is not fetched the block
    index has not moved, so the buffer still holds the block — the same statement, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the variance row, fetched at the first point only). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 (the scale row, fetched at the first point only). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 (the shift row, fetched at the first point only). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 block. -/
abbrev r3_0 : Rect S5000x128 := Rect.unit (s := S5000x128) ![0, 0] S5000x128.size inb_S5000x128_S5000x128_0_0
/-- The whole 1x128 row. -/
abbrev r3_1 : Rect S1x128 := Rect.unit (s := S1x128) ![0, 0] S1x128.size inb_S1x128_S1x128_0_0

/-! ## What the body leaves in the output window's buffer -/

/-- Window 5's staging buffer after the body, from the five input windows' blocks: its one store as a piece, with
    payload `k3_pay1`. -/
def out3_5 (x0 : Vec F S5000x128 .f32) (x1 : Vec F S1x128 .f32) (x2 : Vec F S1x128 .f32) (x3 : Vec F S1x128 .f32) (x4 : Vec F S1x128 .f32) :
    Vec F S5000x128 .f32 :=
  View.canon [⟨r3_0, k3_pay1 (View.ld x0 r3_0) (View.ld x1 r3_1) (View.ld x2 r3_1) (View.ld x3 r3_1) (View.ld x4 r3_1)⟩]

/-- The one store is of the whole buffer (checked by evaluation), so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3_bn_normalize_kernel i arg1 harg1 arg2 harg2 arg3 harg3 arg4 harg4 arg5 harg5 arg6 harg6) K := by
  simp only [cc3_bn_normalize_kernel_eq_skeleton]; unfold cc3_bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and the output's at `out3_5` of the input blocks; the class's invariant;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.BRegion4.lean ====
/- Region 4 of @main, `cc4_matmul_kernel` (the second layer's matrix product), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out4_2`); the proof data `dat4` records this per point, and `body_obligation4` is the library's obligation for it.
   The body reads the output buffer once before overwriting it whole; what it read does not enter the stored value. -/
import proofs.«130829_j5128190951936_1_alg».proof.Proof.Gen.Kernel.Launch
import proofs.«130829_j5128190951936_1_alg».proof.Proof.Gen.Kernel.Skeleton
import proofs.«130829_j5128190951936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not it was fetched there (a
    point that does not fetch it has the block index of the point before), for any proof data whose array is `V`'s
    and whose body leaves the block in place. The window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether or not it was fetched there (a
    point that does not fetch it has the block index of the point before), for any proof data whose array is `V`'s
    and whose body leaves the block in place. The window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out4_2 (x0 : Vec F S5000x128 .f32) (x1 : Vec F S128x128 .f32) : Vec F S5000x128 .f32 :=
  View.canon [⟨r4_2, k4_pay1 (View.ld x0 r4_0) (View.ld x1 r4_1)⟩]

/-- The store's rectangle is the whole buffer, so it covers it. -/
theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

/-! ## The body's triple -/

set_option maxHeartbeats 1000000 in
/-- The kernel body on whole staging memrefs, the inputs' at read contents `xW` and the output's at anything, runs to
    the continuation holding the inputs' as they were and the output's at `out4_2` of the inputs', at any grid point. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_matmul_kernel i arg1 harg1 arg2 harg2 arg3 harg3) K := by
  simp only [cc4_matmul_kernel_eq_skeleton]; unfold cc4_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point `t`
    each input's buffer at its block and the output's at `out4_2` of the input blocks; the invariant is the scoped rest
    and the random-number register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BRegion5.lean ====
/- Region 5 of @main, `cc5_combine_kernel` (the second layer's sum of the aggregate, the scaled self term and the bias row), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out5_3`); the proof data `dat5` records this per point, and `body_obligation5` is the library's obligation for it.
   The body reads the output buffer once before overwriting it whole; what it read does not enter the stored value. -/
import proofs.«130829_j5128190951936_1_alg».proof.Proof.Gen.Kernel.Launch
import proofs.«130829_j5128190951936_1_alg».proof.Proof.Gen.Kernel.Skeleton
import proofs.«130829_j5128190951936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not it was fetched there (a
    point that does not fetch it has the block index of the point before), for any proof data whose array is `V`'s
    and whose body leaves the block in place. The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not it was fetched there (a
    point that does not fetch it has the block index of the point before), for any proof data whose array is `V`'s
    and whose body leaves the block in place. The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not it was fetched there (a
    point that does not fetch it has the block index of the point before), for any proof data whose array is `V`'s
    and whose body leaves the block in place. The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S5000x128 := Rect.unit (s := S5000x128) ![0, 0] S5000x128.size inb_S5000x128_S5000x128_0_0
abbrev r5_1 : Rect S5000x128 := Rect.unit (s := S5000x128) ![0, 0] S5000x128.size inb_S5000x128_S5000x128_0_0
abbrev r5_2 : Rect S1x128 := Rect.unit (s := S1x128) ![0, 0] S1x128.size inb_S1x128_S1x128_0_0
abbrev r5_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out5_3 (x0 : Vec F S5000x128 .f32) (x1 : Vec F S5000x128 .f32) (x2 : Vec F S1x128 .f32) : Vec F S5000x128 .f32 :=
  View.canon [⟨r5_3, k5_pay1 (View.ld x0 r5_0) (View.ld x1 r5_1) (View.ld x2 r5_2)⟩]

/-- The store's rectangle is the whole buffer, so it covers it. -/
theorem cover5_3 (p0 : Vec F S5000x128 .f32) (y : S5000x128.Idx) :
    ∃ pc ∈ ([⟨r5_3, p0⟩] : List (View.Piece (Elt F) S5000x128 .f32)), y ∈ pc.1.set :=
  View.cover_of_tiled [⟨r5_3, p0⟩] S5000x128.size (by rfl) y

/-! ## The body's triple -/

set_option maxHeartbeats 1000000 in
/-- The kernel body on whole staging memrefs, the inputs' at read contents `xW` and the output's at anything, runs to
    the continuation holding the inputs' as they were and the output's at `out5_3` of the inputs', at any grid point. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_combine_kernel i arg1 harg1 arg2 harg2 arg3 harg3 arg4 harg4) K := by
  simp only [cc5_combine_kernel_eq_skeleton]; unfold cc5_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant is the scoped rest
    and the random-number register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BRun.lean ====
/- THE RUN of @main: ten segments from the launch to the return — four stretches of host operations and six kernel
   regions — chained over one thread state per boundary: every unscoped buffer of the core held at the boundary's
   contents `WJ`, the random-number register at some state, nothing owed. The contents are a fold from the launch memory:
   a host stretch maps them through its operations; a region replaces its windows' arrays by what its pipeline leaves
   there (an input as entered, an output's write-backs folded over the grid) and keeps every other buffer. The theorem
   `run_all`: every weakly fair execution terminates and the final memory holds every unscoped buffer at `W10`; read at
   an argument, `W10` walks back to the launch memory (no host operation and no region writes one); read at the last
   region's output array it is what that pipeline leaves. -/
import proofs.«130829_j5128190951936_1_alg».proof.Proof.BRegion0
import proofs.«130829_j5128190951936_1_alg».proof.Proof.BRegion1
import proofs.«130829_j5128190951936_1_alg».proof.Proof.BRegion2
import proofs.«130829_j5128190951936_1_alg».proof.Proof.BRegion3
import proofs.«130829_j5128190951936_1_alg».proof.Proof.BRegion4
import proofs.«130829_j5128190951936_1_alg».proof.Proof.BRegion5
import proofs.«130829_j5128190951936_1_alg».proof.Proof.Gen.Kernel.Launch
import proofs.«130829_j5128190951936_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership among the program's 129 references is decided one by one
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, each output's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At region 1's exit: its arrays at what the pipeline leaves (the inputs as entered, each output's write-backs
    folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b

/-- At region 2's exit: its arrays at what the pipeline leaves (the inputs as entered, each output's write-backs
    folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, each output's write-backs
    folded over the grid), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves (the inputs as entered, each output's write-backs
    folded over the grid), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves and every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5`. -/
abbrev W9 : Dev nD → Valuation τ sig (Elt F) := fun c => StableHlo.after hostOps5 (W8 m ρ c)
/-- The same read at the TensorCore's references. -/
abbrev V9 : (c : Dev nD) → (b : Ref sig .tc) → Buf (Elt F) ((c : Thread nD τ).loc b) := fun c b => W9 m ρ c b

/-- At region 5's exit: its arrays at what the pipeline leaves (the inputs as entered, each output's write-backs
    folded over the grid), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references (region 5's exit contents). -/
abbrev V10 : (c : Dev nD) → (b : Ref sig .tc) → Buf (Elt F) ((c : Thread nD τ).loc b) := fun c b => W10 m ρ c b
/-- At region 5's exit each of its arrays holds what the pipeline leaves and every other buffer what it held at entry. -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ### The arguments end as launched: no host operation writes one, and a region either stages it through an input
    window (which it leaves as entered) or does not name it -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps5 _ hostOps5_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps5 _ hostOps5_writes (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps5 _ hostOps5_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps5 _ hostOps5_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps5 _ hostOps5_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps5 _ hostOps5_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps5 _ hostOps5_writes (by decide)
    _ = W7 m ρ c (Proc.devRef .tc main_arg6) := (W8_arr m ρ c 1).trans (((dat4 (V7 m ρ) c).arrAt_in 1 rfl _).trans (A_eq4 (V7 m ρ) c 1))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps5 _ hostOps5_writes (by decide)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The last region's output array ends at what its pipeline leaves there. -/
theorem W10_result (c : Dev nD) : W10 m ρ c (Proc.devRef .tc main_v68) = (dat5 (V9 m ρ) c).arrAt 3 cfg5.N :=
  W10_arr m ρ c 3

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and what it owes, nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W10`, the
    random-number register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the random-number register goes into the pipeline's
    invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the random-number register goes into the pipeline's
    invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the random-number register goes into the pipeline's
    invariant and comes back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = keeps2 (V5 m ρ) c 0 from rfl]
    iintro ⟨Hp, -, Hr⟩
    iapply (keeps2_enter (V5 m ρ) c)
    isplitl [Hp] <;> iassumption
  hout c := by
    rw [Pipeline.ownSems0_none, show (pdats m ρ 2 c).Φ (Fin.last _) = keeps2 (V5 m ρ) c (Fin.last cfg2.N) from rfl]
    iintro H
    ihave H' := (keeps2_leave (V5 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are split
    out of the unscoped buffers and put back at the exit contents; the random-number register goes into the pipeline's
    invariant and comes back; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. Its arrays are split
    out of the unscoped buffers and put back at the exit contents; the random-number register goes into the pipeline's
    invariant and comes back; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. Its arrays are split
    out of the unscoped buffers and put back at the exit contents; the random-number register goes into the pipeline's
    invariant and comes back; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 10 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ),
    .host (hseg hostOps5 hostOps5_sub hostOps5_fresh (W8 m ρ)),
    .region (reg5 m ρ) ]

set_option backward.isDefEq.respectTransparency.types false in
/-- At the compiled mesh, from any memory with zero counters, every weakly fair execution of @main on the TensorCores
    terminates, nothing faulting, and every final state holds every unscoped buffer of every core at `W10`: the segments
    chained from the launch's thread state, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit_dev (pcfgs (F := F)) adm (pdats m ρ) () cellOf_inj emb₁ defs₀ 𝒱₀ L lv m ρ main (fun _ => segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.Kernel.Hand

end
-- ==== Proof.IRegion0.lean ====
/- Region 0 of @main, `cc0_matmul_kernel` (the first layer's matrix product), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out0_2`); the proof data `dat0` records this per point, and `body_obligation0` is the library's obligation for it.
   The body reads the output buffer once before overwriting it whole; what it read does not enter the stored value. -/
import proofs.«130829_j5128190951936_1_alg».proof.Proof.Gen.KernelIdeal.Launch
import proofs.«130829_j5128190951936_1_alg».proof.Proof.Gen.KernelIdeal.Skeleton
import proofs.«130829_j5128190951936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there (a
    point that does not fetch it has the block index of the point before), for any proof data whose array is `V`'s
    and whose body leaves the block in place. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not it was fetched there (a
    point that does not fetch it has the block index of the point before), for any proof data whose array is `V`'s
    and whose body leaves the block in place. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out0_2 (x0 : Vec F S5000x64 .f32) (x1 : Vec F S64x128 .f32) : Vec F S5000x128 .f32 :=
  View.canon [⟨r0_2, k0_pay1 (View.ld x0 r0_0) (View.ld x1 r0_1)⟩]

/-- The store's rectangle is the whole buffer, so it covers it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The kernel body on whole staging memrefs, the inputs' at read contents `xW` and the output's at anything, runs to
    the continuation holding the inputs' as they were and the output's at `out0_2` of the inputs', at any grid point. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant is the scoped rest
    and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IRegion1.lean ====
/- Region 1 of @main, `cc1_combine_kernel` (the first layer's sum of the aggregate, the scaled self term and the bias row), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out1_3`); the proof data `dat1` records this per point, and `body_obligation1` is the library's obligation for it.
   The body reads the output buffer once before overwriting it whole; what it read does not enter the stored value. -/
import proofs.«130829_j5128190951936_1_alg».proof.Proof.Gen.KernelIdeal.Launch
import proofs.«130829_j5128190951936_1_alg».proof.Proof.Gen.KernelIdeal.Skeleton
import proofs.«130829_j5128190951936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there (a
    point that does not fetch it has the block index of the point before), for any proof data whose array is `V`'s
    and whose body leaves the block in place. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not it was fetched there (a
    point that does not fetch it has the block index of the point before), for any proof data whose array is `V`'s
    and whose body leaves the block in place. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not it was fetched there (a
    point that does not fetch it has the block index of the point before), for any proof data whose array is `V`'s
    and whose body leaves the block in place. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S5000x128 := Rect.unit (s := S5000x128) ![0, 0] S5000x128.size inb_S5000x128_S5000x128_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out1_3 (x0 : Vec F S5000x128 .f32) (x1 : Vec F S5000x128 .f32) (x2 : Vec F S1x128 .f32) : Vec F S5000x128 .f32 :=
  View.canon [⟨r1_3, k1_pay1 (View.ld x0 r1_0) (View.ld x1 r1_1) (View.ld x2 r1_2)⟩]

/-- The store's rectangle is the whole buffer, so it covers it. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The body's triple -/

set_option maxHeartbeats 1000000 in
/-- The kernel body on whole staging memrefs, the inputs' at read contents `xW` and the output's at anything, runs to
    the continuation holding the inputs' as they were and the output's at `out1_3` of the inputs', at any grid point. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_combine_kernel i arg1 harg1 arg2 harg2 arg3 harg3 arg4 harg4) K := by
  simp only [cc1_combine_kernel_eq_skeleton]; unfold cc1_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant is the scoped rest
    and the random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IRegion2.lean ====
/-
  The third pallas_call of the kernel: per-column sums of the batch-norm input and of its squares, accumulated over the
  twenty blocks of 5000 rows in two row buffers that persist between grid points, and, at the last point, the column mean
  (sum / 100000) and the column variance (sum of squares / 100000 - mean * mean) written to the two outputs.
  A grid point is one of three kinds: the first (the two running rows are zeroed, then the block is added), a middle one (the
  block is added), the last (the block is added, then mean and variance are formed from the running rows). The outputs' staging
  rows are touched at the last point only; everywhere else they are handed back as they were found.
  Stated for any float instance, at a parameter `V`: the contents of the buffers when the call is entered.
-/
import proofs.«130829_j5128190951936_1_alg».proof.Proof.Gen.KernelIdeal.Launch
import proofs.«130829_j5128190951936_1_alg».proof.Proof.Gen.KernelIdeal.Skeleton
import proofs.«130829_j5128190951936_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the twenty grid points -/

/-- "This is the first grid point", as the body computes it from the grid coordinate. -/
abbrev isFirst2 (i : grid2.Coords) : Prop :=
  (Scalar.cmpi .ne (Scalar.extui (Scalar.cmpi .eq (BitVec.ofNat 32 (i 0).val) 0#32)) 0#32) = 1#1

/-- It holds at point 0 only. -/
theorem isFirst2_iff : ∀ t : Fin cfg2.N, isFirst2 (grid2.coords t) ↔ t.val = 0 :=
  (by decide +kernel : ∀ t : Fin grid2.N, isFirst2 (grid2.coords t) ↔ t.val = 0)

/-- "This is the last grid point" holds at point 19 only. -/
theorem isLast2_iff : ∀ t : Fin cfg2.N, k2_cond2 (grid2.coords t) = 1#1 ↔ t.val = 19 :=
  (by decide +kernel : ∀ t : Fin grid2.N, k2_cond2 (grid2.coords t) = 1#1 ↔ t.val = 19)

/-! ## Whole-row and whole-block accesses -/

theorem zero_off2 : (![0, 0] : Fin 2 → Nat) = fun _ => 0 := by
  funext a; match a with | ⟨0, _⟩ => rfl | ⟨1, _⟩ => rfl

/-- A store of a whole 1x128 row, made last, leaves its payload, whatever was stored before. -/
theorem read_store_row {κ : Kind} {sp : Space} (v : View sig κ sp S1x128 .f32) (f : v.ty.Contents (Elt F)) (w : Vec F S1x128 .f32)
    (L : List (View.Piece (Elt F) S1x128 .f32)) :
    v.read (Elt F) (v.writes (Elt F) f (⟨Rect.unit (s := S1x128) ![0, 0] S1x128.size inb_S1x128_S1x128_0_0, w⟩ :: L)) = w := by
  refine (View.read_writes_eq_canon v f _ fun y => ?_).trans (View.canon_cons_unit_zero zero_off2 _ w L)
  obtain ⟨p, hp, hy⟩ := View.cover_of_tiled [(⟨Rect.unit (s := S1x128) ![0, 0] S1x128.size inb_S1x128_S1x128_0_0, w⟩ : View.Piece (Elt F) S1x128 .f32)] S1x128.size (by rfl) y
  exact ⟨p, List.mem_cons.mpr (Or.inl (List.mem_singleton.mp hp)), hy⟩

/-- A load of a whole row after one store of a whole row reads what was stored. -/
theorem readCov_row {κ : Kind} {sp : Space} (v : View sig κ sp S1x128 .f32) (w : Vec F S1x128 .f32) :
    v.readCov [(⟨Rect.unit (s := S1x128) ![0, 0] S1x128.size inb_S1x128_S1x128_0_0, w⟩ : View.Piece (Elt F) S1x128 .f32)]
      (Rect.unit (s := S1x128) ![0, 0] S1x128.size inb_S1x128_S1x128_0_0).toLoadRect = w :=
  View.readCov_unit_zero v zero_off2 _ w

/-- A load of a whole row, or of a whole 5000x128 block, reads the contents. -/
theorem ld_row (X : Vec F S1x128 .f32) : View.ld X (Rect.unit (s := S1x128) ![0, 0] S1x128.size inb_S1x128_S1x128_0_0) = X :=
  View.ld_unit_zero zero_off2 _ X
theorem ld_block (X : Vec F S5000x128 .f32) : View.ld X (Rect.unit (s := S5000x128) ![0, 0] S5000x128.size inb_S5000x128_S5000x128_0_0) = X :=
  View.ld_unit_zero zero_off2 _ X

/-! ## The body at a middle point: the block is added to the two running rows -/

set_option maxHeartbeats 1000000 in
/-- Neither first nor last: with the block `x` in the input row-block and the running rows at `s`, `q`, the body leaves the
    block in place, the running sum at `s` plus the block's column sums and the running sum of squares at `q` plus the
    column sums of the block's squares. The outputs' rows are not touched. -/
theorem body2_middle (c : Dev nD) (E : Set ℕ) (i : grid2.Coords)
    (a1 : Memref sig .tc .vmem S5000x128 .f32) (ha1 : a1.IsWhole) (a2 : Memref sig .tc .vmem S1x128 .f32) (ha2 : a2.IsWhole)
    (a3 : Memref sig .tc .vmem S1x128 .f32) (ha3 : a3.IsWhole) (a4 : Memref sig .tc .vmem S1x128 .f32) (ha4 : a4.IsWhole)
    (a5 : Memref sig .tc .vmem S1x128 .f32) (ha5 : a5.IsWhole)
    (hfirst : ¬ isFirst2 i) (hlast : ¬ k2_cond2 i = 1#1)
    (x : Vec F S5000x128 .f32) (s q : Vec F S1x128 .f32) (K : PUnit → sProp 𝕄) :
    iprop(owns (c : Thread nD τ) a1 fullShare x ∗ owns (c : Thread nD τ) a4 fullShare s ∗ owns (c : Thread nD τ) a5 fullShare q
        ∗ (iprop(owns (c : Thread nD τ) a1 fullShare x ∗ owns (c : Thread nD τ) a4 fullShare (k2_pay4 x s)
            ∗ owns (c : Thread nD τ) a5 fullShare (k2_pay5 x q)) -∗ K ⟨⟩))
      ⊢ wp frame (wpE (defs₀ (F := F)) Variants.none c none) E (cc2_bn_reduce_kernel i a1 ha1 a2 ha2 a3 ha3 a4 ha4 a5 ha5) K := by
  simp only [cc2_bn_reduce_kernel_eq_skeleton]; unfold cc2_bn_reduce_kernel_skel
  unfold owns
  iintro ⟨⟨%f1, %hf1, H1⟩, ⟨%f4, %hf4, H4⟩, ⟨%f5, %hf5, H5⟩, Hk⟩
  subst hf1 hf4 hf5
  sl_exec (disch := first | exact hfirst | exact hlast)
  sl_step
  iapply Hk
  isplitl [H1]
  · iexists f1; isplitr; · ipureintro; rfl
    iexact H1
  isplitl [H4]
  · iexists _; isplitr
    swap; · iexact H4
    ipureintro
    rw [read_store_row, View.readAt_eq_ld, View.readAt_eq_ld, ld_block, ld_row]
  · iexists _; isplitr
    swap; · iexact H5
    ipureintro
    rw [read_store_row, View.readAt_eq_ld, View.readAt_eq_ld, ld_block, ld_row]

/-! ## The body at the first point: the running rows are zeroed, then the block is added -/

set_option maxHeartbeats 1000000 in
theorem body2_first (c : Dev nD) (E : Set ℕ) (i : grid2.Coords)
    (a1 : Memref sig .tc .vmem S5000x128 .f32) (ha1 : a1.IsWhole) (a2 : Memref sig .tc .vmem S1x128 .f32) (ha2 : a2.IsWhole)
    (a3 : Memref sig .tc .vmem S1x128 .f32) (ha3 : a3.IsWhole) (a4 : Memref sig .tc .vmem S1x128 .f32) (ha4 : a4.IsWhole)
    (a5 : Memref sig .tc .vmem S1x128 .f32) (ha5 : a5.IsWhole)
    (hfirst : isFirst2 i) (hlast : ¬ k2_cond2 i = 1#1)
    (x : Vec F S5000x128 .f32) (s q : Vec F S1x128 .f32) (K : PUnit → sProp 𝕄) :
    iprop(owns (c : Thread nD τ) a1 fullShare x ∗ owns (c : Thread nD τ) a4 fullShare s ∗ owns (c : Thread nD τ) a5 fullShare q
        ∗ (iprop(owns (c : Thread nD τ) a1 fullShare x ∗ owns (c : Thread nD τ) a4 fullShare (k2_pay4 x (k2_pay1 (F := F)))
            ∗ owns (c : Thread nD τ) a5 fullShare (k2_pay5 x (k2_pay2 (F := F)))) -∗ K ⟨⟩))
      ⊢ wp frame (wpE (defs₀ (F := F)) Variants.none c none) E (cc2_bn_reduce_kernel i a1 ha1 a2 ha2 a3 ha3 a4 ha4 a5 ha5) K := by
  simp only [cc2_bn_reduce_kernel_eq_skeleton]; unfold cc2_bn_reduce_kernel_skel
  unfold owns
  iintro ⟨⟨%f1, %hf1, H1⟩, ⟨%f4, %hf4, H4⟩, ⟨%f5, %hf5, H5⟩, Hk⟩
  subst hf1 hf4 hf5
  sl_exec (disch := first | exact hfirst | exact hlast)
  sl_step
  iapply Hk
  isplitl [H1]
  · iexists f1; isplitr; · ipureintro; rfl
    iexact H1
  isplitl [H4]
  · iexists _; isplitr
    swap; · iexact H4
    ipureintro
    rw [read_store_row]
    sl_unfold_run_names
    rw [readCov_row, View.readAt_eq_ld, ld_block]
  · iexists _; isplitr
    swap; · iexact H5
    ipureintro
    rw [read_store_row]
    sl_unfold_run_names
    rw [readCov_row, View.readAt_eq_ld, ld_block]

/-! ## The body at the last point: the block is added, then mean and variance are formed -/

set_option maxHeartbeats 1000000 in
theorem body2_last (c : Dev nD) (E : Set ℕ) (i : grid2.Coords)
    (a1 : Memref sig .tc .vmem S5000x128 .f32) (ha1 : a1.IsWhole) (a2 : Memref sig .tc .vmem S1x128 .f32) (ha2 : a2.IsWhole)
    (a3 : Memref sig .tc .vmem S1x128 .f32) (ha3 : a3.IsWhole) (a4 : Memref sig .tc .vmem S1x128 .f32) (ha4 : a4.IsWhole)
    (a5 : Memref sig .tc .vmem S1x128 .f32) (ha5 : a5.IsWhole)
    (hfirst : ¬ isFirst2 i) (hlast : k2_cond2 i = 1#1)
    (x : Vec F S5000x128 .f32) (s q d2 d3 : Vec F S1x128 .f32) (K : PUnit → sProp 𝕄) :
    iprop(owns (c : Thread nD τ) a1 fullShare x ∗ owns (c : Thread nD τ) a2 fullShare d2 ∗ owns (c : Thread nD τ) a3 fullShare d3
        ∗ owns (c : Thread nD τ) a4 fullShare s ∗ owns (c : Thread nD τ) a5 fullShare q
        ∗ (iprop(owns (c : Thread nD τ) a1 fullShare x ∗ owns (c : Thread nD τ) a2 fullShare (k2_pay6 (k2_pay4 x s))
            ∗ owns (c : Thread nD τ) a3 fullShare (k2_pay7 (k2_pay4 x s) (k2_pay5 x q))
            ∗ owns (c : Thread nD τ) a4 fullShare (k2_pay4 x s) ∗ owns (c : Thread nD τ) a5 fullShare (k2_pay5 x q)) -∗ K ⟨⟩))
      ⊢ wp frame (wpE (defs₀ (F := F)) Variants.none c none) E (cc2_bn_reduce_kernel i a1 ha1 a2 ha2 a3 ha3 a4 ha4 a5 ha5) K := by
  simp only [cc2_bn_reduce_kernel_eq_skeleton]; unfold cc2_bn_reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact hfirst | exact hlast)
  sl_step
  iapply Hk
  isplitl [H1]
  · iexists f1; isplitr; · ipureintro; rfl
    iexact H1
  isplitl [H2]
  · iexists _; isplitr
    swap; · iexact H2
    ipureintro
    rw [read_store_row]
    sl_unfold_run_names
    rw [readCov_row, View.readAt_eq_ld, View.readAt_eq_ld, ld_block, ld_row]
  isplitl [H3]
  · iexists _; isplitr
    swap; · iexact H3
    ipureintro
    rw [read_store_row]
    sl_unfold_run_names
    rw [readCov_row, readCov_row, View.readAt_eq_ld, View.readAt_eq_ld, View.readAt_eq_ld, ld_block, ld_row, ld_row]
  isplitl [H4]
  · iexists _; isplitr
    swap; · iexact H4
    ipureintro
    sl_unfold_run_names
    rw [read_store_row, View.readAt_eq_ld, View.readAt_eq_ld, ld_block, ld_row]
  · iexists _; isplitr
    swap; · iexact H5
    ipureintro
    sl_unfold_run_names
    rw [read_store_row, View.readAt_eq_ld, View.readAt_eq_ld, ld_block, ld_row]

/-! ## The block of each window, and the running rows after each point -/

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's current staging buffer holds the point's block of 5000 rows, at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The running column sums after the body at point `n`: zero plus the column sums of blocks 0 … n, added in that order. -/
def sumAt2 (c : Dev nD) : (n : ℕ) → n < cfg2.N → Vec F S1x128 .f32
  | 0, hn => k2_pay4 (iblk2 V c 0 ⟨0, hn⟩) (k2_pay1 (F := F))
  | n + 1, hn => k2_pay4 (iblk2 V c 0 ⟨n + 1, hn⟩) (sumAt2 c n (Nat.lt_of_succ_lt hn))

/-- The running column sums of squares after the body at point `n`. -/
def sqAt2 (c : Dev nD) : (n : ℕ) → n < cfg2.N → Vec F S1x128 .f32
  | 0, hn => k2_pay5 (iblk2 V c 0 ⟨0, hn⟩) (k2_pay2 (F := F))
  | n + 1, hn => k2_pay5 (iblk2 V c 0 ⟨n + 1, hn⟩) (sqAt2 c n (Nat.lt_of_succ_lt hn))

theorem sumAt2_first (c : Dev nD) (t : Fin cfg2.N) (h0 : t.val = 0) :
    sumAt2 V c t.val t.isLt = k2_pay4 (iblk2 V c 0 t) (k2_pay1 (F := F)) := by
  obtain ⟨n, hn⟩ := t
  cases n with
  | zero => rfl
  | succ n => exact absurd h0 (Nat.succ_ne_zero n)

theorem sumAt2_later (c : Dev nD) (t : Fin cfg2.N) (h0 : t.val ≠ 0) :
    sumAt2 V c t.val t.isLt = k2_pay4 (iblk2 V c 0 t) (sumAt2 V c (t.val - 1) (Nat.lt_of_le_of_lt (Nat.sub_le _ _) t.isLt)) := by
  obtain ⟨n, hn⟩ := t
  cases n with
  | zero => exact absurd rfl h0
  | succ n => rfl

theorem sqAt2_first (c : Dev nD) (t : Fin cfg2.N) (h0 : t.val = 0) :
    sqAt2 V c t.val t.isLt = k2_pay5 (iblk2 V c 0 t) (k2_pay2 (F := F)) := by
  obtain ⟨n, hn⟩ := t
  cases n with
  | zero => rfl
  | succ n => exact absurd h0 (Nat.succ_ne_zero n)

theorem sqAt2_later (c : Dev nD) (t : Fin cfg2.N) (h0 : t.val ≠ 0) :
    sqAt2 V c t.val t.isLt = k2_pay5 (iblk2 V c 0 t) (sqAt2 V c (t.val - 1) (Nat.lt_of_le_of_lt (Nat.sub_le _ _) t.isLt)) := by
  obtain ⟨n, hn⟩ := t
  cases n with
  | zero => exact absurd rfl h0
  | succ n => rfl

/-! ## What persists between grid points -/

/-- Every scoped buffer of the core that is neither a staging buffer of this call nor one of its two running rows, at some
    contents each, and the random-number register at some state: carried through the call unopened. -/
abbrev others2 (c : Dev nD) : sProp 𝕄 :=
  iprop(Pipeline.scopedRestBut (Ix := Unit) (Name := ℕ) (U := UR sig nD τ) (Lvl := ℕ) (Val := Elt F) spec2 c [cc2_scratch0, cc2_scratch1]
    ∗ ∃ r, prngReg c r)

/-- The call's invariant at position `n` of the grid: before the first point the two running rows hold anything; after the
    body at point `k` they hold the running sums through block `k`. -/
def keeps2 (c : Dev nD) : Fin (cfg2.N + 1) → sProp 𝕄
  | ⟨0, _⟩ => iprop((∃ s, owns (c : Thread nD τ) (Memref.whole cc2_scratch0 : Memref sig .tc .vmem S1x128 .f32) fullShare s)
      ∗ (∃ q, owns (c : Thread nD τ) (Memref.whole cc2_scratch1 : Memref sig .tc .vmem S1x128 .f32) fullShare q) ∗ others2 c)
  | ⟨k + 1, h⟩ => iprop(owns (c : Thread nD τ) (Memref.whole cc2_scratch0 : Memref sig .tc .vmem S1x128 .f32) fullShare (sumAt2 V c k (Nat.lt_of_succ_lt_succ h))
      ∗ owns (c : Thread nD τ) (Memref.whole cc2_scratch1 : Memref sig .tc .vmem S1x128 .f32) fullShare (sqAt2 V c k (Nat.lt_of_succ_lt_succ h)) ∗ others2 c)

theorem keeps2_succ (c : Dev nD) (t : Fin cfg2.N) :
    keeps2 V c t.succ = iprop(owns (c : Thread nD τ) (Memref.whole cc2_scratch0 : Memref sig .tc .vmem S1x128 .f32) fullShare (sumAt2 V c t.val t.isLt)
      ∗ owns (c : Thread nD τ) (Memref.whole cc2_scratch1 : Memref sig .tc .vmem S1x128 .f32) fullShare (sqAt2 V c t.val t.isLt) ∗ others2 c) := by
  obtain ⟨n, hn⟩ := t; rfl

theorem keeps2_first (c : Dev nD) (t : Fin cfg2.N) (h0 : t.val = 0) :
    keeps2 V c t.castSucc = iprop((∃ s, owns (c : Thread nD τ) (Memref.whole cc2_scratch0 : Memref sig .tc .vmem S1x128 .f32) fullShare s)
      ∗ (∃ q, owns (c : Thread nD τ) (Memref.whole cc2_scratch1 : Memref sig .tc .vmem S1x128 .f32) fullShare q) ∗ others2 c) := by
  obtain ⟨n, hn⟩ := t
  cases n with
  | zero => rfl
  | succ n => exact absurd h0 (Nat.succ_ne_zero n)

theorem keeps2_later (c : Dev nD) (t : Fin cfg2.N) (h0 : t.val ≠ 0) :
    keeps2 V c t.castSucc = iprop(owns (c : Thread nD τ) (Memref.whole cc2_scratch0 : Memref sig .tc .vmem S1x128 .f32) fullShare (sumAt2 V c (t.val - 1) (Nat.lt_of_le_of_lt (Nat.sub_le _ _) t.isLt))
      ∗ owns (c : Thread nD τ) (Memref.whole cc2_scratch1 : Memref sig .tc .vmem S1x128 .f32) fullShare (sqAt2 V c (t.val - 1) (Nat.lt_of_le_of_lt (Nat.sub_le _ _) t.isLt)) ∗ others2 c) := by
  obtain ⟨n, hn⟩ := t
  cases n with
  | zero => exact absurd rfl h0
  | succ n => rfl

/-! ## The proof data -/

/-- The proof data of this call on core `c`: the arrays as it finds them; after the body at point `t` the input's buffer at
    its block, the two outputs' at the mean and the variance formed from the running rows through block `t` (what the body
    stores there at the last point, the only one at which these buffers are written or written back); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay6 (sumAt2 V c t.val t.isLt)
    | ⟨2, _⟩ => k2_pay7 (sumAt2 V c t.val t.isLt) (sqAt2 V c t.val t.isLt)
  Φ n := keeps2 V c n
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = k2_pay6 (sumAt2 V c t.val t.isLt) := by dsimp only [dat2]
theorem after2_2 (c : Dev nD) (t : Fin cfg2.N) : (dat2 V c).after 2 t = k2_pay7 (sumAt2 V c t.val t.isLt) (sqAt2 V c t.val t.isLt) := by
  dsimp only [dat2]

theorem before2_0 (c : Dev nD) (t : Fin cfg2.N) (d) : (dat2 V c).before 0 t d = iblk2 V c 0 t :=
  before2_0_of V (dat2 V c) (A_eq2 V c 0) (after2_0 V c) t d

theorem Φ2_eq (c : Dev nD) (n : Fin (cfg2.N + 1)) : (dat2 V c).Φ n = keeps2 V c n := by dsimp only [dat2]

/-! ## Where the outputs' windows are idle, and where they are written back -/

theorem idle2_1_early (t : Fin cfg2.N) (h : t.val ≠ 19) : idle2 1 (grid2.coords t) = true := by
  have hl : ¬ k2_cond2 (grid2.coords t) = 1#1 := fun e => h ((isLast2_iff t).mp e)
  show (!(k2_cond2 (grid2.coords t) == 1#1)) = true
  rw [Bool.not_eq_true', beq_eq_false_iff_ne]; exact hl
theorem idle2_2_early (t : Fin cfg2.N) (h : t.val ≠ 19) : idle2 2 (grid2.coords t) = true := by
  have hl : ¬ k2_cond2 (grid2.coords t) = 1#1 := fun e => h ((isLast2_iff t).mp e)
  show (!(k2_cond2 (grid2.coords t) == 1#1)) = true
  rw [Bool.not_eq_true', beq_eq_false_iff_ne]; exact hl
theorem idle2_1_last (t : Fin cfg2.N) (h : t.val = 19) : idle2 1 (grid2.coords t) = false := by
  show (!(k2_cond2 (grid2.coords t) == 1#1)) = false
  rw [(isLast2_iff t).mpr h]; rfl
theorem idle2_2_last (t : Fin cfg2.N) (h : t.val = 19) : idle2 2 (grid2.coords t) = false := by
  show (!(k2_cond2 (grid2.coords t) == 1#1)) = false
  rw [(isLast2_iff t).mpr h]; rfl
theorem flush2_1_early (t : Fin cfg2.N) (h : t.val ≠ 19) : (cfg2.win 1).flush t = false := by
  have hN : t.val < 20 := lt_of_lt_of_eq t.isLt (show cfg2.N = 20 from N_2)
  exact Bool.eq_false_iff.mpr fun e => by have := (flush2_1 t).mp e; omega
theorem flush2_2_early (t : Fin cfg2.N) (h : t.val ≠ 19) : (cfg2.win 2).flush t = false := by
  have hN : t.val < 20 := lt_of_lt_of_eq t.isLt (show cfg2.N = 20 from N_2)
  exact Bool.eq_false_iff.mpr fun e => by have := (flush2_2 t).mp e; omega

/-! ## The body obligation -/

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns away from the last point: the outputs' rows as they were found. -/
def bodyPostEarly2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ (∃ d, owns (c : Thread nD τ) (st2_1 t) fullShare ((dat2 V c).before 1 t d))
    ∗ (∃ d, owns (c : Thread nD τ) (st2_2 t) fullShare ((dat2 V c).before 2 t d)))

/-- What it returns at the last point: the outputs' rows at the mean and the variance. -/
def bodyPostLast2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
theorem sound_body2_middle (c : Dev nD) (t : Fin cfg2.N) (h0 : t.val ≠ 0) (h19 : t.val ≠ 19) :
    bodyPre2 V c t ⊢ wp frame (wpE (defs₀ (F := F)) Variants.none c none) Set.univ (bodyAt2 t) (fun _ => bodyPostEarly2 V c t) := by
  have hfirst : ¬ isFirst2 (grid2.coords t) := fun e => h0 ((isFirst2_iff t).mp e)
  have hlast : ¬ k2_cond2 (grid2.coords t) = 1#1 := fun e => h19 ((isLast2_iff t).mp e)
  unfold bodyPre2 bodyPostEarly2 bodyAt2
  simp only [before2_0]
  rw [Φ2_eq, Φ2_eq, keeps2_later V c t h0, keeps2_succ,
    show (dat2 V c).owesAt () t.succ = (dat2 V c).owesAt () t.castSucc from rfl, after2_0,
    sumAt2_later V c t h0, sqAt2_later V c t h0]
  iintro ⟨⟨Hs, Hq, Hoth⟩, Ho, ⟨%d0, H0⟩, H1, H2⟩
  iapply (body2_middle c Set.univ (grid2.coords t) _ _ _ _ _ _ _ _ _ _ hfirst hlast (iblk2 V c 0 t) _ _ _)
  isplitl [H0]; · iexact H0
  isplitl [Hs]; · iexact Hs
  isplitl [Hq]; · iexact Hq
  iintro ⟨H0, Hs, Hq⟩
  isplitl [Hs Hq Hoth]
  · isplitl [Hs]; · iexact Hs
    isplitl [Hq]; · iexact Hq
    iexact Hoth
  isplitl [Ho]; · iexact Ho
  isplitl [H0]; · iexact H0
  isplitl [H1]; · iexact H1
  iexact H2

set_option maxHeartbeats 800000 in
theorem sound_body2_first (c : Dev nD) (t : Fin cfg2.N) (h0 : t.val = 0) :
    bodyPre2 V c t ⊢ wp frame (wpE (defs₀ (F := F)) Variants.none c none) Set.univ (bodyAt2 t) (fun _ => bodyPostEarly2 V c t) := by
  have hN : t.val < 20 := lt_of_lt_of_eq t.isLt (show cfg2.N = 20 from N_2)
  have hfirst : isFirst2 (grid2.coords t) := (isFirst2_iff t).mpr h0
  have hlast : ¬ k2_cond2 (grid2.coords t) = 1#1 := fun e => by have := (isLast2_iff t).mp e; omega
  unfold bodyPre2 bodyPostEarly2 bodyAt2
  simp only [before2_0]
  rw [Φ2_eq, Φ2_eq, keeps2_first V c t h0, keeps2_succ,
    show (dat2 V c).owesAt () t.succ = (dat2 V c).owesAt () t.castSucc from rfl, after2_0,
    sumAt2_first V c t h0, sqAt2_first V c t h0]
  iintro ⟨⟨⟨%s, Hs⟩, ⟨%q, Hq⟩, Hoth⟩, Ho, ⟨%d0, H0⟩, H1, H2⟩
  iapply (body2_first c Set.univ (grid2.coords t) _ _ _ _ _ _ _ _ _ _ hfirst hlast (iblk2 V c 0 t) s q _)
  isplitl [H0]; · iexact H0
  isplitl [Hs]; · iexact Hs
  isplitl [Hq]; · iexact Hq
  iintro ⟨H0, Hs, Hq⟩
  isplitl [Hs Hq Hoth]
  · isplitl [Hs]; · iexact Hs
    isplitl [Hq]; · iexact Hq
    iexact Hoth
  isplitl [Ho]; · iexact Ho
  isplitl [H0]; · iexact H0
  isplitl [H1]; · iexact H1
  iexact H2

set_option maxHeartbeats 800000 in
theorem sound_body2_last (c : Dev nD) (t : Fin cfg2.N) (h19 : t.val = 19) :
    bodyPre2 V c t ⊢ wp frame (wpE (defs₀ (F := F)) Variants.none c none) Set.univ (bodyAt2 t) (fun _ => bodyPostLast2 V c t) := by
  have h0 : t.val ≠ 0 := by omega
  have hfirst : ¬ isFirst2 (grid2.coords t) := fun e => h0 ((isFirst2_iff t).mp e)
  have hlast : k2_cond2 (grid2.coords t) = 1#1 := (isLast2_iff t).mpr h19
  unfold bodyPre2 bodyPostLast2 bodyAt2
  simp only [before2_0]
  rw [Φ2_eq, Φ2_eq, keeps2_later V c t h0, keeps2_succ,
    show (dat2 V c).owesAt () t.succ = (dat2 V c).owesAt () t.castSucc from rfl, after2_0, after2_1, after2_2,
    sumAt2_later V c t h0, sqAt2_later V c t h0]
  iintro ⟨⟨Hs, Hq, Hoth⟩, Ho, ⟨%d0, H0⟩, ⟨%d1, H1⟩, ⟨%d2, H2⟩⟩
  iapply (body2_last c Set.univ (grid2.coords t) _ _ _ _ _ _ _ _ _ _ hfirst hlast (iblk2 V c 0 t) _ _ _ _ _)
  isplitl [H0]; · iexact H0
  isplitl [H1]; · iexact H1
  isplitl [H2]; · iexact H2
  isplitl [Hs]; · iexact Hs
  isplitl [Hq]; · iexact Hq
  iintro ⟨H0, H1, H2, Hs, Hq⟩
  isplitl [Hs Hq Hoth]
  · isplitl [Hs]; · iexact Hs
    isplitl [Hq]; · iexact Hq
    iexact Hoth
  isplitl [Ho]; · iexact Ho
  isplitl [H0]; · iexact H0
  isplitl [H1]; · iexact H1
  iexact H2

/-- The body obligation at every point: the point is the first, a middle one or the last; away from the last the outputs'
    windows are idle and not written back, at the last they are live. -/
theorem body_obligation2 (c : Dev nD) : BodyObligation (dat2 (F := F) V c) (defs₀ (F := F)) Variants.none () Set.univ := fun t => by
  rw [bigSep_W2, bigSep_W2]
  by_cases h19 : t.val = 19
  · simp only [idle2_1_last t h19, idle2_2_last t h19]
    exact sound_body2_last V c t h19
  · simp only [idle2_1_early t h19, idle2_2_early t h19, flush2_1_early t h19, flush2_2_early t h19]
    by_cases h0 : t.val = 0
    · exact sound_body2_first V c t h0
    · exact sound_body2_middle V c t h0 h19

/-! ## Entering and leaving the call -/

theorem pos_zero2 : (0 : Fin (cfg2.N + 1)) = (⟨0, by rw [show cfg2.N = 20 from N_2]; decide⟩ : Fin cfg2.N).castSucc :=
  Fin.ext (by simp)

theorem pos_last2 : Fin.last cfg2.N = (⟨19, by rw [show cfg2.N = 20 from N_2]; decide⟩ : Fin cfg2.N).succ :=
  Fin.ext (by simp [show cfg2.N = 20 from N_2])

/-- On entry the two running rows are among the core's scoped buffers that are no staging buffer of the call, each at some
    contents: that is the invariant before the first point. -/
theorem keeps2_enter (c : Dev nD) :
    iprop((∃ r, prngReg c r) ∗ Pipeline.scopedRest (Ix := Unit) (Name := ℕ) (U := UR sig nD τ) (Lvl := ℕ) (Val := Elt F) spec2 c)
      ⊢ (keeps2 V c 0 : sProp 𝕄) := by
  rw [pos_zero2, keeps2_first V c _ rfl, scopedRest2_split]
  simp only [owns_whole]
  iintro ⟨Hr, ⟨H0, H1⟩, Hrest⟩
  isplitl [H0]; · iexact H0
  isplitl [H1]; · iexact H1
  isplitl [Hrest]; · iexact Hrest
  iexact Hr

/-- After the last point the two running rows, at the totals, go back among the scoped buffers at some contents. -/
theorem keeps2_leave (c : Dev nD) :
    (keeps2 V c (Fin.last cfg2.N) : sProp 𝕄)
      ⊢ iprop((∃ r, prngReg c r) ∗ Pipeline.scopedRest (Ix := Unit) (Name := ℕ) (U := UR sig nD τ) (Lvl := ℕ) (Val := Elt F) spec2 c) := by
  rw [pos_last2, keeps2_succ, scopedRest2_split]
  simp only [owns_whole]
  iintro ⟨H0, H1, Hrest, Hr⟩
  isplitl [Hr]; · iexact Hr
  isplitl [H0 H1]
  · isplitl [H0]
    · iexists _; iexact H0
    iexists _; iexact H1
  iexact Hrest

end Cert.KernelIdeal.Hand

end
-- ==== Proof.IRegion3.lean ====
/- The normalisation region (custom_call 3, `cc3_bn_normalize_kernel`) of the idealized kernel, at a PARAMETER `V` —
   the TensorCore's buffer contents when the region is entered. Six windows over a grid of 20 points: window 0 is
   the 5000x128 block of the array to normalise, fetched at every point; windows 1..4 are four 1x128 rows (mean,
   variance, scale, shift), each fetched at the first point only and left in place after; window 5 is the output,
   one store of the whole 5000x128 block at every point.
   The region is of the simplest class: the body reads its inputs, stores the whole output block once and carries
   nothing from point to point. So the proof data say: after the body each input's buffer holds its block, and the
   output's holds the store's payload `k3_pay1` of the five input blocks; the invariant is the class's (the scoped
   rest and the random-number register, untouched); nothing is owed; full shares. Stated for any `F`. -/
import proofs.«130829_j5128190951936_1_alg».proof.Proof.Gen.KernelIdeal.Launch
import proofs.«130829_j5128190951936_1_alg».proof.Proof.Gen.KernelIdeal.Skeleton
import proofs.«130829_j5128190951936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows is decided coordinate by coordinate along the long axis, which takes
-- this depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the array to normalise, fetched at every point): its current staging buffer holds its block at
    every point, for ANY proof data whose array is `V`'s (`hA`) and whose body leaves the block in place
    (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the mean row, fetched at the first point only): at a point where it is not fetched the block
    index has not moved, so the buffer still holds the block — the same statement, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 (the variance row, fetched at the first point only). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 (the scale row, fetched at the first point only). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 (the shift row, fetched at the first point only). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 block. -/
abbrev r3_0 : Rect S5000x128 := Rect.unit (s := S5000x128) ![0, 0] S5000x128.size inb_S5000x128_S5000x128_0_0
/-- The whole 1x128 row. -/
abbrev r3_1 : Rect S1x128 := Rect.unit (s := S1x128) ![0, 0] S1x128.size inb_S1x128_S1x128_0_0

/-! ## What the body leaves in the output window's buffer -/

/-- Window 5's staging buffer after the body, from the five input windows' blocks: its one store as a piece, with
    payload `k3_pay1`. -/
def out3_5 (x0 : Vec F S5000x128 .f32) (x1 : Vec F S1x128 .f32) (x2 : Vec F S1x128 .f32) (x3 : Vec F S1x128 .f32) (x4 : Vec F S1x128 .f32) :
    Vec F S5000x128 .f32 :=
  View.canon [⟨r3_0, k3_pay1 (View.ld x0 r3_0) (View.ld x1 r3_1) (View.ld x2 r3_1) (View.ld x3 r3_1) (View.ld x4 r3_1)⟩]

/-- The one store is of the whole buffer (checked by evaluation), so it covers it. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3_bn_normalize_kernel i arg1 harg1 arg2 harg2 arg3 harg3 arg4 harg4 arg5 harg5 arg6 harg6) K := by
  simp only [cc3_bn_normalize_kernel_eq_skeleton]; unfold cc3_bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and the output's at `out3_5` of the input blocks; the class's invariant;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.IRegion4.lean ====
/- Region 4 of @main, `cc4_matmul_kernel` (the second layer's matrix product), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out4_2`); the proof data `dat4` records this per point, and `body_obligation4` is the library's obligation for it.
   The body reads the output buffer once before overwriting it whole; what it read does not enter the stored value. -/
import proofs.«130829_j5128190951936_1_alg».proof.Proof.Gen.KernelIdeal.Launch
import proofs.«130829_j5128190951936_1_alg».proof.Proof.Gen.KernelIdeal.Skeleton
import proofs.«130829_j5128190951936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not it was fetched there (a
    point that does not fetch it has the block index of the point before), for any proof data whose array is `V`'s
    and whose body leaves the block in place. The window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, whether or not it was fetched there (a
    point that does not fetch it has the block index of the point before), for any proof data whose array is `V`'s
    and whose body leaves the block in place. The window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x128 := Rect.unit (s := S5000x128) ![0, 0] S5000x128.size inb_S5000x128_S5000x128_0_0

/-! ## What the body leaves in the output window's buffer -/

/-- Window 2's staging buffer after the body, from the input windows' blocks: its one store, of the whole buffer. -/
def out4_2 (x0 : Vec F S5000x128 .f32) (x1 : Vec F S128x128 .f32) : Vec F S5000x128 .f32 :=
  View.canon [⟨r4_2, k4_pay1 (View.ld x0 r4_0) (View.ld x1 r4_1)⟩]

/-- The store's rectangle is the whole buffer, so it covers it. -/
theorem cover4_2 (p0 : Vec F S5000x128 .f32) (y : S5000x128.Idx) :
    ∃ pc ∈ ([⟨r4_2, p0⟩] : List (View.Piece (Elt F) S5000x128 .f32)), y ∈ pc.1.set :=
  View.cover_of_tiled [⟨r4_2, p0⟩] S5000x128.size (by rfl) y

/-! ## The body's triple -/

set_option maxHeartbeats 1000000 in
/-- The kernel body on whole staging memrefs, the inputs' at read contents `xW` and the output's at anything, runs to
    the continuation holding the inputs' as they were and the output's at `out4_2` of the inputs', at any grid point. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_matmul_kernel i arg1 harg1 arg2 harg2 arg3 harg3) K := by
  simp only [cc4_matmul_kernel_eq_skeleton]; unfold cc4_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point `t`
    each input's buffer at its block and the output's at `out4_2` of the input blocks; the invariant is the scoped rest
    and the random-number register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IRegion5.lean ====
/- Region 5 of @main, `cc5_combine_kernel` (the second layer's sum of the aggregate, the scaled self term and the bias row), on its static grid of 20 points: the half of the frame
   argument that is about the kernel body alone, at a PARAMETER `V` — the TensorCore's buffer contents when the region is
   entered. Each window's block at a point is read off `V`; the body, run on whole staging memrefs holding the input
   blocks, stores the whole output block once, so what it leaves there is a closed function of the input blocks
   (`out5_3`); the proof data `dat5` records this per point, and `body_obligation5` is the library's obligation for it.
   The body reads the output buffer once before overwriting it whole; what it read does not enter the stored value. -/
import proofs.«130829_j5128190951936_1_alg».proof.Proof.Gen.KernelIdeal.Launch
import proofs.«130829_j5128190951936_1_alg».proof.Proof.Gen.KernelIdeal.Skeleton
import proofs.«130829_j5128190951936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 5000-long axis is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not it was fetched there (a
    point that does not fetch it has the block index of the point before), for any proof data whose array is `V`'s
    and whose body leaves the block in place. The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not it was fetched there (a
    point that does not fetch it has the block index of the point before), for any proof data whose array is `V`'s
    and whose body leaves the block in place. The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not it was fetched there (a
    point that does not fetch it has the block index of the point before), for any proof data whose array is `V`'s
    and whose body leaves the block in place. The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S5000x128 := Rect.unit (s := S5000x128) ![0, 0] S5000x128.size inb_S5000x128_S5000x128_0_0
abbrev r5_1 : Rect S5000x128 := Rect.unit (s := S5000x128) ![0, 0] S5000x128.size inb_S5000x128_S5000x128_0_0
abbrev r5_2 : Rect S1x128 := Rect.unit (s := S1x128) ![0, 0] S1x128.size inb_S1x128_S1x128_0_0
abbrev r5_3 : Rect S5000x128 := Rect.unit (s := S5000x128) ![0, 0] S5000x128.size inb_S5000x128_S5000x128_0_0

/-! ## What the body leaves in the output window's buffer -/

/-- Window 3's staging buffer after the body, from the input windows' blocks: its one store, of the whole buffer. -/
def out5_3 (x0 : Vec F S5000x128 .f32) (x1 : Vec F S5000x128 .f32) (x2 : Vec F S1x128 .f32) : Vec F S5000x128 .f32 :=
  View.canon [⟨r5_3, k5_pay1 (View.ld x0 r5_0) (View.ld x1 r5_1) (View.ld x2 r5_2)⟩]

/-- The store's rectangle is the whole buffer, so it covers it. -/
theorem cover5_3 (p0 : Vec F S5000x128 .f32) (y : S5000x128.Idx) :
    ∃ pc ∈ ([⟨r5_3, p0⟩] : List (View.Piece (Elt F) S5000x128 .f32)), y ∈ pc.1.set :=
  View.cover_of_tiled [⟨r5_3, p0⟩] S5000x128.size (by rfl) y

/-! ## The body's triple -/

set_option maxHeartbeats 1000000 in
/-- The kernel body on whole staging memrefs, the inputs' at read contents `xW` and the output's at anything, runs to
    the continuation holding the inputs' as they were and the output's at `out5_3` of the inputs', at any grid point. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_combine_kernel i arg1 harg1 arg2 harg2 arg3 harg3 arg4 harg4) K := by
  simp only [cc5_combine_kernel_eq_skeleton]; unfold cc5_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point `t`
    each input's buffer at its block and the output's at `out5_3` of the input blocks; the invariant is the scoped rest
    and the random-number register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.IRun.lean ====
/- THE RUN of @main: ten segments from the launch to the return — four stretches of host operations and six kernel
   regions — chained over one thread state per boundary: every unscoped buffer of the core held at the boundary's
   contents `WJ`, the random-number register at some state, nothing owed. The contents are a fold from the launch memory:
   a host stretch maps them through its operations; a region replaces its windows' arrays by what its pipeline leaves
   there (an input as entered, an output's write-backs folded over the grid) and keeps every other buffer. The theorem
   `run_all`: every weakly fair execution terminates and the final memory holds every unscoped buffer at `W10`; read at
   an argument, `W10` walks back to the launch memory (no host operation and no region writes one); read at the last
   region's output array it is what that pipeline leaves. -/
import proofs.«130829_j5128190951936_1_alg».proof.Proof.IRegion0
import proofs.«130829_j5128190951936_1_alg».proof.Proof.IRegion1
import proofs.«130829_j5128190951936_1_alg».proof.Proof.IRegion2
import proofs.«130829_j5128190951936_1_alg».proof.Proof.IRegion3
import proofs.«130829_j5128190951936_1_alg».proof.Proof.IRegion4
import proofs.«130829_j5128190951936_1_alg».proof.Proof.IRegion5
import proofs.«130829_j5128190951936_1_alg».proof.Proof.Gen.KernelIdeal.Launch
import proofs.«130829_j5128190951936_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership among the program's 129 references is decided one by one
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, each output's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- At region 1's exit: its arrays at what the pipeline leaves (the inputs as entered, each output's write-backs
    folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b

/-- At region 2's exit: its arrays at what the pipeline leaves (the inputs as entered, each output's write-backs
    folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, each output's write-backs
    folded over the grid), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves (the inputs as entered, each output's write-backs
    folded over the grid), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves and every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5`. -/
abbrev W9 : Dev nD → Valuation τ sig (Elt F) := fun c => StableHlo.after hostOps5 (W8 m ρ c)
/-- The same read at the TensorCore's references. -/
abbrev V9 : (c : Dev nD) → (b : Ref sig .tc) → Buf (Elt F) ((c : Thread nD τ).loc b) := fun c b => W9 m ρ c b

/-- At region 5's exit: its arrays at what the pipeline leaves (the inputs as entered, each output's write-backs
    folded over the grid), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references (region 5's exit contents). -/
abbrev V10 : (c : Dev nD) → (b : Ref sig .tc) → Buf (Elt F) ((c : Thread nD τ).loc b) := fun c b => W10 m ρ c b
/-- At region 5's exit each of its arrays holds what the pipeline leaves and every other buffer what it held at entry. -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ### The arguments end as launched: no host operation writes one, and a region either stages it through an input
    window (which it leaves as entered) or does not name it -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_writes_sub hostOps5 _ hostOps5_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_writes_sub hostOps5 _ hostOps5_writes (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_writes_sub hostOps5 _ hostOps5_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_writes_sub hostOps5 _ hostOps5_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_writes_sub hostOps5 _ hostOps5_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps5 _ hostOps5_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_writes_sub hostOps5 _ hostOps5_writes (by decide)
    _ = W7 m ρ c (Proc.devRef .tc main_arg6) := (W8_arr m ρ c 1).trans (((dat4 (V7 m ρ) c).arrAt_in 1 rfl _).trans (A_eq4 (V7 m ρ) c 1))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_writes_sub hostOps5 _ hostOps5_writes (by decide)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The last region's output array ends at what its pipeline leaves there. -/
theorem W10_result (c : Dev nD) : W10 m ρ c (Proc.devRef .tc main_v68) = (dat5 (V9 m ρ) c).arrAt 3 cfg5.N :=
  W10_arr m ρ c 3

/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state and what it owes, nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W10`, the
    random-number register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the random-number register goes into the pipeline's
    invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the random-number register goes into the pipeline's
    invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the random-number register goes into the pipeline's
    invariant and comes back; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = keeps2 (V5 m ρ) c 0 from rfl]
    iintro ⟨Hp, -, Hr⟩
    iapply (keeps2_enter (V5 m ρ) c)
    isplitl [Hp] <;> iassumption
  hout c := by
    rw [Pipeline.ownSems0_none, show (pdats m ρ 2 c).Φ (Fin.last _) = keeps2 (V5 m ρ) c (Fin.last cfg2.N) from rfl]
    iintro H
    ihave H' := (keeps2_leave (V5 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are split
    out of the unscoped buffers and put back at the exit contents; the random-number register goes into the pipeline's
    invariant and comes back; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. Its arrays are split
    out of the unscoped buffers and put back at the exit contents; the random-number register goes into the pipeline's
    invariant and comes back; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. Its arrays are split
    out of the unscoped buffers and put back at the exit contents; the random-number register goes into the pipeline's
    invariant and comes back; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 10 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ),
    .host (hseg hostOps5 hostOps5_sub hostOps5_fresh (W8 m ρ)),
    .region (reg5 m ρ) ]

set_option backward.isDefEq.respectTransparency.types false in
/-- At the compiled mesh, from any memory with zero counters, every weakly fair execution of @main on the TensorCores
    terminates, nothing faulting, and every final state holds every unscoped buffer of every core at `W10`: the segments
    chained from the launch's thread state, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit_dev (pcfgs (F := F)) adm (pdats m ρ) () cellOf_inj emb₁ defs₀ 𝒱₀ L lv m ρ main (fun _ => segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5,
          Prog.lift (.customCall (Pipeline.entry 5) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Hand

end
-- ==== Proof.Spec.lean ====
/- The specification of the two-layer graph convolution with batch normalisation, as whole-array functions over the
   extended reals, index by index. No program is mentioned: each function below is the textbook operation on arrays of
   literal shapes, rows indexed by `Fin 100000`, feature columns by `Fin 64` / `Fin 128`; an index is built from its
   coordinates by `ix2`.

   * `Gmm64`, `Gmm128`: the matrix product, entry (i, j) the sum over the contracted coordinate k of x(i,k) · w(k,j).
   * `Gcomb`: the entrywise sum of two arrays plus a row vector (the bias) broadcast along the rows.
   * `Gmean`: per column, the sum of the 100000 entries divided by 100000.0.
   * `Gvar`: per column, the sum of the squares divided by 100000.0, minus the square of the mean — the second moment
     form of the variance.
   * `Gnorm`: the normalisation, ((h − mean) · rsqrt(var + ε)) · γ + β, the row vectors broadcast along the rows.

   The two float constants stay the words the program spells them with (`c1e5` is 100000.0, `eps` is about 1e-5);
   nothing here evaluates them. -/
import Idealize.ShloMosaic.PureOps.Ideal
import Idealize.ShloMosaic.Lib.ValueIdx

noncomputable section

open scoped BigOperators

namespace Cert.Spec

open Idealize.ShloMosaic Idealize.ShloMosaic.ValueIdx

/-- The number of rows, 100000.0, as a single-precision word read at the extended reals. -/
abbrev c1e5 : EReal := Ideal.ofBits .f32 0x47C35000#32

/-- The stabiliser added to the variance under the reciprocal square root, as a single-precision word read at the
    extended reals. -/
abbrev eps : EReal := Ideal.ofBits .f32 0x3727C5AC#32

/-- The product of a 100000x64 array and a 64x128 one. -/
def Gmm64 (x : (⟨2, ![100000, 64]⟩ : Shape).Idx → EReal) (w : (⟨2, ![64, 128]⟩ : Shape).Idx → EReal) :
    (⟨2, ![100000, 128]⟩ : Shape).Idx → EReal :=
  fun i => ∑ k : Fin 64, x (ix2 (n0 := 100000) (n1 := 64) (i 0) k) * w (ix2 (n0 := 64) (n1 := 128) k (i 1))

/-- The product of a 100000x128 array and a 128x128 one. -/
def Gmm128 (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (n0 := 100000) (n1 := 128) (i 0) k) * w (ix2 (n0 := 128) (n1 := 128) k (i 1))

/-- The sum of two arrays and a row vector broadcast along the rows. -/
def Gcomb (a hs : (⟨2, ![100000, 128]⟩ : Shape).Idx → EReal) (b : (⟨2, ![1, 128]⟩ : Shape).Idx → EReal) :
    (⟨2, ![100000, 128]⟩ : Shape).Idx → EReal :=
  fun i => (a i + hs i) + b (ix2 (n0 := 1) (n1 := 128) 0 (i 1))

/-- The mean of each column: the sum over the 100000 rows, divided by 100000.0. -/
def Gmean (h : (⟨2, ![100000, 128]⟩ : Shape).Idx → EReal) : (⟨2, ![1, 128]⟩ : Shape).Idx → EReal :=
  fun j => Ideal.div (∑ k : Fin 100000, h (ix2 (n0 := 100000) (n1 := 128) k (j 1))) c1e5

/-- The variance of each column in its second-moment form: the mean of the squares minus the square of the mean. -/
def Gvar (h : (⟨2, ![100000, 128]⟩ : Shape).Idx → EReal) : (⟨2, ![1, 128]⟩ : Shape).Idx → EReal :=
  fun j => Ideal.div (∑ k : Fin 100000, h (ix2 (n0 := 100000) (n1 := 128) k (j 1)) * h (ix2 (n0 := 100000) (n1 := 128) k (j 1))) c1e5
    - Gmean h j * Gmean h j

/-- The normalisation of each column by its mean and variance, then the affine map by scale and shift. -/
def Gnorm (h : (⟨2, ![100000, 128]⟩ : Shape).Idx → EReal) (mean var g be : (⟨2, ![1, 128]⟩ : Shape).Idx → EReal) :
    (⟨2, ![100000, 128]⟩ : Shape).Idx → EReal :=
  fun i => ((h i - mean (ix2 (n0 := 1) (n1 := 128) 0 (i 1))) * Ideal.rsqrt (var (ix2 (n0 := 1) (n1 := 128) 0 (i 1)) + eps))
    * g (ix2 (n0 := 1) (n1 := 128) 0 (i 1)) + be (ix2 (n0 := 1) (n1 := 128) 0 (i 1))

end Cert.Spec
-- ==== Proof.RefValue.lean ====
/-
  The reference program read back at the exact instance: its run as one term of the argument arrays, and that term
  read one operation at a time at an index.

  The reference is two graph convolutions around a batch normalisation. A convolution of node features `h` with
  weights `W` and bias `b` over the edge list is  agg + (h W) · dis² + b,  where `agg` sums, into each destination
  node, the rows of `h W` gathered at the edges' sources and scaled by dis[src] · dis[dst], and dis = (deg + 1)^(-1/2)
  with deg the number of edges arriving at a node. Everything in a convolution that depends on the edge list —
  the degree count, its inverse square root, the two gathers of it, the gather of the rows, the scaling and the
  scattered sum — is kept here as two functions of (edge list, h W) that are never opened: `aggregate` and
  `selfTerm`. The program computes the edge coefficients twice, once per convolution, by the same operations;
  the second copy is shown equal to the first, so both convolutions are the same two functions.
  The batch normalisation between them subtracts each column's mean and multiplies by the inverse square root of
  the column's variance plus ε: the mean is the column's sum over the 100000 rows divided by 100000, the variance
  the sum of the squared deviations from that mean divided by 100000 (`refMean`, `refVar`).
-/
import proofs.«130829_j5128190951936_1_alg».proof.Defs
import proofs.«130829_j5128190951936_1_alg».proof.Proof.Gen.ReferenceIdeal.Run
import proofs.«130829_j5128190951936_1_alg».proof.Proof.Gen.ReferenceIdeal.Read
import proofs.«130829_j5128190951936_1_alg».proof.Proof.Gen.Pre_finite_inputs
import proofs.«130829_j5128190951936_1_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Spec

/-! ## The frame -/

/-- The reference runs to the end, faults nowhere and leaves its arguments unchanged: its generated run with the
    result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## A vector of 128 as one row -/

/-- A vector indexed by the column, as a 1 × 128 array. -/
def rowOf (b : (⟨1, ![128]⟩ : Shape).Idx → EReal) : (⟨2, ![1, 128]⟩ : Shape).Idx → EReal :=
  fun j => b (ix1 (n := 128) (j 1))

/-! ## The part of a convolution that depends on the edge list, as two functions never opened -/

/-- The neighbourhood sum: the rows of `h` gathered at the edges' sources, each scaled by the edge's coefficient
    dis[src] · dis[dst], summed into the edges' destinations. -/
def aggregate (x1 : (⟨S2x1600000, .i32⟩ : BufTy).Contents (Elt Ideal)) (h : FVec Ideal S100000x128 .f32) : FVec Ideal S100000x128 .f32 :=
  Host.scatterAdd (F := Ideal) (φ := .f32) scatter_S100000x128_S1600000x1_S1600000x128_1_0_0_1 (val_main_v37 (F := Ideal))
    (val_main_v38 (F := Ideal) x1)
    (mulf (F := Ideal) (φ := .f32)
      (Host.gather gather_S100000x128_S1600000x1_S1600000x128_1_0_n_n_0_1_1128 h (val_main_v32 (F := Ideal) x1))
      (val_main_v35 (F := Ideal) x1))

/-- The self-loop term: row `i` of `h` scaled by dis[i]². -/
def selfTerm (x1 : (⟨S2x1600000, .i32⟩ : BufTy).Contents (Elt Ideal)) (h : FVec Ideal S100000x128 .f32) : FVec Ideal S100000x128 .f32 :=
  mulf (F := Ideal) (φ := .f32) h (val_main_v42 (F := Ideal) x1)

/-! ### The second convolution's edge coefficients are the first's

The program computes the degree, its inverse square root, the two gathers of it and their product a second time
for the second convolution, by the same operations on the same edge list. -/

theorem src_again (x1 : (⟨S2x1600000, .i32⟩ : BufTy).Contents (Elt Ideal)) : val_main_v101 (F := Ideal) x1 = val_main_v32 (F := Ideal) x1 := rfl
theorem dst_again (x1 : (⟨S2x1600000, .i32⟩ : BufTy).Contents (Elt Ideal)) : val_main_v107 (F := Ideal) x1 = val_main_v38 (F := Ideal) x1 := rfl
theorem zero_again : val_main_v106 (F := Ideal) = val_main_v37 (F := Ideal) := rfl
theorem coef_again (x1 : (⟨S2x1600000, .i32⟩ : BufTy).Contents (Elt Ideal)) : val_main_v104 (F := Ideal) x1 = val_main_v35 (F := Ideal) x1 := rfl
theorem self_again (x1 : (⟨S2x1600000, .i32⟩ : BufTy).Contents (Elt Ideal)) : val_main_v111 (F := Ideal) x1 = val_main_v42 (F := Ideal) x1 := rfl

/-! ### Each convolution's two edge-dependent parts are `aggregate` and `selfTerm` -/

theorem agg1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) : val_main_v39 (F := Ideal) x0 x1 x2 = aggregate x1 (val_main_v4 (F := Ideal) x0 x2) := by
  unfold val_main_v39 val_main_v36 val_main_v33 aggregate; rfl
theorem self1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) : val_main_v43 (F := Ideal) x0 x1 x2 = selfTerm x1 (val_main_v4 (F := Ideal) x0 x2) := by
  unfold val_main_v43 selfTerm; rfl
theorem agg2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) :
    val_main_v108 (F := Ideal) x0 x1 x2 x3 x4 x5 x6 = aggregate x1 (val_main_v73 (F := Ideal) x0 x1 x2 x3 x4 x5 x6) := by
  unfold val_main_v108 val_main_v105 val_main_v102 aggregate
  rw [zero_again, dst_again, src_again, coef_again]
theorem self2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) :
    val_main_v112 (F := Ideal) x0 x1 x2 x3 x4 x5 x6 = selfTerm x1 (val_main_v73 (F := Ideal) x0 x1 x2 x3 x4 x5 x6) := by
  unfold val_main_v112 selfTerm
  rw [self_again]

/-! ## The two products -/

theorem mm1 (x0 : (⟨S100000x64, .f32⟩ : BufTy).Contents (Elt Ideal)) (x2 : (⟨S64x128, .f32⟩ : BufTy).Contents (Elt Ideal)) : val_main_v4 (F := Ideal) x0 x2 = Gmm64 x0 x2 := by
  funext i
  obtain ⟨p, q, rfl⟩ : ∃ (p : Fin 100000) (q : Fin 128), i = ix2 p q := ⟨i 0, i 1, eq_ix2 i⟩
  rw [val_main_v4_apply]
  unfold Gmm64
  have el : ∀ k : Fin 64, lidx_main_v4 (ix2 p q) k = ix2 p k := fun k => funext fun a => Fin.ext (by match a with | ⟨0, _⟩ => rfl | ⟨1, _⟩ => rfl)
  have er : ∀ k : Fin 64, ridx_main_v4 (ix2 p q) k = ix2 k q := fun k => funext fun a => Fin.ext (by match a with | ⟨0, _⟩ => rfl | ⟨1, _⟩ => rfl)
  simp only [el, er] <;> rfl

theorem mm2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) :
    val_main_v73 (F := Ideal) x0 x1 x2 x3 x4 x5 x6 = Gmm128 (val_main_v72 (F := Ideal) x0 x1 x2 x3 x4 x5) x6 := by
  funext i
  obtain ⟨p, q, rfl⟩ : ∃ (p : Fin 100000) (q : Fin 128), i = ix2 p q := ⟨i 0, i 1, eq_ix2 i⟩
  rw [val_main_v73_apply]
  unfold Gmm128
  generalize val_main_v72 (F := Ideal) x0 x1 x2 x3 x4 x5 = y
  have el : ∀ k : Fin 128, lidx_main_v73 (ix2 p q) k = ix2 p k := fun k => funext fun a => Fin.ext (by match a with | ⟨0, _⟩ => rfl | ⟨1, _⟩ => rfl)
  have er : ∀ k : Fin 128, ridx_main_v73 (ix2 p q) k = ix2 k q := fun k => funext fun a => Fin.ext (by match a with | ⟨0, _⟩ => rfl | ⟨1, _⟩ => rfl)
  simp only [el, er] <;> rfl

/-! ## The bias vectors as rows -/

theorem row3 (x3 : (⟨S128, .f32⟩ : BufTy).Contents (Elt Ideal)) : val_main_v45 (F := Ideal) x3 = rowOf x3 := by
  funext j
  rw [val_main_v45_apply]
  exact congrArg x3 (funext fun a => Fin.ext (by match a with | ⟨0, _⟩ => rfl))
theorem row4 (x4 : (⟨S128, .f32⟩ : BufTy).Contents (Elt Ideal)) : val_main_v67 (F := Ideal) x4 = rowOf x4 := by
  funext j
  rw [val_main_v67_apply]
  exact congrArg x4 (funext fun a => Fin.ext (by match a with | ⟨0, _⟩ => rfl))
theorem row5 (x5 : (⟨S128, .f32⟩ : BufTy).Contents (Elt Ideal)) : val_main_v70 (F := Ideal) x5 = rowOf x5 := by
  funext j
  rw [val_main_v70_apply]
  exact congrArg x5 (funext fun a => Fin.ext (by match a with | ⟨0, _⟩ => rfl))
theorem row7 (x7 : (⟨S128, .f32⟩ : BufTy).Contents (Elt Ideal)) : val_main_v114 (F := Ideal) x7 = rowOf x7 := by
  funext j
  rw [val_main_v114_apply]
  exact congrArg x7 (funext fun a => Fin.ext (by match a with | ⟨0, _⟩ => rfl))

/-! ## The first convolution -/

/-- The batch normalisation's input: the first convolution of the node features. -/
theorem h1_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) :
    val_main_v47 (F := Ideal) x0 x1 x2 x3 = Gcomb (aggregate x1 (Gmm64 x0 x2)) (selfTerm x1 (Gmm64 x0 x2)) (rowOf x3) := by
  funext i
  obtain ⟨p, q, rfl⟩ : ∃ (p : Fin 100000) (q : Fin 128), i = ix2 p q := ⟨i 0, i 1, eq_ix2 i⟩
  have e : idx_main_v46 (ix2 p q) = ix2 (n0 := 1) (n1 := 128) 0 q := funext fun a => Fin.ext (by match a with | ⟨0, _⟩ => rfl | ⟨1, _⟩ => rfl)
  rw [val_main_v47_apply, val_main_v44_apply, val_main_v46_apply, e, agg1, self1, mm1, row3]
  rfl

/-! ## The batch normalisation's statistics, in the reference's form -/

/-- A column's mean: its sum over the 100000 rows, divided by 100000. -/
def refMean (h : (⟨2, ![100000, 128]⟩ : Shape).Idx → EReal) : (⟨2, ![1, 128]⟩ : Shape).Idx → EReal :=
  fun j => Ideal.div (∑ k : Fin 100000, h (ix2 (n0 := 100000) (n1 := 128) k (j 1))) c1e5
/-- A column's variance: the sum over the 100000 rows of the squared deviation from the column's mean, divided by
    100000. -/
def refVar (h : (⟨2, ![100000, 128]⟩ : Shape).Idx → EReal) : (⟨2, ![1, 128]⟩ : Shape).Idx → EReal :=
  fun j => Ideal.div (∑ k : Fin 100000, (h (ix2 (n0 := 100000) (n1 := 128) k (j 1)) - refMean h j)
    * (h (ix2 (n0 := 100000) (n1 := 128) k (j 1)) - refMean h j)) c1e5

/-- The reference's mean of column `q`. The sum starts from the zero word, which is the real 0. -/
theorem mean_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (q : Fin 128) :
    val_main_v50 (F := Ideal) x0 x1 x2 x3 (ix1 q) = refMean (val_main_v47 (F := Ideal) x0 x1 x2 x3) (ix2 (n0 := 1) (n1 := 128) 0 q) := by
  rw [val_main_v50_apply, val_main_v48_apply, val_main_v49_apply, val_main_cst_9_apply, val_main_cst_8_apply]
  generalize val_main_v47 (F := Ideal) x0 x1 x2 x3 = h
  unfold refMean
  simp only [Ideal.hostDivf_def, Ideal.ofBits_def, Ideal.ofBits_zero_f32, zero_add]
  have e : ∀ k : Fin 100000, idx_main_v48 (ix1 q) k = ix2 k q := fun k => funext fun a => Fin.ext (by match a with | ⟨0, _⟩ => rfl | ⟨1, _⟩ => rfl)
  simp only [e] <;> rfl

/-- One squared deviation: `chlo.square` is the product of the deviation with itself, and the mean it subtracts is the
    column's. -/
theorem dev_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (q : Fin 128) (k : Fin 100000) :
    val_main_v54 (F := Ideal) x0 x1 x2 x3 (idx_main_v55 (ix1 q) k)
      = ((val_main_v47 (F := Ideal) x0 x1 x2 x3) (ix2 k q) - refMean (val_main_v47 (F := Ideal) x0 x1 x2 x3) (ix2 (n0 := 1) (n1 := 128) 0 q)) * ((val_main_v47 (F := Ideal) x0 x1 x2 x3) (ix2 k q) - refMean (val_main_v47 (F := Ideal) x0 x1 x2 x3) (ix2 (n0 := 1) (n1 := 128) 0 q)) := by
  have e1 : idx_main_v55 (ix1 q) k = ix2 k q := funext fun a => Fin.ext (by match a with | ⟨0, _⟩ => rfl | ⟨1, _⟩ => rfl)
  have e2 : idx_main_v51 (idx_main_v52 (ix2 k q)) = ix1 q := funext fun a => Fin.ext (by match a with | ⟨0, _⟩ => rfl)
  rw [e1, val_main_v54_apply, val_main_v53_apply, val_main_v52_apply, val_main_v51_apply, e2, mean_read]
  rfl

/-- The reference's variance of column `q`. -/
theorem var_read (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (q : Fin 128) :
    val_main_v57 (F := Ideal) x0 x1 x2 x3 (ix1 q) = refVar (val_main_v47 (F := Ideal) x0 x1 x2 x3) (ix2 (n0 := 1) (n1 := 128) 0 q) := by
  rw [val_main_v57_apply, val_main_v55_apply, val_main_v56_apply, val_main_cst_11_apply, val_main_cst_10_apply,
    Finset.sum_congr rfl fun k _ => dev_read x0 x1 x2 x3 q k]
  generalize val_main_v47 (F := Ideal) x0 x1 x2 x3 = h
  unfold refVar
  simp only [Ideal.hostDivf_def, Ideal.ofBits_def, Ideal.ofBits_zero_f32, zero_add] <;> rfl

/-! ## The batch normalisation -/

theorem bn_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) :
    val_main_v72 (F := Ideal) x0 x1 x2 x3 x4 x5
      = Gnorm (val_main_v47 (F := Ideal) x0 x1 x2 x3) (refMean (val_main_v47 (F := Ideal) x0 x1 x2 x3)) (refVar (val_main_v47 (F := Ideal) x0 x1 x2 x3)) (rowOf x4) (rowOf x5) := by
  funext i
  obtain ⟨p, q, rfl⟩ : ∃ (p : Fin 100000) (q : Fin 128), i = ix2 p q := ⟨i 0, i 1, eq_ix2 i⟩
  have e59 : idx_main_v58 (idx_main_v59 (ix2 p q)) = ix1 q := funext fun a => Fin.ext (by match a with | ⟨0, _⟩ => rfl)
  have e65 : idx_main_v64 (idx_main_v65 (ix2 p q)) = ix1 q := funext fun a => Fin.ext (by match a with | ⟨0, _⟩ => rfl)
  have e68 : idx_main_v68 (ix2 p q) = ix2 (n0 := 1) (n1 := 128) 0 q := funext fun a => Fin.ext (by match a with | ⟨0, _⟩ => rfl | ⟨1, _⟩ => rfl)
  have e71 : idx_main_v71 (ix2 p q) = ix2 (n0 := 1) (n1 := 128) 0 q := funext fun a => Fin.ext (by match a with | ⟨0, _⟩ => rfl | ⟨1, _⟩ => rfl)
  have e61 : ∀ j, val_main_v61 (F := Ideal) j = eps := fun j => by
    rw [val_main_v61_apply, val_main_cst_12_apply]; rfl
  rw [val_main_v72_apply, val_main_v69_apply, val_main_v66_apply, val_main_v60_apply, val_main_v59_apply, val_main_v58_apply, e59,
    mean_read, val_main_v65_apply, val_main_v64_apply, e65, val_main_v63_apply, val_main_v62_apply, var_read, e61,
    val_main_v68_apply, e68, row4, val_main_v71_apply, e71, row5]
  rfl

/-! ## The result -/

/-- The reference's result as one function of its eight arguments: the second convolution (weights `x6`, bias `x7`)
    of the batch normalisation (scale `x4`, shift `x5`) of the first convolution (weights `x2`, bias `x3`) of the node
    features `x0` over the edge list `x1`. -/
def refResult (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) : (⟨2, ![100000, 128]⟩ : Shape).Idx → EReal :=
  Gcomb (aggregate x1 (Gmm128 (Gnorm (Gcomb (aggregate x1 (Gmm64 x0 x2)) (selfTerm x1 (Gmm64 x0 x2)) (rowOf x3)) (refMean (Gcomb (aggregate x1 (Gmm64 x0 x2)) (selfTerm x1 (Gmm64 x0 x2)) (rowOf x3))) (refVar (Gcomb (aggregate x1 (Gmm64 x0 x2)) (selfTerm x1 (Gmm64 x0 x2)) (rowOf x3))) (rowOf x4) (rowOf x5)) x6)) (selfTerm x1 (Gmm128 (Gnorm (Gcomb (aggregate x1 (Gmm64 x0 x2)) (selfTerm x1 (Gmm64 x0 x2)) (rowOf x3)) (refMean (Gcomb (aggregate x1 (Gmm64 x0 x2)) (selfTerm x1 (Gmm64 x0 x2)) (rowOf x3))) (refVar (Gcomb (aggregate x1 (Gmm64 x0 x2)) (selfTerm x1 (Gmm64 x0 x2)) (rowOf x3))) (rowOf x4) (rowOf x5)) x6)) (rowOf x7)

theorem res_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) :
    val_main_v116 (F := Ideal) x0 x1 x2 x3 x4 x5 x6 x7 = refResult x0 x1 x2 x3 x4 x5 x6 x7 := by
  funext i
  obtain ⟨p, q, rfl⟩ : ∃ (p : Fin 100000) (q : Fin 128), i = ix2 p q := ⟨i 0, i 1, eq_ix2 i⟩
  have e : idx_main_v115 (ix2 p q) = ix2 (n0 := 1) (n1 := 128) 0 q := funext fun a => Fin.ext (by match a with | ⟨0, _⟩ => rfl | ⟨1, _⟩ => rfl)
  rw [val_main_v116_apply, val_main_v113_apply, val_main_v115_apply, e, agg2, self2, mm2, bn_eq, h1_eq, row7]
  rfl

/-- The run's result term is that function of the launch contents of the arguments. -/
theorem run_eq (m : (ℓ : Loc nD τ sig) → Buf (Elt Ideal) ℓ) (c : Dev nD) :
    Cert.ReferenceIdeal.Value.res_main_v116 (F := Ideal) m c
      = refResult (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v116_eq m c).trans (res_eq _ _ _ _ _ _ _ _)

end Cert.ReferenceIdeal.RefValue

end
-- ==== Proof.LibBatchNormVar.lean ====
import Idealize.ShloMosaic.PureOps.Ideal

/-! # The two forms of the variance of a finite family

For a finite family `x : ι → ℝ`, a real `n ≠ 0` that is the number of its members, and `μ = (∑ i, x i) / n` its mean,
the mean of the squared deviations is the mean of the squares minus the square of the mean:

  `(∑ i, (x i - μ) * (x i - μ)) / n = (∑ i, x i * x i) / n - μ * μ`.

Expand the square: `∑ (x i - μ)² = ∑ x i² - 2 μ ∑ x i + n μ²`; with `∑ x i = n μ` the last two terms are `- n μ²`; divide by `n`.
The index type enters only through `n` being its cardinality (`hcard`), so the statement is the same for 8 members and
for 100000.

The second half reads the same identity over the extended reals, at entries that are real (coercions), with the division
the idealized float division `Ideal.div` by the real `n`: every sum, quotient, difference and product of coerced reals is
the coercion of the real one (`coe_sum`, `div_coe_coe`), so both sides are coercions and the real identity applies.
No program is mentioned here. -/

noncomputable section

open scoped BigOperators

namespace Cert.LibBatchNormVar

open Idealize.ShloMosaic

/-! ## Over the reals -/

/-- The sum of the squared deviations from `μ`, expanded: `∑ (x i - μ)² = ∑ x i² - 2 μ ∑ x i + (card ι) μ²`, for ANY `μ`. -/
theorem sum_sq_dev {ι : Type*} [Fintype ι] (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h]
  rw [Finset.sum_add_distrib, Finset.sum_sub_distrib, ← Finset.mul_sum, Finset.sum_const, Finset.card_univ, nsmul_eq_mul]

/-- The mean of the squared deviations from the mean is the mean of the squares minus the square of the mean. -/
theorem var_eq {ι : Type*} [Fintype ι] (x : ι → ℝ) (n : ℝ) (hn : n ≠ 0) (hcard : (Fintype.card ι : ℝ) = n) :
    (∑ i, (x i - (∑ i, x i) / n) * (x i - (∑ i, x i) / n)) / n
      = (∑ i, x i * x i) / n - (∑ i, x i) / n * ((∑ i, x i) / n) := by
  rw [sum_sq_dev, hcard]
  field_simp
  ring

/-- The same with the squares written as powers. -/
theorem var_eq_sq {ι : Type*} [Fintype ι] (x : ι → ℝ) (n : ℝ) (hn : n ≠ 0) (hcard : (Fintype.card ι : ℝ) = n) :
    (∑ i, (x i - (∑ i, x i) / n) ^ 2) / n = (∑ i, x i ^ 2) / n - ((∑ i, x i) / n) ^ 2 := by
  simp only [pow_two]
  exact var_eq x n hn hcard

/-! ## Over the extended reals, at real entries -/

/-- A finite sum of coerced reals is the coercion of the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The idealized division of a real by a nonzero real is the real quotient. -/
theorem div_coe_coe {n : ℝ} (hn : n ≠ 0) (a : ℝ) : Ideal.div (a : EReal) (n : EReal) = ((a / n : ℝ) : EReal) := by
  rw [Ideal.div_coe hn, ← EReal.coe_mul, mul_one_div]

/-- The mean of real entries, read over the extended reals, is the coercion of the real mean. -/
theorem mean_coe {ι : Type*} [Fintype ι] (x : ι → ℝ) {n : ℝ} (hn : n ≠ 0) :
    Ideal.div (∑ i, (x i : EReal)) (n : EReal) = (((∑ i, x i) / n : ℝ) : EReal) := by
  rw [← coe_sum, div_coe_coe hn]

/-- The two forms of the variance over the extended reals, at real entries: with the mean `m` the idealized quotient of
    the sum by `n`, the idealized quotient by `n` of the sum of the squared deviations from `m` is the idealized
    quotient of the sum of the squares, minus `m * m`. -/
theorem ereal_var_eq {ι : Type*} [Fintype ι] (x : ι → ℝ) (n : ℝ) (hn : n ≠ 0) (hcard : (Fintype.card ι : ℝ) = n) :
    Ideal.div (∑ i, ((x i : EReal) - Ideal.div (∑ i, (x i : EReal)) (n : EReal))
        * ((x i : EReal) - Ideal.div (∑ i, (x i : EReal)) (n : EReal))) (n : EReal)
      = Ideal.div (∑ i, (x i : EReal) * (x i : EReal)) (n : EReal)
        - Ideal.div (∑ i, (x i : EReal)) (n : EReal) * Ideal.div (∑ i, (x i : EReal)) (n : EReal) := by
  rw [mean_coe x hn]
  simp only [← EReal.coe_sub, ← EReal.coe_mul]
  rw [← coe_sum, ← coe_sum, div_coe_coe hn, div_coe_coe hn, ← EReal.coe_sub, var_eq x n hn hcard]

/-! ## The divisor 100000.0 -/

/-- The single-precision word `0x47C35000` is the real 100000: sign 0, exponent 143, significand
    `2^23 + 4411392 = 12800000`, and `12800000 · 2^(143 - 127 - 23) = 12800000 / 128`. -/
theorem ofBits_1e5 : Ideal.ofBits .f32 0x47C35000#32 = ((100000 : ℝ) : EReal) := by
  simp [Ideal.ofBits, Ideal.ieee, -EReal.coe_mul]; norm_num

/-- 100000 is the number of members of `Fin 100000`, as a real. -/
theorem card_fin_1e5 : (Fintype.card (Fin 100000) : ℝ) = 100000 := by
  rw [Fintype.card_fin]; norm_num

end Cert.LibBatchNormVar
-- ==== Proof.RefStats.lean ====
/-
  The batch normalisation's statistics: the reference's form against the second-moment form.

  The reference takes a column's variance as the mean of the squared deviations from the column's mean; the
  specification's `Gvar` takes it as the mean of the squares minus the square of the mean. The two means are the same
  term. The two variances are equal when every entry of the column is a real number: both are then coercions of real
  expressions, the divisor's word is the real 100000, which is the number of rows, and the identity
  (∑ (xᵢ - μ)²)/n = (∑ xᵢ²)/n - μ² holds over the reals.
-/
import proofs.«130829_j5128190951936_1_alg».proof.Proof.RefValue
import proofs.«130829_j5128190951936_1_alg».proof.Proof.LibBatchNormVar

noncomputable section

namespace Cert.ReferenceIdeal.RefValue

open Idealize.ShloMosaic Idealize.ShloMosaic.ValueIdx
open Cert.ReferenceIdeal Cert.Spec

/-- The reference's mean is the specification's: the same sum over the rows, the same divisor. -/
theorem refMean_eq_Gmean (h : (⟨2, ![100000, 128]⟩ : Shape).Idx → EReal) : refMean h = Gmean h := rfl

/-- The reference's variance is the specification's at an array whose entries are real numbers. -/
theorem refVar_eq_Gvar (h : (⟨2, ![100000, 128]⟩ : Shape).Idx → EReal) (hfin : ∀ i, ∃ r : ℝ, h i = (r : EReal)) : refVar h = Gvar h := by
  funext j
  choose x hx using hfin
  have hc : c1e5 = ((100000 : ℝ) : EReal) := Cert.LibBatchNormVar.ofBits_1e5
  unfold refVar Gvar refMean Gmean
  simp only [hx]
  rw [hc]
  exact Cert.LibBatchNormVar.ereal_var_eq (fun k : Fin 100000 => x (ix2 (n0 := 100000) (n1 := 128) k (j 1))) 100000
    (by norm_num) Cert.LibBatchNormVar.card_fin_1e5

/-- The result with the statistics in the specification's form. -/
def specResult (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal)) : (⟨2, ![100000, 128]⟩ : Shape).Idx → EReal :=
  Gcomb (aggregate x1 (Gmm128 (Gnorm (Gcomb (aggregate x1 (Gmm64 x0 x2)) (selfTerm x1 (Gmm64 x0 x2)) (rowOf x3)) (Gmean (Gcomb (aggregate x1 (Gmm64 x0 x2)) (selfTerm x1 (Gmm64 x0 x2)) (rowOf x3))) (Gvar (Gcomb (aggregate x1 (Gmm64 x0 x2)) (selfTerm x1 (Gmm64 x0 x2)) (rowOf x3))) (rowOf x4) (rowOf x5)) x6)) (selfTerm x1 (Gmm128 (Gnorm (Gcomb (aggregate x1 (Gmm64 x0 x2)) (selfTerm x1 (Gmm64 x0 x2)) (rowOf x3)) (Gmean (Gcomb (aggregate x1 (Gmm64 x0 x2)) (selfTerm x1 (Gmm64 x0 x2)) (rowOf x3))) (Gvar (Gcomb (aggregate x1 (Gmm64 x0 x2)) (selfTerm x1 (Gmm64 x0 x2)) (rowOf x3))) (rowOf x4) (rowOf x5)) x6)) (rowOf x7)

/-- The reference's result is that term when the first convolution's entries are real numbers. -/
theorem refResult_eq_specResult (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S128, .f32⟩ : BufTy).Contents (Elt Ideal)) (x6 : (⟨S128x128, .f32⟩ : BufTy).Contents (Elt Ideal)) (x7 : (⟨S128, .f32⟩ : BufTy).Contents (Elt Ideal))
    (hfin : ∀ i, ∃ r : ℝ, (Gcomb (aggregate x1 (Gmm64 x0 x2)) (selfTerm x1 (Gmm64 x0 x2)) (rowOf x3)) i = (r : EReal)) :
    refResult x0 x1 x2 x3 x4 x5 x6 x7 = specResult x0 x1 x2 x3 x4 x5 x6 x7 := by
  unfold refResult specResult
  rw [refVar_eq_Gvar _ hfin, refMean_eq_Gmean]

end Cert.ReferenceIdeal.RefValue

end
-- ==== Proof.RefUnfold.lean ====
/-
  The two edge-dependent parts of a convolution written out as the host operations they stand for, and a vector of
  128 as one row written as a change of shape: the forms in which a program that applies the same operations to its
  own arrays meets `aggregate`, `selfTerm` and `rowOf`.
-/
import proofs.«130829_j5128190951936_1_alg».proof.Proof.RefValue
import Idealize.ShloMosaic.Lib.ValueLayout

noncomputable section

namespace Cert.ReferenceIdeal.RefValue

open Idealize.ShloMosaic Idealize.ShloMosaic.ValueIdx
open Cert.ReferenceIdeal Cert.ReferenceIdeal.Gen Cert.ReferenceIdeal.Read

/-! ### The two functions written out

`aggregate` and `selfTerm` as the host operations they stand for, applied to the edge list and the features: the form in
which another program that applies the same operations to its own arrays meets them. -/

/-- `aggregate` written out: the scattered sum, into the destinations (row 1 of the edge list), of the rows gathered
    at the sources (row 0, a negative index wrapped by 100000) times the product of the two gathers of
    (deg + 1)^(-1/2), deg the scattered count of ones at the destinations. -/
def aggregateTerm (x1 : (⟨S2x1600000, .i32⟩ : BufTy).Contents (Elt Ideal)) (h : FVec Ideal S100000x128 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] x1 slices_S2x1600000_S1x1600000_1_0) shapeCasts_S1x1600000_S1600000)) (mulf (Host.gather gather_S100000x128_S1600000x1_S1600000x128_1_0_n_n_0_1_1128 h (broadcastInDim S1600000x1 ![0] bcast_S1600000_S1600000x1_0 (select (cmpi .slt (shapeCast _ (extractStridedSlice S1x1600000 ![0, 0] x1 slices_S2x1600000_S1x1600000_0_0) shapeCasts_S1x1600000_S1600000) (broadcastInDim S1600000 ![] bcast_S_S1600000 (constantI S_ 32 0#32))) (addi (shapeCast _ (extractStridedSlice S1x1600000 ![0, 0] x1 slices_S2x1600000_S1x1600000_0_0) shapeCasts_S1x1600000_S1600000) (broadcastInDim S1600000 ![] bcast_S_S1600000 (constantI S_ 32 100000#32))) (shapeCast _ (extractStridedSlice S1x1600000 ![0, 0] x1 slices_S2x1600000_S1x1600000_0_0) shapeCasts_S1x1600000_S1600000)))) (broadcastInDim S1600000x128 ![0, 1] bcast_S1600000x1_S1600000x128_0_1 (broadcastInDim S1600000x1 ![0] bcast_S1600000_S1600000x1_0 (mulf (Host.gather gather_S100000_S1600000x1_S1600000_n_0_n_n_0_1_1 (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] x1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt (shapeCast _ (extractStridedSlice S1x1600000 ![0, 0] x1 slices_S2x1600000_S1x1600000_0_0) shapeCasts_S1x1600000_S1600000) (broadcastInDim S1600000 ![] bcast_S_S1600000 (constantI S_ 32 0#32))) (addi (shapeCast _ (extractStridedSlice S1x1600000 ![0, 0] x1 slices_S2x1600000_S1x1600000_0_0) shapeCasts_S1x1600000_S1600000) (broadcastInDim S1600000 ![] bcast_S_S1600000 (constantI S_ 32 100000#32))) (shapeCast _ (extractStridedSlice S1x1600000 ![0, 0] x1 slices_S2x1600000_S1x1600000_0_0) shapeCasts_S1x1600000_S1600000)))) (Host.gather gather_S100000_S1600000x1_S1600000_n_0_n_n_0_1_1 (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] x1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt (shapeCast _ (extractStridedSlice S1x1600000 ![1, 0] x1 slices_S2x1600000_S1x1600000_1_0) shapeCasts_S1x1600000_S1600000) (broadcastInDim S1600000 ![] bcast_S_S1600000 (constantI S_ 32 0#32))) (addi (shapeCast _ (extractStridedSlice S1x1600000 ![1, 0] x1 slices_S2x1600000_S1x1600000_1_0) shapeCasts_S1x1600000_S1600000) (broadcastInDim S1600000 ![] bcast_S_S1600000 (constantI S_ 32 100000#32))) (shapeCast _ (extractStridedSlice S1x1600000 ![1, 0] x1 slices_S2x1600000_S1x1600000_1_0) shapeCasts_S1x1600000_S1600000))))))))

/-- `selfTerm` written out: the rows times the square of (deg + 1)^(-1/2). -/
def selfTermTerm (x1 : (⟨S2x1600000, .i32⟩ : BufTy).Contents (Elt Ideal)) (h : FVec Ideal S100000x128 .f32) : FVec Ideal S100000x128 .f32 :=
  mulf h (broadcastInDim S100000x128 ![0, 1] bcast_S100000x1_S100000x128_0_1 (broadcastInDim S100000x1 ![0] bcast_S100000_S100000x1_0 (mulf (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] x1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] x1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))))))

theorem aggregate_unfold (x1 : (⟨S2x1600000, .i32⟩ : BufTy).Contents (Elt Ideal)) (h : FVec Ideal S100000x128 .f32) : aggregate x1 h = aggregateTerm x1 h := rfl

theorem selfTerm_unfold (x1 : (⟨S2x1600000, .i32⟩ : BufTy).Contents (Elt Ideal)) (h : FVec Ideal S100000x128 .f32) : selfTerm x1 h = selfTermTerm x1 h := rfl

/-! ### A vector as one row is its change of shape from [128] to [1, 128] -/

/-- Entry (0, q) of the reshaped vector is entry q of the vector: the row-major positions agree. -/
theorem rowOf_eq_shapeCast (x : (⟨1, ![128]⟩ : Shape).Idx → EReal)
    (h : (⟨1, ![128]⟩ : Shape).ShapeCasts ⟨2, ![1, 128]⟩) : rowOf x = shapeCast ⟨2, ![1, 128]⟩ x h := by
  funext j
  obtain ⟨u, q, rfl⟩ : ∃ (u : Fin 1) (q : Fin 128), j = ix2 u q := ⟨j 0, j 1, eq_ix2 j⟩
  rw [shapeCast_a_1a_apply]
  rfl

end Cert.ReferenceIdeal.RefValue

end
-- ==== Proof.KSpec.lean ====
/-
  The kernel program's result as one function of its eight arguments, and that function against the reference's.

  The kernel program computes, on the host, the same edge-dependent parts of a convolution as the reference: the
  neighbourhood sum `kAgg` (the rows gathered at the edges' sources, scaled by dis[src] · dis[dst], summed into the
  edges' destinations) and the self-loop term `kSelf` (the rows scaled by dis²), with dis = (deg + 1)^(-1/2). They are
  written here as the host operations applied to the edge list and the features, in this program's own dimension
  records and shapes; the products, the additions and the batch normalisation between them are the specification's
  functions. A bias, scale or shift vector enters as one row by a change of shape from [128] to [1, 128] (`kRow`).
  The edge coefficients are computed once and serve both convolutions.
  Each of the three is the reference's (`aggregate`, `selfTerm`, `rowOf`): the same operations over dimension records
  that hold the same data; so the whole result is the reference's with the batch normalisation's statistics in the
  second-moment form.
-/
import proofs.«130829_j5128190951936_1_alg».proof.KernelIdeal
import proofs.«130829_j5128190951936_1_alg».proof.Proof.Gen.KernelIdeal
import proofs.«130829_j5128190951936_1_alg».proof.Proof.RefUnfold
import proofs.«130829_j5128190951936_1_alg».proof.Proof.RefStats
import proofs.«130829_j5128190951936_1_alg».proof.Proof.Spec

noncomputable section

namespace Cert.KernelIdeal.HandValue

open Idealize.ShloMosaic Idealize.ShloMosaic.ValueIdx
open Cert.KernelIdeal Cert.KernelIdeal.Gen Cert.Spec

/-! ## The host parts, in this program's names -/

/-- The neighbourhood sum of the rows of `h` over the edge list `a1`. -/
def kAgg (a1 : (⟨S2x1600000, .i32⟩ : BufTy).Contents (Elt Ideal)) (h : FVec Ideal S100000x128 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (mulf (Host.gather gather_S100000x128_S1600000x1_S1600000x128_1_0_n_n_0_1_1128 h (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))) (broadcastInDim S1600000x128 ![0, 1] bcast_S1600000x1_S1600000x128_0_1 (broadcastInDim S1600000x1 ![0] bcast_S1600000_S1600000x1_0 (mulf (Host.gather gather_S100000_S1600000x1_S1600000_n_0_n_n_0_1_1 (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt (shapeCast _ (extractStridedSlice S1x1600000 ![0, 0] a1 slices_S2x1600000_S1x1600000_0_0) shapeCasts_S1x1600000_S1600000) (broadcastInDim S1600000 ![] bcast_S_S1600000 (constantI S_ 32 0#32))) (addi (shapeCast _ (extractStridedSlice S1x1600000 ![0, 0] a1 slices_S2x1600000_S1x1600000_0_0) shapeCasts_S1x1600000_S1600000) (broadcastInDim S1600000 ![] bcast_S_S1600000 (constantI S_ 32 100000#32))) (shapeCast _ (extractStridedSlice S1x1600000 ![0, 0] a1 slices_S2x1600000_S1x1600000_0_0) shapeCasts_S1x1600000_S1600000)))) (Host.gather gather_S100000_S1600000x1_S1600000_n_0_n_n_0_1_1 (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (broadcastInDim S1600000x1 ![0] bcast_S1600000_S1600000x1_0 (select (cmpi .slt (shapeCast _ (extractStridedSlice S1x1600000 ![1, 0] a1 slices_S2x1600000_S1x1600000_1_0) shapeCasts_S1x1600000_S1600000) (broadcastInDim S1600000 ![] bcast_S_S1600000 (constantI S_ 32 0#32))) (addi (shapeCast _ (extractStridedSlice S1x1600000 ![1, 0] a1 slices_S2x1600000_S1x1600000_1_0) shapeCasts_S1x1600000_S1600000) (broadcastInDim S1600000 ![] bcast_S_S1600000 (constantI S_ 32 100000#32))) (shapeCast _ (extractStridedSlice S1x1600000 ![1, 0] a1 slices_S2x1600000_S1x1600000_1_0) shapeCasts_S1x1600000_S1600000))))))))

/-- The self-loop term of the rows of `h` over the edge list `a1`. -/
def kSelf (a1 : (⟨S2x1600000, .i32⟩ : BufTy).Contents (Elt Ideal)) (h : FVec Ideal S100000x128 .f32) : FVec Ideal S100000x128 .f32 :=
  mulf h (broadcastInDim S100000x128 ![0, 1] bcast_S100000x1_S100000x128_0_1 (broadcastInDim S100000x1 ![0] bcast_S100000_S100000x1_0 (mulf (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))) (Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] a1 slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))))))

/-- A vector of 128 as one row: its change of shape to [1, 128]. -/
def kRow (b : (⟨S128, .f32⟩ : BufTy).Contents (Elt Ideal)) : FVec Ideal S1x128 .f32 :=
  shapeCast _ b shapeCasts_S128_S1x128

/-! ## They are the reference's -/

theorem kAgg_eq (a1 : (⟨S2x1600000, .i32⟩ : BufTy).Contents (Elt Ideal)) (h : FVec Ideal S100000x128 .f32) :
    kAgg a1 h = Cert.ReferenceIdeal.RefValue.aggregate a1 h := by
  rw [Cert.ReferenceIdeal.RefValue.aggregate_unfold]; rfl

theorem kSelf_eq (a1 : (⟨S2x1600000, .i32⟩ : BufTy).Contents (Elt Ideal)) (h : FVec Ideal S100000x128 .f32) :
    kSelf a1 h = Cert.ReferenceIdeal.RefValue.selfTerm a1 h := by
  rw [Cert.ReferenceIdeal.RefValue.selfTerm_unfold]; rfl

theorem kRow_eq (b : (⟨S128, .f32⟩ : BufTy).Contents (Elt Ideal)) : kRow b = Cert.ReferenceIdeal.RefValue.rowOf b :=
  (Cert.ReferenceIdeal.RefValue.rowOf_eq_shapeCast b shapeCasts_S128_S1x128).symm

/-! ## The result -/

/-- The kernel program's result: the second convolution (weights `a6`, bias `a7`) of the batch normalisation (scale
    `a4`, shift `a5`; mean and second-moment variance of each column) of the first convolution (weights `a2`, bias
    `a3`) of the node features `a0` over the edge list `a1`. -/
def kernelResult (a0 : (⟨S100000x64, .f32⟩ : BufTy).Contents (Elt Ideal)) (a1 : (⟨S2x1600000, .i32⟩ : BufTy).Contents (Elt Ideal)) (a2 : (⟨S64x128, .f32⟩ : BufTy).Contents (Elt Ideal)) (a3 a4 a5 : (⟨S128, .f32⟩ : BufTy).Contents (Elt Ideal)) (a6 : (⟨S128x128, .f32⟩ : BufTy).Contents (Elt Ideal)) (a7 : (⟨S128, .f32⟩ : BufTy).Contents (Elt Ideal)) : FVec Ideal S100000x128 .f32 :=
  Gcomb (kAgg a1 (Gmm128 (Gnorm (Gcomb (kAgg a1 (Gmm64 a0 a2)) (kSelf a1 (Gmm64 a0 a2)) (kRow a3)) (Gmean (Gcomb (kAgg a1 (Gmm64 a0 a2)) (kSelf a1 (Gmm64 a0 a2)) (kRow a3))) (Gvar (Gcomb (kAgg a1 (Gmm64 a0 a2)) (kSelf a1 (Gmm64 a0 a2)) (kRow a3))) (kRow a4) (kRow a5)) a6)) (kSelf a1 (Gmm128 (Gnorm (Gcomb (kAgg a1 (Gmm64 a0 a2)) (kSelf a1 (Gmm64 a0 a2)) (kRow a3)) (Gmean (Gcomb (kAgg a1 (Gmm64 a0 a2)) (kSelf a1 (Gmm64 a0 a2)) (kRow a3))) (Gvar (Gcomb (kAgg a1 (Gmm64 a0 a2)) (kSelf a1 (Gmm64 a0 a2)) (kRow a3))) (kRow a4) (kRow a5)) a6)) (kRow a7)

/-- It is the reference's result with the statistics in the second-moment form. -/
theorem kernelResult_eq_specResult (a0 : (⟨S100000x64, .f32⟩ : BufTy).Contents (Elt Ideal)) (a1 : (⟨S2x1600000, .i32⟩ : BufTy).Contents (Elt Ideal)) (a2 : (⟨S64x128, .f32⟩ : BufTy).Contents (Elt Ideal)) (a3 a4 a5 : (⟨S128, .f32⟩ : BufTy).Contents (Elt Ideal)) (a6 : (⟨S128x128, .f32⟩ : BufTy).Contents (Elt Ideal)) (a7 : (⟨S128, .f32⟩ : BufTy).Contents (Elt Ideal)) :
    kernelResult a0 a1 a2 a3 a4 a5 a6 a7 = Cert.ReferenceIdeal.RefValue.specResult a0 a1 a2 a3 a4 a5 a6 a7 := by
  unfold kernelResult Cert.ReferenceIdeal.RefValue.specResult
  simp only [kAgg_eq, kSelf_eq, kRow_eq]

end Cert.KernelIdeal.HandValue

end
-- ==== Proof.IValue0.lean ====
/- The value of the matrix-product region (custom_call 0) at the extended reals: the array it leaves is the product
   `Gmm64` of the two arrays it finds. The store's payload is a contraction of the row block with the whole weight
   matrix onto a zero accumulator, the operands passed through a change of format that is the identity over the
   extended reals; read at an entry it is the sum over the contracted coordinate of the products. Point `t` of the
   20 stages block `t` of 5000 rows of the left operand and of the output, and the one block of the weights; so what
   point `t` writes back is block `t` of the product. The 20 blocks cover the 100000 rows. -/
import proofs.«130829_j5128190951936_1_alg».proof.Proof.IRegion0
import proofs.«130829_j5128190951936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem hz0 : (![0, 0] : Fin 2 → Nat) = fun _ => 0 := funext fun a => by fin_cases a <;> rfl

/-! ## The contraction's operand indices -/

/-- The left operand's index keeps the output's row … -/
theorem lhs0_0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and takes the contracted coordinate as its column. -/
theorem lhs0_1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
/-- The right operand's index takes the contracted coordinate as its row … -/
theorem rhs0_0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
/-- … and keeps the output's column. -/
theorem rhs0_1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-! ## The payload at an entry -/

/-- The store's payload at row `p`, column `q` of the block: the sum over `k` of the row block at (p, k) times the
    weights at (k, q). -/
theorem pay0_apply (x0 : Vec Ideal S5000x64 .f32) (x1 : Vec Ideal S64x128 .f32) (p : Fin 5000) (q : Fin 128) :
    k0_pay1 x0 x1 (ix2 p q) = ∑ k : Fin 64, x0 (ix2 p k) * x1 (ix2 k q) := by
  unfold k0_pay1
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs0_0 _ _).trans hk
    | ⟨1, _⟩ => exact rhs0_1 _ _)
  rw [el, er]
  rfl

/-- The payload as a function of the block index. -/
theorem pay0_eq (x0 : Vec Ideal S5000x64 .f32) (x1 : Vec Ideal S64x128 .f32) :
    k0_pay1 x0 x1 = fun y : S5000x128.Idx => ∑ k : Fin 64, x0 (ix2 (y 0) k) * x1 (ix2 k (y 1)) := by
  funext y
  obtain ⟨p, q, rfl⟩ : ∃ (p : Fin 5000) (q : Fin 128), y = ix2 p q := ⟨y 0, y 1, eq_ix2 y⟩
  exact pay0_apply x0 x1 p q

/-- The sum at one entry IS the specification's product there, once the left operand's indices are row `i2 0` and
    the right operand's are column `i2 1`. -/
theorem mm_point0 (X : S100000x64.Idx → EReal) (W : S64x128.Idx → EReal) (i2 : S100000x128.Idx)
    (a : Fin 64 → S100000x64.Idx) (b : Fin 64 → S64x128.Idx)
    (ha : ∀ k, a k = ix2 (n0 := 100000) (n1 := 64) (i2 (0 : Fin 2)) k) (hb : ∀ k, b k = ix2 (n0 := 64) (n1 := 128) k (i2 (1 : Fin 2))) :
    ∑ k : Fin 64, X (a k) * W (b k) = Cert.Spec.Gmm64 X W i2 := by
  simp only [ha, hb]
  rfl

/-! ## The windows' index maps, decided over the 20 points -/

/-- The row block has the output's row-block index and column-block index 0; the weights stay at block (0, 0); the
    output's block index is at most 19 on the rows and 0 on the columns. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 19 ∧ win0_2.index t (1 : Fin 2) = 0 :=
  (by decide +kernel : ∀ t : Fin grid0.N, _)

/-- Every block of 5000 rows is SOME point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-! ## What a point writes back -/

/-- WHAT POINT `t` WRITES BACK is its block of the product of the two arrays as the region finds them. -/
theorem flushed0_eq (c : Dev nD) (t : Fin cfg0.N) :
    (dat0 V c).flushed 2 t = ((cfg0.win 2).blk t).view.read (Elt Ideal) (Cert.Spec.Gmm64 (V c main_arg0) (V c main_arg2)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x128) hz0]
  rw [pay0_eq]
  obtain ⟨e0, e1, a0, a1, -, o1⟩ := idx_facts0 t
  funext j
  have ha : ∀ k : Fin 64, ((cfg0.win 0).blk t).view.emb (ix2 (n0 := 5000) (n1 := 64) (j (0 : Fin 2)) k)
      = ix2 (n0 := 100000) (n1 := 64) ((((cfg0.win 2).blk t).view.emb j) (0 : Fin 2)) k := by
    intro k
    have hk : k.val < 64 := k.isLt
    funext a; apply Fin.ext
    match a with
    | ⟨0, _⟩ => show win0_0.index t (0 : Fin 2) * 5000 + 1 * (j (0 : Fin 2)).val = win0_2.index t (0 : Fin 2) * 5000 + 1 * (j (0 : Fin 2)).val; omega
    | ⟨1, _⟩ => show win0_0.index t (1 : Fin 2) * 64 + 1 * k.val = k.val; omega
  have hb : ∀ k : Fin 64, ((cfg0.win 1).blk t).view.emb (ix2 (n0 := 64) (n1 := 128) k (j (1 : Fin 2)))
      = ix2 (n0 := 64) (n1 := 128) k ((((cfg0.win 2).blk t).view.emb j) (1 : Fin 2)) := by
    intro k
    have hk : k.val < 64 := k.isLt
    funext a; apply Fin.ext
    match a with
    | ⟨0, _⟩ => show win0_1.index t (0 : Fin 2) * 64 + 1 * k.val = k.val; omega
    | ⟨1, _⟩ => show win0_1.index t (1 : Fin 2) * 128 + 1 * (j (1 : Fin 2)).val = win0_2.index t (1 : Fin 2) * 128 + 1 * (j (1 : Fin 2)).val; omega
  exact mm_point0 (V c main_arg0) (V c main_arg2) (((cfg0.win 2).blk t).view.emb j)
    (fun k => ((cfg0.win 0).blk t).view.emb (ix2 (n0 := 5000) (n1 := 64) (j (0 : Fin 2)) k))
    (fun k => ((cfg0.win 1).blk t).view.emb (ix2 (n0 := 64) (n1 := 128) k (j (1 : Fin 2)))) ha hb

/-! ## The cover -/

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Every index of the array is in some point's block: every row-block index below 20 is some point's, and row `r`
    lies in the row block of index `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array the region leaves -/

/-- THE ARRAY after the region: the product of the two arrays the region found, whole. -/
theorem final0 (c : Dev nD) : (dat0 (F := Ideal) V c).arrAt 2 cfg0.N = Cert.Spec.Gmm64 (V c main_arg0) (V c main_arg2) :=
  (dat0 V c).arrAt_eq_of_cover 2 _ (fun t _ => flushed0_eq V c t) cover0

end Cert.KernelIdeal.HandValue
-- ==== Proof.IValue1.lean ====
/- The value of the combination region (custom_call 1) at the extended reals: the array it leaves is `Gcomb` of the
   three arrays it finds — the entrywise sum of two arrays plus a row vector broadcast along the rows. The store's
   payload read at an entry of the block is that formula at the entry (the row vector is read at the entry's column).
   Point `t` of the 20 stages block `t` of 5000 rows of the two arrays and of the output, and the one block of the
   row vector; so what point `t` writes back is block `t` of `Gcomb` of the arrays. The 20 blocks cover the 100000
   rows. -/
import proofs.«130829_j5128190951936_1_alg».proof.Proof.IRegion1
import proofs.«130829_j5128190951936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem hz1 : (![0, 0] : Fin 2 → Nat) = fun _ => 0 := funext fun a => by fin_cases a <;> rfl

/-! ## The payload at an entry -/

/-- The store's payload at row `p`, column `q` of the block: the sum of the two blocks' entries plus the row
    vector's at column `q`. -/
theorem pay1_apply (x0 x1 : Vec Ideal S5000x128 .f32) (x2 : Vec Ideal S1x128 .f32) (p : Fin 5000) (q : Fin 128) :
    k1_pay1 x0 x1 x2 (ix2 p q) = (x0 (ix2 p q) + x1 (ix2 p q)) + x2 (ix2 (0 : Fin 1) q) := by
  unfold k1_pay1
  simp only [shapeCast_self]
  rw [addf_apply, addf_apply, broadcastTo_1b_ab_apply]

/-- The payload as a function of the block index. -/
theorem pay1_eq (x0 x1 : Vec Ideal S5000x128 .f32) (x2 : Vec Ideal S1x128 .f32) :
    k1_pay1 x0 x1 x2 = fun y : S5000x128.Idx => (x0 y + x1 y) + x2 (ix2 (0 : Fin 1) (y 1)) := by
  funext y
  obtain ⟨p, q, rfl⟩ : ∃ (p : Fin 5000) (q : Fin 128), y = ix2 p q := ⟨y 0, y 1, eq_ix2 y⟩
  exact pay1_apply x0 x1 x2 p q

/-- The formula at one entry IS the specification's combination there, once the two arrays' indices are the
    output's and the row vector's is column `i3 1` of its one row. -/
theorem comb_point1 (A H : S100000x128.Idx → EReal) (B : S1x128.Idx → EReal) (i0 i1 i3 : S100000x128.Idx) (k2 : S1x128.Idx)
    (h0 : i0 = i3) (h1 : i1 = i3) (h2 : k2 = ix2 (n0 := 1) (n1 := 128) 0 (i3 (1 : Fin 2))) :
    (A i0 + H i1) + B k2 = Cert.Spec.Gcomb A H B i3 := by
  subst h0 h1 h2
  rfl

/-! ## The windows' index maps, decided over the 20 points -/

/-- The two arrays' blocks have the output's block index on both axes; the row vector stays at block (0, 0); the
    output's block index is at most 19 on the rows and 0 on the columns. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every block of 5000 rows is SOME point's. -/
theorem idx_onto1 : ∀ q0 : Fin 20, ∃ t : Fin cfg1.N, win1_3.index t = ![q0.val, 0] :=
  (by decide +kernel : ∀ q0 : Fin 20, ∃ t : Fin grid1.N, win1_3.index t = ![q0.val, 0])

/-! ## What a point writes back -/

/-- WHAT POINT `t` WRITES BACK is its block of the combination of the three arrays as the region finds them. -/
theorem flushed1_eq (c : Dev nD) (t : Fin cfg1.N) :
    (dat1 V c).flushed 3 t = ((cfg1.win 3).blk t).view.read (Elt Ideal)
      (Cert.Spec.Gcomb (V c main_v40) (V c main_v43) (V c main_v44)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1]
  rw [pay1_eq]
  obtain ⟨e0, e1, f0, f1, b0, b1, -, o1⟩ := idx_facts1 t
  funext j
  have hj1 : (j (1 : Fin 2)).val < 128 := (j (1 : Fin 2)).isLt
  have h0 : ((cfg1.win 0).blk t).view.emb j = ((cfg1.win 3).blk t).view.emb j := by
    funext a; apply Fin.ext
    match a with
    | ⟨0, _⟩ => show win1_0.index t (0 : Fin 2) * 5000 + 1 * (j (0 : Fin 2)).val = win1_3.index t (0 : Fin 2) * 5000 + 1 * (j (0 : Fin 2)).val; omega
    | ⟨1, _⟩ => show win1_0.index t (1 : Fin 2) * 128 + 1 * (j (1 : Fin 2)).val = win1_3.index t (1 : Fin 2) * 128 + 1 * (j (1 : Fin 2)).val; omega
  have h1 : ((cfg1.win 1).blk t).view.emb j = ((cfg1.win 3).blk t).view.emb j := by
    funext a; apply Fin.ext
    match a with
    | ⟨0, _⟩ => show win1_1.index t (0 : Fin 2) * 5000 + 1 * (j (0 : Fin 2)).val = win1_3.index t (0 : Fin 2) * 5000 + 1 * (j (0 : Fin 2)).val; omega
    | ⟨1, _⟩ => show win1_1.index t (1 : Fin 2) * 128 + 1 * (j (1 : Fin 2)).val = win1_3.index t (1 : Fin 2) * 128 + 1 * (j (1 : Fin 2)).val; omega
  have h2 : ((cfg1.win 2).blk t).view.emb (ix2 (0 : Fin 1) (j (1 : Fin 2)))
      = ix2 (n0 := 1) (n1 := 128) 0 ((((cfg1.win 3).blk t).view.emb j) (1 : Fin 2)) := by
    funext a; apply Fin.ext
    match a with
    | ⟨0, _⟩ => show win1_2.index t (0 : Fin 2) * 1 + 1 * 0 = 0; omega
    | ⟨1, _⟩ => show win1_2.index t (1 : Fin 2) * 128 + 1 * (j (1 : Fin 2)).val = win1_3.index t (1 : Fin 2) * 128 + 1 * (j (1 : Fin 2)).val; omega
  exact comb_point1 (V c main_v40) (V c main_v43) (V c main_v44)
    (((cfg1.win 0).blk t).view.emb j) (((cfg1.win 1).blk t).view.emb j) (((cfg1.win 3).blk t).view.emb j)
    (((cfg1.win 2).blk t).view.emb (ix2 (0 : Fin 1) (j (1 : Fin 2)))) h0 h1 h2

/-! ## The cover -/

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- Every index of the array is in some point's block: every row-block index below 20 is some point's, and row `r`
    lies in the row block of index `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-! ## The array the region leaves -/

/-- THE ARRAY after the region: the combination of the three arrays the region found, whole. -/
theorem final1 (c : Dev nD) : (dat1 (F := Ideal) V c).arrAt 3 cfg1.N
    = Cert.Spec.Gcomb (V c main_v40) (V c main_v43) (V c main_v44) :=
  (dat1 V c).arrAt_eq_of_cover 3 _ (fun t _ => flushed1_eq V c t) cover1

end Cert.KernelIdeal.HandValue
-- ==== Proof.IValue2.lean ====
/- The value of the reduction call at the extended reals. Its body's payloads read at a column: the running rows grow by the
   column sums of the point's block of 5000 rows (and of the block's squares); the mean row is the running sum divided by
   100000.0, the variance row the running sum of squares divided by 100000.0 minus the square of the mean. -/
import proofs.«130829_j5128190951936_1_alg».proof.Proof.IRegion2
import proofs.«130829_j5128190951936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The payloads at a column -/

/-- The sum over the rows of a 5000x128 block, at column `q`. -/
theorem colsum_apply (x : FVec Ideal S5000x128 .f32) (hφ : FKind.Formats FTy.f32)
    (hacc : (0x00000000#32 : BitVec 32) = 0x00000000#32) (q : Fin 128) :
    multiReduction .add [0] S128 x 0x00000000#32 reduces_S5000x128_S128 hφ hacc (ix1 q) = ∑ r : Fin 5000, x (ix2 r q) := by
  refine (Ideal.multiReduction_add_single x 0x00000000#32 reduces_S5000x128_S128 hφ hacc (ix1 q)).trans ?_
  refine Finset.sum_congr rfl fun k _ => congrArg x ?_
  funext a; apply Fin.ext
  match a with
  | ⟨0, _⟩ => rfl
  | ⟨1, _⟩ => rfl

/-- The zero row. -/
theorem zero_row_apply (q : Fin 128) : k2_pay1 (F := Ideal) (ix2 (0 : Fin 1) q) = 0 := by
  unfold k2_pay1
  simp only [shapeCast_self]
  exact Ideal.ofBits_zero_f32
theorem zero_row_apply' (q : Fin 128) : k2_pay2 (F := Ideal) (ix2 (0 : Fin 1) q) = 0 := by
  unfold k2_pay2
  simp only [shapeCast_self]
  exact Ideal.ofBits_zero_f32

/-- The running sum after a block: what it was plus the block's column sum. -/
theorem acc_sum_apply (x : Vec Ideal S5000x128 .f32) (s : Vec Ideal S1x128 .f32) (q : Fin 128) :
    k2_pay4 x s (ix2 (0 : Fin 1) q) = s (ix2 (0 : Fin 1) q) + ∑ r : Fin 5000, x (ix2 r q) := by
  unfold k2_pay4 k2_pay3
  simp only [shapeCast_self]
  rw [addf_apply, shapeCast_a_1a_apply, colsum_apply]

/-- The running sum of squares after a block: what it was plus the column sum of the block's squares. -/
theorem acc_sq_apply (x : Vec Ideal S5000x128 .f32) (s : Vec Ideal S1x128 .f32) (q : Fin 128) :
    k2_pay5 x s (ix2 (0 : Fin 1) q) = s (ix2 (0 : Fin 1) q) + ∑ r : Fin 5000, x (ix2 r q) * x (ix2 r q) := by
  unfold k2_pay5 k2_pay3
  simp only [shapeCast_self]
  rw [addf_apply, shapeCast_a_1a_apply, colsum_apply]
  rfl

/-- The mean row: the running sum divided by 100000.0. -/
theorem mean_row_apply (s : Vec Ideal S1x128 .f32) (q : Fin 128) :
    k2_pay6 s (ix2 (0 : Fin 1) q) = Ideal.div (s (ix2 (0 : Fin 1) q)) Cert.Spec.c1e5 := by
  unfold k2_pay6
  rw [divf_apply]
  rfl

/-- The variance row: the running sum of squares divided by 100000.0, minus the square of the mean. -/
theorem var_row_apply (s w : Vec Ideal S1x128 .f32) (q : Fin 128) :
    k2_pay7 s w (ix2 (0 : Fin 1) q)
      = Ideal.div (w (ix2 (0 : Fin 1) q)) Cert.Spec.c1e5
        - Ideal.div (s (ix2 (0 : Fin 1) q)) Cert.Spec.c1e5 * Ideal.div (s (ix2 (0 : Fin 1) q)) Cert.Spec.c1e5 := by
  unfold k2_pay7
  rw [subf_apply, divf_apply, mulf_apply, mean_row_apply]
  rfl

/-! ## The block of a point, entry by entry -/

-- the buffer contents when the call is entered, at the extended reals
variable (V : (c : Dev nD) → (b : Ref sig .tc) → Buf (Elt Ideal) ((c : Thread nD τ).loc b))

/-- Row `r` of block `b` of the 100000 rows. -/
def rowOf (b : Fin 20) (r : Fin 5000) : Fin 100000 := ⟨5000 * b.val + r.val, by omega⟩

/-- The input window's block at point `t` is block `t` of the rows and the one block of the columns; each output window's block is its one block at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Entry (r, q) of the block at point `t` is entry (5000 t + r, q) of the array. -/
theorem iblk2_apply (c : Dev nD) (t : Fin cfg2.N) (ht : t.val < 20) (r : Fin 5000) (q : Fin 128) :
    iblk2 V c 0 t (ix2 r q) = V c main_v45 (ix2 (n0 := 100000) (n1 := 128) (rowOf ⟨t.val, ht⟩ r) q) := by
  obtain ⟨e0, e1, -⟩ := idx_facts2 t
  unfold iblk2
  show V c main_v45 (((cfg2.win 0).blk t).view.emb (ix2 r q)) = _
  refine congrArg (V c main_v45) ?_
  funext a; apply Fin.ext
  match a with
  | ⟨0, _⟩ => show win2_0.index t (0 : Fin 2) * 5000 + 1 * r.val = 5000 * t.val + r.val; omega
  | ⟨1, _⟩ => show win2_0.index t (1 : Fin 2) * 128 + 1 * q.val = q.val; omega

/-! ## The running rows are partial sums over the blocks -/

/-- The column sum of block `b` of an array (zero past the twentieth block). -/
def blockSum (h : S100000x128.Idx → EReal) (q : Fin 128) (b : ℕ) : EReal :=
  if hb : b < 20 then ∑ r : Fin 5000, h (ix2 (n0 := 100000) (n1 := 128) (rowOf ⟨b, hb⟩ r) q) else 0

/-- The column sum of the squares of block `b`. -/
def blockSq (h : S100000x128.Idx → EReal) (q : Fin 128) (b : ℕ) : EReal :=
  if hb : b < 20 then ∑ r : Fin 5000, h (ix2 (n0 := 100000) (n1 := 128) (rowOf ⟨b, hb⟩ r) q) * h (ix2 (n0 := 100000) (n1 := 128) (rowOf ⟨b, hb⟩ r) q) else 0

theorem sumAt2_apply (c : Dev nD) (q : Fin 128) : ∀ (n : ℕ) (hn : n < cfg2.N),
    sumAt2 V c n hn (ix2 (0 : Fin 1) q) = ∑ b ∈ Finset.range (n + 1), blockSum (V c main_v45) q b
  | 0, hn => by
    have h20 : (0 : ℕ) < 20 := by decide
    show k2_pay4 (iblk2 V c 0 ⟨0, hn⟩) (k2_pay1 (F := Ideal)) (ix2 (0 : Fin 1) q) = _
    rw [acc_sum_apply, zero_row_apply, zero_add, Finset.sum_range_one, blockSum, dif_pos h20]
    exact Finset.sum_congr rfl fun r _ => iblk2_apply V c ⟨0, hn⟩ h20 r q
  | n + 1, hn => by
    have h20 : n + 1 < 20 := lt_of_lt_of_eq hn (show cfg2.N = 20 from N_2)
    show k2_pay4 (iblk2 V c 0 ⟨n + 1, hn⟩) (sumAt2 V c n (Nat.lt_of_succ_lt hn)) (ix2 (0 : Fin 1) q) = _
    rw [acc_sum_apply, sumAt2_apply c q n (Nat.lt_of_succ_lt hn), Finset.sum_range_succ _ (n + 1), blockSum, dif_pos h20]
    exact congrArg _ (Finset.sum_congr rfl fun r _ => iblk2_apply V c ⟨n + 1, hn⟩ h20 r q)

theorem sqAt2_apply (c : Dev nD) (q : Fin 128) : ∀ (n : ℕ) (hn : n < cfg2.N),
    sqAt2 V c n hn (ix2 (0 : Fin 1) q) = ∑ b ∈ Finset.range (n + 1), blockSq (V c main_v45) q b
  | 0, hn => by
    have h20 : (0 : ℕ) < 20 := by decide
    show k2_pay5 (iblk2 V c 0 ⟨0, hn⟩) (k2_pay2 (F := Ideal)) (ix2 (0 : Fin 1) q) = _
    rw [acc_sq_apply, zero_row_apply', zero_add, Finset.sum_range_one, blockSq, dif_pos h20]
    exact Finset.sum_congr rfl fun r _ => by rw [iblk2_apply V c ⟨0, hn⟩ h20 r q]
  | n + 1, hn => by
    have h20 : n + 1 < 20 := lt_of_lt_of_eq hn (show cfg2.N = 20 from N_2)
    show k2_pay5 (iblk2 V c 0 ⟨n + 1, hn⟩) (sqAt2 V c n (Nat.lt_of_succ_lt hn)) (ix2 (0 : Fin 1) q) = _
    rw [acc_sq_apply, sqAt2_apply c q n (Nat.lt_of_succ_lt hn), Finset.sum_range_succ _ (n + 1), blockSq, dif_pos h20]
    exact congrArg _ (Finset.sum_congr rfl fun r _ => by rw [iblk2_apply V c ⟨n + 1, hn⟩ h20 r q])

/-! ## Twenty blocks of 5000 rows are the 100000 rows -/

/-- A sum over the 100000 rows, block by block. -/
theorem sum_rows_blocks (f : Fin 100000 → EReal) :
    ∑ k : Fin 100000, f k = ∑ b ∈ Finset.range 20, (if hb : b < 20 then ∑ r : Fin 5000, f (rowOf ⟨b, hb⟩ r) else 0) := by
  rw [← Fin.sum_univ_eq_sum_range (fun b => if hb : b < 20 then ∑ r : Fin 5000, f (rowOf ⟨b, hb⟩ r) else 0) 20]
  have e : ∀ b : Fin 20, (if hb : b.val < 20 then ∑ r : Fin 5000, f (rowOf ⟨b.val, hb⟩ r) else 0) = ∑ r : Fin 5000, f (rowOf b r) :=
    fun b => by rw [dif_pos b.isLt]
  rw [Finset.sum_congr rfl fun b _ => e b, ← Finset.sum_product']
  refine (Fintype.sum_equiv (finProdFinEquiv (m := 20) (n := 5000)).symm _ _ fun k => ?_)
  refine congrArg f (Fin.ext ?_)
  show k.val = 5000 * (k.val / 5000) + k.val % 5000
  omega

/-! ## After the twentieth block the running rows are the sums over all rows -/

theorem total_sum (c : Dev nD) (t : Fin cfg2.N) (h19 : t.val = 19) (q : Fin 128) (h : S100000x128.Idx → EReal) (hh : h = V c main_v45) :
    sumAt2 V c t.val t.isLt (ix2 (0 : Fin 1) q) = ∑ k : Fin 100000, h (ix2 (n0 := 100000) (n1 := 128) k q) := by
  rw [sumAt2_apply V c q t.val t.isLt, h19, ← hh, sum_rows_blocks fun k => h (ix2 (n0 := 100000) (n1 := 128) k q)]
  rfl

theorem total_sq (c : Dev nD) (t : Fin cfg2.N) (h19 : t.val = 19) (q : Fin 128) (h : S100000x128.Idx → EReal) (hh : h = V c main_v45) :
    sqAt2 V c t.val t.isLt (ix2 (0 : Fin 1) q)
      = ∑ k : Fin 100000, h (ix2 (n0 := 100000) (n1 := 128) k q) * h (ix2 (n0 := 100000) (n1 := 128) k q) := by
  rw [sqAt2_apply V c q t.val t.isLt, h19, ← hh,
    sum_rows_blocks fun k => h (ix2 (n0 := 100000) (n1 := 128) k q) * h (ix2 (n0 := 100000) (n1 := 128) k q)]
  rfl

/-! ## What the last point writes back -/

theorem last_of_flush1 (t : Fin cfg2.N) (hf : (cfg2.win 1).flush t = true) : t.val = 19 := by
  have hN : t.val < 20 := lt_of_lt_of_eq t.isLt (show cfg2.N = 20 from N_2)
  have := (flush2_1 t).mp hf
  omega
theorem last_of_flush2 (t : Fin cfg2.N) (hf : (cfg2.win 2).flush t = true) : t.val = 19 := by
  have hN : t.val < 20 := lt_of_lt_of_eq t.isLt (show cfg2.N = 20 from N_2)
  have := (flush2_2 t).mp hf
  omega

/-- The one block of an output row is the whole row: its entry `(0, q)` is the array's entry `(0, q)` (first the mean's window, then the variance's). -/
theorem emb2_1 (t : Fin cfg2.N) (q : Fin 128) :
    ((cfg2.win 1).blk t).view.emb (ix2 (0 : Fin 1) q) = ix2 (n0 := 1) (n1 := 128) 0 q := by
  obtain ⟨-, -, a0, a1, -, -⟩ := idx_facts2 t
  funext a; apply Fin.ext
  match a with
  | ⟨0, _⟩ => show win2_1.index t (0 : Fin 2) * 1 + 1 * 0 = 0; omega
  | ⟨1, _⟩ => show win2_1.index t (1 : Fin 2) * 128 + 1 * q.val = q.val; omega
theorem emb2_2 (t : Fin cfg2.N) (q : Fin 128) :
    ((cfg2.win 2).blk t).view.emb (ix2 (0 : Fin 1) q) = ix2 (n0 := 1) (n1 := 128) 0 q := by
  obtain ⟨-, -, -, -, b0, b1⟩ := idx_facts2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- Column of the entry `(0, q)` of a one-row array. -/
theorem col_of_row (q : Fin 128) : (ix2 (n0 := 1) (n1 := 128) (0 : Fin 1) q) (1 : Fin 2) = q := rfl

/-- The mean row, entry by entry, is the specification's. -/
theorem mean_point (h : S100000x128.Idx → EReal) (s : EReal) (q : Fin 128)
    (hs : s = ∑ r : Fin 100000, h (ix2 (n0 := 100000) (n1 := 128) r q)) :
    Ideal.div s Cert.Spec.c1e5 = Cert.Spec.Gmean h (ix2 (n0 := 1) (n1 := 128) 0 q) := by
  rw [hs]
  unfold Cert.Spec.Gmean
  rw [col_of_row]

/-- The variance row, entry by entry, is the specification's. -/
theorem var_point (h : S100000x128.Idx → EReal) (s w : EReal) (q : Fin 128)
    (hs : s = ∑ r : Fin 100000, h (ix2 (n0 := 100000) (n1 := 128) r q))
    (hw : w = ∑ r : Fin 100000, h (ix2 (n0 := 100000) (n1 := 128) r q) * h (ix2 (n0 := 100000) (n1 := 128) r q)) :
    Ideal.div w Cert.Spec.c1e5 - Ideal.div s Cert.Spec.c1e5 * Ideal.div s Cert.Spec.c1e5
      = Cert.Spec.Gvar h (ix2 (n0 := 1) (n1 := 128) 0 q) := by
  rw [hs, hw]
  unfold Cert.Spec.Gvar Cert.Spec.Gmean
  rw [col_of_row]

theorem flushed2_mean (c : Dev nD) (t : Fin cfg2.N) (hf : (cfg2.win 1).flush t = true) :
    (dat2 V c).flushed 1 t = ((cfg2.win 1).blk t).view.read (Elt Ideal) (Cert.Spec.Gmean (V c main_v45)) := by
  have h19 := last_of_flush1 t hf
  show (cfg2.win 1).cut (grid2.coords t) ((dat2 V c).after 1 t) = _
  rw [after2_1]
  funext j
  obtain ⟨u, q, rfl⟩ : ∃ (u : Fin 1) (q : Fin 128), j = ix2 u q := ⟨j 0, j 1, eq_ix2 j⟩
  obtain rfl : u = 0 := Subsingleton.elim _ _
  refine (mean_row_apply _ q).trans ?_
  show _ = Cert.Spec.Gmean (V c main_v45) (((cfg2.win 1).blk t).view.emb (ix2 (0 : Fin 1) q))
  rw [emb2_1 t q]
  exact mean_point (V c main_v45) _ q (total_sum V c t h19 q _ rfl)

theorem flushed2_var (c : Dev nD) (t : Fin cfg2.N) (hf : (cfg2.win 2).flush t = true) :
    (dat2 V c).flushed 2 t = ((cfg2.win 2).blk t).view.read (Elt Ideal) (Cert.Spec.Gvar (V c main_v45)) := by
  have h19 := last_of_flush2 t hf
  show (cfg2.win 2).cut (grid2.coords t) ((dat2 V c).after 2 t) = _
  rw [after2_2]
  funext j
  obtain ⟨u, q, rfl⟩ : ∃ (u : Fin 1) (q : Fin 128), j = ix2 u q := ⟨j 0, j 1, eq_ix2 j⟩
  obtain rfl : u = 0 := Subsingleton.elim _ _
  refine (var_row_apply _ _ q).trans ?_
  show _ = Cert.Spec.Gvar (V c main_v45) (((cfg2.win 2).blk t).view.emb (ix2 (0 : Fin 1) q))
  rw [emb2_2 t q]
  exact var_point (V c main_v45) _ _ q (total_sum V c t h19 q _ rfl) (total_sq V c t h19 q _ rfl)

/-! ## The cover: the last point's block is the whole row -/

theorem mem_blk2_1 (t : Fin cfg2.N) (i : S1x128.Idx) :
    i ∈ ((cfg2.win 1).blk t).view.set ↔ ∀ a : Fin 2, win2_1.index t a * S1x128.size a ≤ (i a).val
      ∧ (i a).val < win2_1.index t a * S1x128.size a + S1x128.size a := by
  show i ∈ ((View.whole main_v48_0).slice (win2_1.rect t)).set ↔ _
  rw [View.set_slice_whole, Rect.mem_set_unit]
  exact Iff.rfl
theorem mem_blk2_2 (t : Fin cfg2.N) (i : S1x128.Idx) :
    i ∈ ((cfg2.win 2).blk t).view.set ↔ ∀ a : Fin 2, win2_2.index t a * S1x128.size a ≤ (i a).val
      ∧ (i a).val < win2_2.index t a * S1x128.size a + S1x128.size a := by
  show i ∈ ((View.whole main_v48_1).slice (win2_2.rect t)).set ↔ _
  rw [View.set_slice_whole, Rect.mem_set_unit]
  exact Iff.rfl

theorem last2 : (19 : ℕ) < cfg2.N := by rw [show cfg2.N = 20 from N_2]; decide

theorem cover2_1 (i : S1x128.Idx) : ∃ t : Fin cfg2.N, (cfg2.win 1).flush t = true ∧ i ∈ ((cfg2.win 1).blk t).view.set := by
  have hi0 : (i 0).val < 1 := (i 0).isLt
  have hi1 : (i 1).val < 128 := (i 1).isLt
  obtain ⟨-, -, a0, a1, -, -⟩ := idx_facts2 ⟨19, last2⟩
  refine ⟨⟨19, last2⟩, (flush2_1 _).mpr (by decide), ?_⟩
  rw [mem_blk2_1]
  intro a
  match a with
  | ⟨0, _⟩ => show win2_1.index ⟨19, last2⟩ (0 : Fin 2) * 1 ≤ (i 0).val ∧ (i 0).val < win2_1.index ⟨19, last2⟩ (0 : Fin 2) * 1 + 1; omega
  | ⟨1, _⟩ => show win2_1.index ⟨19, last2⟩ (1 : Fin 2) * 128 ≤ (i 1).val ∧ (i 1).val < win2_1.index ⟨19, last2⟩ (1 : Fin 2) * 128 + 128; omega

theorem cover2_2 (i : S1x128.Idx) : ∃ t : Fin cfg2.N, (cfg2.win 2).flush t = true ∧ i ∈ ((cfg2.win 2).blk t).view.set := by
  have hi0 : (i 0).val < 1 := (i 0).isLt
  have hi1 : (i 1).val < 128 := (i 1).isLt
  obtain ⟨-, -, -, -, b0, b1⟩ := idx_facts2 ⟨19, last2⟩
  refine ⟨⟨19, last2⟩, (flush2_2 _).mpr (by decide), ?_⟩
  rw [mem_blk2_2]
  intro a
  match a with
  | ⟨0, _⟩ => show win2_2.index ⟨19, last2⟩ (0 : Fin 2) * 1 ≤ (i 0).val ∧ (i 0).val < win2_2.index ⟨19, last2⟩ (0 : Fin 2) * 1 + 1; omega
  | ⟨1, _⟩ => show win2_2.index ⟨19, last2⟩ (1 : Fin 2) * 128 ≤ (i 1).val ∧ (i 1).val < win2_2.index ⟨19, last2⟩ (1 : Fin 2) * 128 + 128; omega

/-! ## The two arrays the call leaves -/

/-- The first output ends at the column means of the input array. -/
theorem final2_mean (c : Dev nD) : (dat2 (F := Ideal) V c).arrAt 1 cfg2.N = Cert.Spec.Gmean (V c main_v45) :=
  (dat2 V c).arrAt_eq_of_cover 1 _ (fun t ht => flushed2_mean V c t ht) cover2_1

/-- The second output ends at the column variances, in the form "mean of the squares minus the square of the mean". -/
theorem final2_var (c : Dev nD) : (dat2 (F := Ideal) V c).arrAt 2 cfg2.N = Cert.Spec.Gvar (V c main_v45) :=
  (dat2 V c).arrAt_eq_of_cover 2 _ (fun t ht => flushed2_var V c t ht) cover2_2

end Cert.KernelIdeal.HandValue

end
-- ==== Proof.IValue3.lean ====
/- The value of the normalisation region at the extended reals: the array it leaves is the normalisation `Gnorm` of the
   five arrays it finds — the array to normalise and the four row vectors (mean, variance, scale, shift).
   The store's payload read at an entry of the block is the specification's formula at that entry (the row vectors
   are broadcast along the rows, so they are read at the entry's column). Point `t` of the 20 stages block `t` of
   5000 rows of the input and of the output, and the one block of each row vector; so what point `t` writes back is
   block `t` of `Gnorm` of the arrays. The 20 blocks cover the 100000 rows (row `r` is in block `r / 5000`), so the
   array ends holding `Gnorm` everywhere. -/
import proofs.«130829_j5128190951936_1_alg».proof.Proof.IRegion3
import proofs.«130829_j5128190951936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem hz3 : (![0, 0] : Fin 2 → Nat) = fun _ => 0 := funext fun a => by fin_cases a <;> rfl

/-! ## The payload at an entry -/

/-- The store's payload at row `p`, column `q` of the block: the block's entry minus the mean row's, times the
    reciprocal square root of the variance row's plus the stabiliser, times the scale row's, plus the shift row's —
    each row vector read at column `q` of its one row. -/
theorem pay3_apply (x0 : Vec Ideal S5000x128 .f32) (x1 x2 x3 x4 : Vec Ideal S1x128 .f32) (p : Fin 5000) (q : Fin 128) :
    k3_pay1 x0 x1 x2 x3 x4 (ix2 p q)
      = ((x0 (ix2 p q) - x1 (ix2 (0 : Fin 1) q)) * Ideal.rsqrt (x2 (ix2 (0 : Fin 1) q) + Cert.Spec.eps))
        * x3 (ix2 (0 : Fin 1) q) + x4 (ix2 (0 : Fin 1) q) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The payload as a function of the block index: the entry's column picks the column of the four row vectors. -/
theorem pay3_eq (x0 : Vec Ideal S5000x128 .f32) (x1 x2 x3 x4 : Vec Ideal S1x128 .f32) :
    k3_pay1 x0 x1 x2 x3 x4 = fun y : S5000x128.Idx =>
      ((x0 y - x1 (ix2 (0 : Fin 1) (y 1))) * Ideal.rsqrt (x2 (ix2 (0 : Fin 1) (y 1)) + Cert.Spec.eps))
        * x3 (ix2 (0 : Fin 1) (y 1)) + x4 (ix2 (0 : Fin 1) (y 1)) := by
  funext y
  obtain ⟨p, q, rfl⟩ : ∃ (p : Fin 5000) (q : Fin 128), y = ix2 p q := ⟨y 0, y 1, eq_ix2 y⟩
  exact pay3_apply x0 x1 x2 x3 x4 p q

/-- The formula at one entry IS the specification's normalisation there, once the input's index is the output's
    (`h0`) and each row vector's index is column `i5 1` of its one row (`h1` … `h4`). -/
theorem norm_point (A : S100000x128.Idx → EReal) (M Vr Gm Be : S1x128.Idx → EReal)
    (i0 i5 : S100000x128.Idx) (k1 k2 k3 k4 : S1x128.Idx) (h0 : i0 = i5)
    (h1 : k1 = ix2 (n0 := 1) (n1 := 128) 0 (i5 (1 : Fin 2))) (h2 : k2 = ix2 (n0 := 1) (n1 := 128) 0 (i5 (1 : Fin 2)))
    (h3 : k3 = ix2 (n0 := 1) (n1 := 128) 0 (i5 (1 : Fin 2))) (h4 : k4 = ix2 (n0 := 1) (n1 := 128) 0 (i5 (1 : Fin 2))) :
    ((A i0 - M k1) * Ideal.rsqrt (Vr k2 + Cert.Spec.eps)) * Gm k3 + Be k4 = Cert.Spec.Gnorm A M Vr Gm Be i5 := by
  subst h0 h1 h2 h3 h4
  rfl

/-! ## The windows' index maps, decided over the 20 points -/

/-- The block of the array to normalise has the output's block index on both axes; the four row vectors stay at block
    (0, 0); the output's block index is at most 19 on the rows and 0 on the columns. -/
theorem idx_facts3 : ∀ t : Fin cfg3.N, win3_0.index t (0 : Fin 2) = win3_5.index t (0 : Fin 2)
    ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 19 ∧ win3_5.index t (1 : Fin 2) = 0 :=
  (by decide +kernel : ∀ t : Fin grid3.N, _)

/-- Every block of 5000 rows is SOME point's. -/
theorem idx_onto3 : ∀ q0 : Fin 20, ∃ t : Fin cfg3.N, win3_5.index t = ![q0.val, 0] :=
  (by decide +kernel : ∀ q0 : Fin 20, ∃ t : Fin grid3.N, win3_5.index t = ![q0.val, 0])

/-! ## What a point writes back -/

/-- WHAT POINT `t` WRITES BACK is its block of the normalisation of the five arrays as the region finds them. -/
theorem flushed3_eq (c : Dev nD) (t : Fin cfg3.N) :
    (dat3 V c).flushed 5 t = ((cfg3.win 5).blk t).view.read (Elt Ideal)
      (Cert.Spec.Gnorm (V c main_v45) (V c main_v48_0) (V c main_v48_1) (V c main_v46) (V c main_v47)) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S1x128) hz3]
  rw [pay3_eq]
  obtain ⟨e0, e1, a0, a1, b0, b1, g0, g1, s0, s1, -, o1⟩ := idx_facts3 t
  funext j
  have hj1 : (j (1 : Fin 2)).val < 128 := (j (1 : Fin 2)).isLt
  have h0 : ((cfg3.win 0).blk t).view.emb j = ((cfg3.win 5).blk t).view.emb j := by
    funext a; apply Fin.ext
    match a with
    | ⟨0, _⟩ => show win3_0.index t (0 : Fin 2) * 5000 + 1 * (j (0 : Fin 2)).val = win3_5.index t (0 : Fin 2) * 5000 + 1 * (j (0 : Fin 2)).val; omega
    | ⟨1, _⟩ => show win3_0.index t (1 : Fin 2) * 128 + 1 * (j (1 : Fin 2)).val = win3_5.index t (1 : Fin 2) * 128 + 1 * (j (1 : Fin 2)).val; omega
  have h1 : ((cfg3.win 1).blk t).view.emb (ix2 (0 : Fin 1) (j (1 : Fin 2)))
      = ix2 (n0 := 1) (n1 := 128) 0 ((((cfg3.win 5).blk t).view.emb j) (1 : Fin 2)) := by
    funext a; apply Fin.ext
    match a with
    | ⟨0, _⟩ => show win3_1.index t (0 : Fin 2) * 1 + 1 * 0 = 0; omega
    | ⟨1, _⟩ => show win3_1.index t (1 : Fin 2) * 128 + 1 * (j (1 : Fin 2)).val = win3_5.index t (1 : Fin 2) * 128 + 1 * (j (1 : Fin 2)).val; omega
  have h2 : ((cfg3.win 2).blk t).view.emb (ix2 (0 : Fin 1) (j (1 : Fin 2)))
      = ix2 (n0 := 1) (n1 := 128) 0 ((((cfg3.win 5).blk t).view.emb j) (1 : Fin 2)) := by
    funext a; apply Fin.ext
    match a with
    | ⟨0, _⟩ => show win3_2.index t (0 : Fin 2) * 1 + 1 * 0 = 0; omega
    | ⟨1, _⟩ => show win3_2.index t (1 : Fin 2) * 128 + 1 * (j (1 : Fin 2)).val = win3_5.index t (1 : Fin 2) * 128 + 1 * (j (1 : Fin 2)).val; omega
  have h3 : ((cfg3.win 3).blk t).view.emb (ix2 (0 : Fin 1) (j (1 : Fin 2)))
      = ix2 (n0 := 1) (n1 := 128) 0 ((((cfg3.win 5).blk t).view.emb j) (1 : Fin 2)) := by
    funext a; apply Fin.ext
    match a with
    | ⟨0, _⟩ => show win3_3.index t (0 : Fin 2) * 1 + 1 * 0 = 0; omega
    | ⟨1, _⟩ => show win3_3.index t (1 : Fin 2) * 128 + 1 * (j (1 : Fin 2)).val = win3_5.index t (1 : Fin 2) * 128 + 1 * (j (1 : Fin 2)).val; omega
  have h4 : ((cfg3.win 4).blk t).view.emb (ix2 (0 : Fin 1) (j (1 : Fin 2)))
      = ix2 (n0 := 1) (n1 := 128) 0 ((((cfg3.win 5).blk t).view.emb j) (1 : Fin 2)) := by
    funext a; apply Fin.ext
    match a with
    | ⟨0, _⟩ => show win3_4.index t (0 : Fin 2) * 1 + 1 * 0 = 0; omega
    | ⟨1, _⟩ => show win3_4.index t (1 : Fin 2) * 128 + 1 * (j (1 : Fin 2)).val = win3_5.index t (1 : Fin 2) * 128 + 1 * (j (1 : Fin 2)).val; omega
  exact norm_point (V c main_v45) (V c main_v48_0) (V c main_v48_1) (V c main_v46) (V c main_v47)
    (((cfg3.win 0).blk t).view.emb j) (((cfg3.win 5).blk t).view.emb j)
    (((cfg3.win 1).blk t).view.emb (ix2 (0 : Fin 1) (j (1 : Fin 2)))) (((cfg3.win 2).blk t).view.emb (ix2 (0 : Fin 1) (j (1 : Fin 2))))
    (((cfg3.win 3).blk t).view.emb (ix2 (0 : Fin 1) (j (1 : Fin 2)))) (((cfg3.win 4).blk t).view.emb (ix2 (0 : Fin 1) (j (1 : Fin 2))))
    h0 h1 h2 h3 h4

/-! ## The cover -/

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v49).slice (win3_5.rect t)).set ↔ _
  rw [View.set_slice_whole, Rect.mem_set_unit]
  exact Iff.rfl

/-- Every index of the array is in some point's block: every row-block index below 20 is some point's, and row `r`
    lies in the row block of index `r / 5000`. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-! ## The array the region leaves -/

/-- THE ARRAY after the region: the normalisation of the five arrays the region found, whole. -/
theorem final3 (c : Dev nD) : (dat3 (F := Ideal) V c).arrAt 5 cfg3.N
    = Cert.Spec.Gnorm (V c main_v45) (V c main_v48_0) (V c main_v48_1) (V c main_v46) (V c main_v47) :=
  (dat3 V c).arrAt_eq_of_cover 5 _ (fun t _ => flushed3_eq V c t) cover3

end Cert.KernelIdeal.HandValue
-- ==== Proof.IValue4.lean ====
/- The value of the matrix-product region (custom_call 4) at the extended reals: the array it leaves is the product
   `Gmm128` of the two arrays it finds. The store's payload is a contraction of the row block with the whole weight
   matrix onto a zero accumulator, the operands passed through a change of format that is the identity over the
   extended reals; read at an entry it is the sum over the contracted coordinate of the products. Point `t` of the
   20 stages block `t` of 5000 rows of the left operand and of the output, and the one block of the weights; so what
   point `t` writes back is block `t` of the product. The 20 blocks cover the 100000 rows. -/
import proofs.«130829_j5128190951936_1_alg».proof.Proof.IRegion4
import proofs.«130829_j5128190951936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem hz4 : (![0, 0] : Fin 2 → Nat) = fun _ => 0 := funext fun a => by fin_cases a <;> rfl

/-! ## The contraction's operand indices -/

/-- The left operand's index keeps the output's row … -/
theorem lhs4_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contracted coordinate as its column. -/
theorem lhs4_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index takes the contracted coordinate as its row … -/
theorem rhs4_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs4_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The payload at an entry -/

/-- The store's payload at row `p`, column `q` of the block: the sum over `k` of the row block at (p, k) times the
    weights at (k, q). -/
theorem pay4_apply (x0 : Vec Ideal S5000x128 .f32) (x1 : Vec Ideal S128x128 .f32) (p : Fin 5000) (q : Fin 128) :
    k4_pay1 x0 x1 (ix2 p q) = ∑ k : Fin 128, x0 (ix2 p k) * x1 (ix2 k q) := by
  unfold k4_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs4_0 _ _).trans hk
    | ⟨1, _⟩ => exact rhs4_1 _ _)
  rw [el, er]
  rfl

/-- The payload as a function of the block index. -/
theorem pay4_eq (x0 : Vec Ideal S5000x128 .f32) (x1 : Vec Ideal S128x128 .f32) :
    k4_pay1 x0 x1 = fun y : S5000x128.Idx => ∑ k : Fin 128, x0 (ix2 (y 0) k) * x1 (ix2 k (y 1)) := by
  funext y
  obtain ⟨p, q, rfl⟩ : ∃ (p : Fin 5000) (q : Fin 128), y = ix2 p q := ⟨y 0, y 1, eq_ix2 y⟩
  exact pay4_apply x0 x1 p q

/-- The sum at one entry IS the specification's product there, once the left operand's indices are row `i2 0` and
    the right operand's are column `i2 1`. -/
theorem mm_point4 (X : S100000x128.Idx → EReal) (W : S128x128.Idx → EReal) (i2 : S100000x128.Idx)
    (a : Fin 128 → S100000x128.Idx) (b : Fin 128 → S128x128.Idx)
    (ha : ∀ k, a k = ix2 (n0 := 100000) (n1 := 128) (i2 (0 : Fin 2)) k) (hb : ∀ k, b k = ix2 (n0 := 128) (n1 := 128) k (i2 (1 : Fin 2))) :
    ∑ k : Fin 128, X (a k) * W (b k) = Cert.Spec.Gmm128 X W i2 := by
  simp only [ha, hb]
  rfl

/-! ## The windows' index maps, decided over the 20 points -/

/-- The row block has the output's row-block index and column-block index 0; the weights stay at block (0, 0); the
    output's block index is at most 19 on the rows and 0 on the columns. -/
theorem idx_facts4 : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (0 : Fin 2) ≤ 19 ∧ win4_2.index t (1 : Fin 2) = 0 :=
  (by decide +kernel : ∀ t : Fin grid4.N, _)

/-- Every block of 5000 rows is SOME point's. -/
theorem idx_onto4 : ∀ q0 : Fin 20, ∃ t : Fin cfg4.N, win4_2.index t = ![q0.val, 0] :=
  (by decide +kernel : ∀ q0 : Fin 20, ∃ t : Fin grid4.N, win4_2.index t = ![q0.val, 0])

/-! ## What a point writes back -/

/-- WHAT POINT `t` WRITES BACK is its block of the product of the two arrays as the region finds them. -/
theorem flushed4_eq (c : Dev nD) (t : Fin cfg4.N) :
    (dat4 V c).flushed 2 t = ((cfg4.win 2).blk t).view.read (Elt Ideal) (Cert.Spec.Gmm128 (V c main_v49) (V c main_arg6)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x128) hz4]
  rw [pay4_eq]
  obtain ⟨e0, e1, a0, a1, -, o1⟩ := idx_facts4 t
  funext j
  have ha : ∀ k : Fin 128, ((cfg4.win 0).blk t).view.emb (ix2 (n0 := 5000) (n1 := 128) (j (0 : Fin 2)) k)
      = ix2 (n0 := 100000) (n1 := 128) ((((cfg4.win 2).blk t).view.emb j) (0 : Fin 2)) k := by
    intro k
    have hk : k.val < 128 := k.isLt
    funext a; apply Fin.ext
    match a with
    | ⟨0, _⟩ => show win4_0.index t (0 : Fin 2) * 5000 + 1 * (j (0 : Fin 2)).val = win4_2.index t (0 : Fin 2) * 5000 + 1 * (j (0 : Fin 2)).val; omega
    | ⟨1, _⟩ => show win4_0.index t (1 : Fin 2) * 128 + 1 * k.val = k.val; omega
  have hb : ∀ k : Fin 128, ((cfg4.win 1).blk t).view.emb (ix2 (n0 := 128) (n1 := 128) k (j (1 : Fin 2)))
      = ix2 (n0 := 128) (n1 := 128) k ((((cfg4.win 2).blk t).view.emb j) (1 : Fin 2)) := by
    intro k
    have hk : k.val < 128 := k.isLt
    funext a; apply Fin.ext
    match a with
    | ⟨0, _⟩ => show win4_1.index t (0 : Fin 2) * 128 + 1 * k.val = k.val; omega
    | ⟨1, _⟩ => show win4_1.index t (1 : Fin 2) * 128 + 1 * (j (1 : Fin 2)).val = win4_2.index t (1 : Fin 2) * 128 + 1 * (j (1 : Fin 2)).val; omega
  exact mm_point4 (V c main_v49) (V c main_arg6) (((cfg4.win 2).blk t).view.emb j)
    (fun k => ((cfg4.win 0).blk t).view.emb (ix2 (n0 := 5000) (n1 := 128) (j (0 : Fin 2)) k))
    (fun k => ((cfg4.win 1).blk t).view.emb (ix2 (n0 := 128) (n1 := 128) k (j (1 : Fin 2)))) ha hb

/-! ## The cover -/

/-- An index of the array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v50).slice (win4_2.rect t)).set ↔ _
  rw [View.set_slice_whole, Rect.mem_set_unit]
  exact Iff.rfl

/-- Every index of the array is in some point's block: every row-block index below 20 is some point's, and row `r`
    lies in the row block of index `r / 5000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-! ## The array the region leaves -/

/-- THE ARRAY after the region: the product of the two arrays the region found, whole. -/
theorem final4 (c : Dev nD) : (dat4 (F := Ideal) V c).arrAt 2 cfg4.N = Cert.Spec.Gmm128 (V c main_v49) (V c main_arg6) :=
  (dat4 V c).arrAt_eq_of_cover 2 _ (fun t _ => flushed4_eq V c t) cover4

end Cert.KernelIdeal.HandValue
-- ==== Proof.IValue5.lean ====
/- The value of the combination region (custom_call 5) at the extended reals: the array it leaves is `Gcomb` of the
   three arrays it finds — the entrywise sum of two arrays plus a row vector broadcast along the rows. The store's
   payload read at an entry of the block is that formula at the entry (the row vector is read at the entry's column).
   Point `t` of the 20 stages block `t` of 5000 rows of the two arrays and of the output, and the one block of the
   row vector; so what point `t` writes back is block `t` of `Gcomb` of the arrays. The 20 blocks cover the 100000
   rows. -/
import proofs.«130829_j5128190951936_1_alg».proof.Proof.IRegion5
import proofs.«130829_j5128190951936_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem hz5 : (![0, 0] : Fin 2 → Nat) = fun _ => 0 := funext fun a => by fin_cases a <;> rfl

/-! ## The payload at an entry -/

/-- The store's payload at row `p`, column `q` of the block: the sum of the two blocks' entries plus the row
    vector's at column `q`. -/
theorem pay5_apply (x0 x1 : Vec Ideal S5000x128 .f32) (x2 : Vec Ideal S1x128 .f32) (p : Fin 5000) (q : Fin 128) :
    k5_pay1 x0 x1 x2 (ix2 p q) = (x0 (ix2 p q) + x1 (ix2 p q)) + x2 (ix2 (0 : Fin 1) q) := by
  unfold k5_pay1
  simp only [shapeCast_self]
  rw [addf_apply, addf_apply, broadcastTo_1b_ab_apply]

/-- The payload as a function of the block index. -/
theorem pay5_eq (x0 x1 : Vec Ideal S5000x128 .f32) (x2 : Vec Ideal S1x128 .f32) :
    k5_pay1 x0 x1 x2 = fun y : S5000x128.Idx => (x0 y + x1 y) + x2 (ix2 (0 : Fin 1) (y 1)) := by
  funext y
  obtain ⟨p, q, rfl⟩ : ∃ (p : Fin 5000) (q : Fin 128), y = ix2 p q := ⟨y 0, y 1, eq_ix2 y⟩
  exact pay5_apply x0 x1 x2 p q

/-- The formula at one entry IS the specification's combination there, once the two arrays' indices are the
    output's and the row vector's is column `i3 1` of its one row. -/
theorem comb_point5 (A H : S100000x128.Idx → EReal) (B : S1x128.Idx → EReal) (i0 i1 i3 : S100000x128.Idx) (k2 : S1x128.Idx)
    (h0 : i0 = i3) (h1 : i1 = i3) (h2 : k2 = ix2 (n0 := 1) (n1 := 128) 0 (i3 (1 : Fin 2))) :
    (A i0 + H i1) + B k2 = Cert.Spec.Gcomb A H B i3 := by
  subst h0 h1 h2
  rfl

/-! ## The windows' index maps, decided over the 20 points -/

/-- The two arrays' blocks have the output's block index on both axes; the row vector stays at block (0, 0); the
    output's block index is at most 19 on the rows and 0 on the columns. -/
theorem idx_facts5 : ∀ t : Fin cfg5.N, win5_0.index t (0 : Fin 2) = win5_3.index t (0 : Fin 2)
    ∧ win5_0.index t (1 : Fin 2) = win5_3.index t (1 : Fin 2)
    ∧ win5_1.index t (0 : Fin 2) = win5_3.index t (0 : Fin 2)
    ∧ win5_1.index t (1 : Fin 2) = win5_3.index t (1 : Fin 2)
    ∧ win5_2.index t (0 : Fin 2) = 0 ∧ win5_2.index t (1 : Fin 2) = 0
    ∧ win5_3.index t (0 : Fin 2) ≤ 19 ∧ win5_3.index t (1 : Fin 2) = 0 :=
  (by decide +kernel : ∀ t : Fin grid5.N, _)

/-- Every block of 5000 rows is SOME point's. -/
theorem idx_onto5 : ∀ q0 : Fin 20, ∃ t : Fin cfg5.N, win5_3.index t = ![q0.val, 0] :=
  (by decide +kernel : ∀ q0 : Fin 20, ∃ t : Fin grid5.N, win5_3.index t = ![q0.val, 0])

/-! ## What a point writes back -/

/-- WHAT POINT `t` WRITES BACK is its block of the combination of the three arrays as the region finds them. -/
theorem flushed5_eq (c : Dev nD) (t : Fin cfg5.N) :
    (dat5 V c).flushed 3 t = ((cfg5.win 3).blk t).view.read (Elt Ideal)
      (Cert.Spec.Gcomb (V c main_v63) (V c main_v66) (V c main_v67)) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S1x128) hz5]
  rw [pay5_eq]
  obtain ⟨e0, e1, f0, f1, b0, b1, -, o1⟩ := idx_facts5 t
  funext j
  have hj1 : (j (1 : Fin 2)).val < 128 := (j (1 : Fin 2)).isLt
  have h0 : ((cfg5.win 0).blk t).view.emb j = ((cfg5.win 3).blk t).view.emb j := by
    funext a; apply Fin.ext
    match a with
    | ⟨0, _⟩ => show win5_0.index t (0 : Fin 2) * 5000 + 1 * (j (0 : Fin 2)).val = win5_3.index t (0 : Fin 2) * 5000 + 1 * (j (0 : Fin 2)).val; omega
    | ⟨1, _⟩ => show win5_0.index t (1 : Fin 2) * 128 + 1 * (j (1 : Fin 2)).val = win5_3.index t (1 : Fin 2) * 128 + 1 * (j (1 : Fin 2)).val; omega
  have h1 : ((cfg5.win 1).blk t).view.emb j = ((cfg5.win 3).blk t).view.emb j := by
    funext a; apply Fin.ext
    match a with
    | ⟨0, _⟩ => show win5_1.index t (0 : Fin 2) * 5000 + 1 * (j (0 : Fin 2)).val = win5_3.index t (0 : Fin 2) * 5000 + 1 * (j (0 : Fin 2)).val; omega
    | ⟨1, _⟩ => show win5_1.index t (1 : Fin 2) * 128 + 1 * (j (1 : Fin 2)).val = win5_3.index t (1 : Fin 2) * 128 + 1 * (j (1 : Fin 2)).val; omega
  have h2 : ((cfg5.win 2).blk t).view.emb (ix2 (0 : Fin 1) (j (1 : Fin 2)))
      = ix2 (n0 := 1) (n1 := 128) 0 ((((cfg5.win 3).blk t).view.emb j) (1 : Fin 2)) := by
    funext a; apply Fin.ext
    match a with
    | ⟨0, _⟩ => show win5_2.index t (0 : Fin 2) * 1 + 1 * 0 = 0; omega
    | ⟨1, _⟩ => show win5_2.index t (1 : Fin 2) * 128 + 1 * (j (1 : Fin 2)).val = win5_3.index t (1 : Fin 2) * 128 + 1 * (j (1 : Fin 2)).val; omega
  exact comb_point5 (V c main_v63) (V c main_v66) (V c main_v67)
    (((cfg5.win 0).blk t).view.emb j) (((cfg5.win 1).blk t).view.emb j) (((cfg5.win 3).blk t).view.emb j)
    (((cfg5.win 2).blk t).view.emb (ix2 (0 : Fin 1) (j (1 : Fin 2)))) h0 h1 h2

/-! ## The cover -/

/-- An index of the array is in point `t`'s block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v68).slice (win5_3.rect t)).set ↔ _
  rw [View.set_slice_whole, Rect.mem_set_unit]
  exact Iff.rfl

/-- Every index of the array is in some point's block: every row-block index below 20 is some point's, and row `r`
    lies in the row block of index `r / 5000`. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-! ## The array the region leaves -/

/-- THE ARRAY after the region: the combination of the three arrays the region found, whole. -/
theorem final5 (c : Dev nD) : (dat5 (F := Ideal) V c).arrAt 3 cfg5.N
    = Cert.Spec.Gcomb (V c main_v63) (V c main_v66) (V c main_v67) :=
  (dat5 V c).arrAt_eq_of_cover 3 _ (fun t _ => flushed5_eq V c t) cover5

end Cert.KernelIdeal.HandValue
-- ==== Proof.IChain.lean ====
/- THE KERNEL PROGRAM'S RESULT AS ONE TERM OF ITS ARGUMENTS, at the extended reals. The run leaves every unscoped buffer at
   the last boundary's contents of a fold through @main's ten items; here that fold is read at the result array. Each
   region's output is the specification's function (a matrix product, the sum with a bias row, the column statistics, the
   normalisation) of what its input arrays held at its entry; each host stretch's output is the host operations' text
   applied to what it read; a buffer an item does not write keeps its contents across it. Walking back from the last
   region's output through these links reaches the launch memory at the eight arguments, and the composed term is the
   specification's `kernelResult`. The edge-dependent arrays (sources, destinations, the coefficient dis[src] · dis[dst],
   the self scale dis²) are written once, by the first host stretch, and serve both convolutions. -/
import proofs.«130829_j5128190951936_1_alg».proof.Proof.IRun
import proofs.«130829_j5128190951936_1_alg».proof.Proof.IValue0
import proofs.«130829_j5128190951936_1_alg».proof.Proof.IValue1
import proofs.«130829_j5128190951936_1_alg».proof.Proof.IValue2
import proofs.«130829_j5128190951936_1_alg».proof.Proof.IValue3
import proofs.«130829_j5128190951936_1_alg».proof.Proof.IValue4
import proofs.«130829_j5128190951936_1_alg».proof.Proof.IValue5
import proofs.«130829_j5128190951936_1_alg».proof.Proof.Spec
import Idealize.ShloMosaic.Lib.StableHlo.Run
import proofs.«130829_j5128190951936_1_alg».proof.Proof.KSpec

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Spec

variable (m : (ℓ : Loc nD τ sig) → Buf (Elt Ideal) ℓ) (ρ : Dev nD → PrngReg)

/-! ## A buffer an item of @main does not write keeps its contents across that item -/

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
theorem W9_keep (c : Dev nD) (r : Ref sig .tc) (h : r ∉ hostOps5_W) :
    W9 m ρ c (Proc.devRef .tc r) = W8 m ρ c (Proc.devRef .tc r) :=
  StableHlo.after_of_writes_sub hostOps5 _ hostOps5_writes h

/-! ## The arguments at the boundaries where a later item reads them: as launched -/

theorem W1_arg0 (c : Dev nD) : W1 m ρ c (Proc.devRef .tc main_arg0) = (m ((c : Thread nD τ).loc main_arg0)) :=
  calc W1 m ρ c (Proc.devRef .tc main_arg0)
    _ = W0 m ρ c (Proc.devRef .tc main_arg0) := W1_keep m ρ c main_arg0 (by decide)
    _ = (m ((c : Thread nD τ).loc main_arg0)) := rfl
theorem W1_arg2 (c : Dev nD) : W1 m ρ c (Proc.devRef .tc main_arg2) = (m ((c : Thread nD τ).loc main_arg2)) :=
  calc W1 m ρ c (Proc.devRef .tc main_arg2)
    _ = W0 m ρ c (Proc.devRef .tc main_arg2) := W1_keep m ρ c main_arg2 (by decide)
    _ = (m ((c : Thread nD τ).loc main_arg2)) := rfl
theorem W2_arg3 (c : Dev nD) : W2 m ρ c (Proc.devRef .tc main_arg3) = (m ((c : Thread nD τ).loc main_arg3)) :=
  calc W2 m ρ c (Proc.devRef .tc main_arg3)
    _ = W1 m ρ c (Proc.devRef .tc main_arg3) := W2_of_ne m ρ c main_arg3 (by decide)
    _ = W0 m ρ c (Proc.devRef .tc main_arg3) := W1_keep m ρ c main_arg3 (by decide)
    _ = (m ((c : Thread nD τ).loc main_arg3)) := rfl
theorem W4_arg4 (c : Dev nD) : W4 m ρ c (Proc.devRef .tc main_arg4) = (m ((c : Thread nD τ).loc main_arg4)) :=
  calc W4 m ρ c (Proc.devRef .tc main_arg4)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = (m ((c : Thread nD τ).loc main_arg4)) := rfl
theorem W4_arg5 (c : Dev nD) : W4 m ρ c (Proc.devRef .tc main_arg5) = (m ((c : Thread nD τ).loc main_arg5)) :=
  calc W4 m ρ c (Proc.devRef .tc main_arg5)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = (m ((c : Thread nD τ).loc main_arg5)) := rfl
theorem W7_arg6 (c : Dev nD) : W7 m ρ c (Proc.devRef .tc main_arg6) = (m ((c : Thread nD τ).loc main_arg6)) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = (m ((c : Thread nD τ).loc main_arg6)) := rfl
theorem W8_arg7 (c : Dev nD) : W8 m ρ c (Proc.devRef .tc main_arg7) = (m ((c : Thread nD τ).loc main_arg7)) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = (m ((c : Thread nD τ).loc main_arg7)) := rfl
theorem W0_arg1 (c : Dev nD) : W0 m ρ c (Proc.devRef .tc main_arg1) = (m ((c : Thread nD τ).loc main_arg1)) :=
  calc W0 m ρ c (Proc.devRef .tc main_arg1)
    _ = (m ((c : Thread nD τ).loc main_arg1)) := rfl

/-! ## The edge-derived arrays (row and column indices, the edge coefficient, the self scale) are written once, by the
    first host stretch, and reach both later host stretches unchanged -/

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem W8_v1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := W5_keep m ρ c main_v1 (by decide)
    _ = W3 m ρ c (Proc.devRef .tc main_v1) := W4_of_ne m ρ c main_v1 (by decide)
    _ = W2 m ρ c (Proc.devRef .tc main_v1) := W3_keep m ρ c main_v1 (by decide)
    _ = W1 m ρ c (Proc.devRef .tc main_v1) := W2_of_ne m ρ c main_v1 (by decide)
theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem W8_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := W5_keep m ρ c main_v3 (by decide)
    _ = W3 m ρ c (Proc.devRef .tc main_v3) := W4_of_ne m ρ c main_v3 (by decide)
    _ = W2 m ρ c (Proc.devRef .tc main_v3) := W3_keep m ρ c main_v3 (by decide)
    _ = W1 m ρ c (Proc.devRef .tc main_v3) := W2_of_ne m ρ c main_v3 (by decide)
theorem W2_v25 (c : Dev nD) : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)
theorem W8_v25 (c : Dev nD) : W8 m ρ c (Proc.devRef .tc main_v25) = W1 m ρ c (Proc.devRef .tc main_v25) :=
  calc W8 m ρ c (Proc.devRef .tc main_v25)
    _ = W7 m ρ c (Proc.devRef .tc main_v25) := W8_of_ne m ρ c main_v25 (by decide)
    _ = W6 m ρ c (Proc.devRef .tc main_v25) := W7_of_ne m ρ c main_v25 (by decide)
    _ = W5 m ρ c (Proc.devRef .tc main_v25) := W6_of_ne m ρ c main_v25 (by decide)
    _ = W4 m ρ c (Proc.devRef .tc main_v25) := W5_keep m ρ c main_v25 (by decide)
    _ = W3 m ρ c (Proc.devRef .tc main_v25) := W4_of_ne m ρ c main_v25 (by decide)
    _ = W2 m ρ c (Proc.devRef .tc main_v25) := W3_keep m ρ c main_v25 (by decide)
    _ = W1 m ρ c (Proc.devRef .tc main_v25) := W2_of_ne m ρ c main_v25 (by decide)
theorem W2_v26 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)
theorem W8_v26 (c : Dev nD) : W8 m ρ c (Proc.devRef .tc main_v26) = W1 m ρ c (Proc.devRef .tc main_v26) :=
  calc W8 m ρ c (Proc.devRef .tc main_v26)
    _ = W7 m ρ c (Proc.devRef .tc main_v26) := W8_of_ne m ρ c main_v26 (by decide)
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := W5_keep m ρ c main_v26 (by decide)
    _ = W3 m ρ c (Proc.devRef .tc main_v26) := W4_of_ne m ρ c main_v26 (by decide)
    _ = W2 m ρ c (Proc.devRef .tc main_v26) := W3_keep m ρ c main_v26 (by decide)
    _ = W1 m ρ c (Proc.devRef .tc main_v26) := W2_of_ne m ρ c main_v26 (by decide)

/-! ## The first layer's output and the scale / shift rows between the regions that read them -/

theorem W5_v45 (c : Dev nD) : W5 m ρ c (Proc.devRef .tc main_v45) = W4 m ρ c (Proc.devRef .tc main_v45) :=
  calc W5 m ρ c (Proc.devRef .tc main_v45)
    _ = W4 m ρ c (Proc.devRef .tc main_v45) := W5_keep m ρ c main_v45 (by decide)
theorem W6_v45 (c : Dev nD) : W6 m ρ c (Proc.devRef .tc main_v45) = W4 m ρ c (Proc.devRef .tc main_v45) :=
  calc W6 m ρ c (Proc.devRef .tc main_v45)
    _ = W5 m ρ c (Proc.devRef .tc main_v45) := (W6_arr m ρ c 0).trans (((dat2 (V5 m ρ) c).arrAt_in 0 rfl _).trans (A_eq2 (V5 m ρ) c 0))
    _ = W4 m ρ c (Proc.devRef .tc main_v45) := W5_keep m ρ c main_v45 (by decide)
theorem W6_v46 (c : Dev nD) : W6 m ρ c (Proc.devRef .tc main_v46) = W5 m ρ c (Proc.devRef .tc main_v46) :=
  calc W6 m ρ c (Proc.devRef .tc main_v46)
    _ = W5 m ρ c (Proc.devRef .tc main_v46) := W6_of_ne m ρ c main_v46 (by decide)
theorem W6_v47 (c : Dev nD) : W6 m ρ c (Proc.devRef .tc main_v47) = W5 m ρ c (Proc.devRef .tc main_v47) :=
  calc W6 m ρ c (Proc.devRef .tc main_v47)
    _ = W5 m ρ c (Proc.devRef .tc main_v47) := W6_of_ne m ρ c main_v47 (by decide)

/-! ## Each region's output array at the region's exit: the specification's function of what the region's inputs held at
    its entry -/

theorem W2_v27 (c : Dev nD) : W2 m ρ c (Proc.devRef .tc main_v27) = Cert.Spec.Gmm64 (W1 m ρ c (Proc.devRef .tc main_arg0)) (W1 m ρ c (Proc.devRef .tc main_arg2)) :=
  (W2_arr m ρ c 2).trans (final0 (V1 m ρ) c)
theorem W4_v45 (c : Dev nD) : W4 m ρ c (Proc.devRef .tc main_v45) = Cert.Spec.Gcomb (W3 m ρ c (Proc.devRef .tc main_v40)) (W3 m ρ c (Proc.devRef .tc main_v43)) (W3 m ρ c (Proc.devRef .tc main_v44)) :=
  (W4_arr m ρ c 3).trans (final1 (V3 m ρ) c)
theorem W6_v48_0 (c : Dev nD) : W6 m ρ c (Proc.devRef .tc main_v48_0) = Cert.Spec.Gmean (W5 m ρ c (Proc.devRef .tc main_v45)) :=
  (W6_arr m ρ c 1).trans (final2_mean (V5 m ρ) c)
theorem W6_v48_1 (c : Dev nD) : W6 m ρ c (Proc.devRef .tc main_v48_1) = Cert.Spec.Gvar (W5 m ρ c (Proc.devRef .tc main_v45)) :=
  (W6_arr m ρ c 2).trans (final2_var (V5 m ρ) c)
theorem W7_v49 (c : Dev nD) : W7 m ρ c (Proc.devRef .tc main_v49) = Cert.Spec.Gnorm (W6 m ρ c (Proc.devRef .tc main_v45)) (W6 m ρ c (Proc.devRef .tc main_v48_0)) (W6 m ρ c (Proc.devRef .tc main_v48_1)) (W6 m ρ c (Proc.devRef .tc main_v46)) (W6 m ρ c (Proc.devRef .tc main_v47)) :=
  (W7_arr m ρ c 5).trans (final3 (V6 m ρ) c)
theorem W8_v50 (c : Dev nD) : W8 m ρ c (Proc.devRef .tc main_v50) = Cert.Spec.Gmm128 (W7 m ρ c (Proc.devRef .tc main_v49)) (W7 m ρ c (Proc.devRef .tc main_arg6)) :=
  (W8_arr m ρ c 2).trans (final4 (V7 m ρ) c)
theorem W10_v68 (c : Dev nD) : W10 m ρ c (Proc.devRef .tc main_v68) = Cert.Spec.Gcomb (W9 m ρ c (Proc.devRef .tc main_v63)) (W9 m ρ c (Proc.devRef .tc main_v66)) (W9 m ρ c (Proc.devRef .tc main_v67)) :=
  (W10_result m ρ c).trans (final5 (V9 m ρ) c)

/-! ## The pieces of the host text: the edge list's two rows, the degree normaliser, the wrapped index, the edge
    coefficient and the self scale; and the two convolution parts as functions of those pieces -/

/-- The edges' sources: row 0 of the edge list as a vector. -/
def eRow (a1 : (⟨S2x1600000, .i32⟩ : BufTy).Contents (Elt Ideal)) : (⟨S1600000, .i32⟩ : BufTy).Contents (Elt Ideal) :=
  shapeCast _ (extractStridedSlice S1x1600000 ![0, 0] a1 slices_S2x1600000_S1x1600000_0_0) shapeCasts_S1x1600000_S1600000
/-- The edges' destinations: row 1 of the edge list as a vector. -/
def eCol (a1 : (⟨S2x1600000, .i32⟩ : BufTy).Contents (Elt Ideal)) : (⟨S1600000, .i32⟩ : BufTy).Contents (Elt Ideal) :=
  shapeCast _ (extractStridedSlice S1x1600000 ![1, 0] a1 slices_S2x1600000_S1x1600000_1_0) shapeCasts_S1x1600000_S1600000
/-- A node index with a negative one counted from the end. -/
def eWrap (x : (⟨S1600000, .i32⟩ : BufTy).Contents (Elt Ideal)) : (⟨S1600000, .i32⟩ : BufTy).Contents (Elt Ideal) :=
  select (cmpi .slt x (broadcastInDim S1600000 ![] bcast_S_S1600000 (constantI S_ 32 0#32))) (addi x (broadcastInDim S1600000 ![] bcast_S_S1600000 (constantI S_ 32 100000#32))) x
/-- (deg + 1)^(-1/2), deg the number of edges into a node. -/
def eDis (a1 : (⟨S2x1600000, .i32⟩ : BufTy).Contents (Elt Ideal)) : FVec Ideal S100000 .f32 :=
  Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (eCol a1)) (broadcastInDim S1600000 ![] bcast_S_S1600000 (constant (F := Ideal) S_ .f32 0x3F800000#32))) (broadcastInDim S100000 ![] bcast_S_S100000 (constant (F := Ideal) S_ .f32 0x3F800000#32)))
/-- The edge coefficient dis[src] · dis[dst]. -/
def eCoef (a1 : (⟨S2x1600000, .i32⟩ : BufTy).Contents (Elt Ideal)) : FVec Ideal S1600000 .f32 :=
  mulf (Host.gather gather_S100000_S1600000x1_S1600000_n_0_n_n_0_1_1 (eDis a1) (broadcastInDim S1600000x1 ![0] bcast_S1600000_S1600000x1_0 (eWrap (eRow a1)))) (Host.gather gather_S100000_S1600000x1_S1600000_n_0_n_n_0_1_1 (eDis a1) (broadcastInDim S1600000x1 ![0] bcast_S1600000_S1600000x1_0 (eWrap (eCol a1))))
/-- The self scale dis². -/
def eScale (a1 : (⟨S2x1600000, .i32⟩ : BufTy).Contents (Elt Ideal)) : FVec Ideal S100000 .f32 := mulf (eDis a1) (eDis a1)
/-- The neighbourhood sum from sources `v1`, destinations `v3` and edge coefficients `v25`. -/
def aggOf (v1 v3 : (⟨S1600000, .i32⟩ : BufTy).Contents (Elt Ideal)) (v25 : FVec Ideal S1600000 .f32) (h : FVec Ideal S100000x128 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 v3) (mulf (Host.gather gather_S100000x128_S1600000x1_S1600000x128_1_0_n_n_0_1_1128 h (broadcastInDim S1600000x1 ![0] bcast_S1600000_S1600000x1_0 (eWrap v1))) (broadcastInDim S1600000x128 ![0, 1] bcast_S1600000x1_S1600000x128_0_1 (broadcastInDim S1600000x1 ![0] bcast_S1600000_S1600000x1_0 v25)))
/-- The self-loop term from the self scale `v26`. -/
def selfOf (v26 : FVec Ideal S100000 .f32) (h : FVec Ideal S100000x128 .f32) : FVec Ideal S100000x128 .f32 :=
  mulf h (broadcastInDim S100000x128 ![0, 1] bcast_S100000x1_S100000x128_0_1 (broadcastInDim S100000x1 ![0] bcast_S100000_S100000x1_0 v26))

/-- The neighbourhood sum of the specification is `aggOf` of the edge list's pieces. -/
theorem kAgg_split (a1 : (⟨S2x1600000, .i32⟩ : BufTy).Contents (Elt Ideal)) (h : FVec Ideal S100000x128 .f32) : kAgg a1 h = aggOf (eRow a1) (eCol a1) (eCoef a1) h := by
  unfold kAgg aggOf eCoef eDis eWrap eRow eCol; rfl
/-- The self-loop term of the specification is `selfOf` of the self scale. -/
theorem kSelf_split (a1 : (⟨S2x1600000, .i32⟩ : BufTy).Contents (Elt Ideal)) (h : FVec Ideal S100000x128 .f32) : kSelf a1 h = selfOf (eScale a1) h := by
  unfold kSelf selfOf eScale eDis eCol; rfl

/-! ## What each host stretch leaves in the buffers it writes, from any contents `W` -/

theorem host0_v1 (W : Valuation τ sig (Elt Ideal)) :
    StableHlo.after (hostOps0 (F := Ideal)) W (Proc.devRef .tc main_v1) = eRow (W (Proc.devRef .tc main_arg1)) := by
  after_results
  unfold eRow; rfl
theorem host0_v3 (W : Valuation τ sig (Elt Ideal)) :
    StableHlo.after (hostOps0 (F := Ideal)) W (Proc.devRef .tc main_v3) = eCol (W (Proc.devRef .tc main_arg1)) := by
  after_results
  unfold eCol; rfl
set_option maxHeartbeats 2000000 in
theorem host0_v25 (W : Valuation τ sig (Elt Ideal)) :
    StableHlo.after (hostOps0 (F := Ideal)) W (Proc.devRef .tc main_v25) = eCoef (W (Proc.devRef .tc main_arg1)) := by
  after_results_simp
  unfold eCoef eDis eWrap eRow eCol; rfl
theorem host0_v26 (W : Valuation τ sig (Elt Ideal)) :
    StableHlo.after (hostOps0 (F := Ideal)) W (Proc.devRef .tc main_v26) = eScale (W (Proc.devRef .tc main_arg1)) := by
  after_results
  unfold eScale eDis eCol; rfl
set_option maxHeartbeats 2000000 in
theorem host1_v40 (W : Valuation τ sig (Elt Ideal)) :
    StableHlo.after (hostOps1 (F := Ideal)) W (Proc.devRef .tc main_v40) = aggOf (W (Proc.devRef .tc main_v1)) (W (Proc.devRef .tc main_v3)) (W (Proc.devRef .tc main_v25)) (W (Proc.devRef .tc main_v27)) := by
  after_results_simp
  unfold aggOf eWrap; rfl
theorem host1_v43 (W : Valuation τ sig (Elt Ideal)) :
    StableHlo.after (hostOps1 (F := Ideal)) W (Proc.devRef .tc main_v43) = selfOf (W (Proc.devRef .tc main_v26)) (W (Proc.devRef .tc main_v27)) := by
  after_results
  unfold selfOf; rfl
theorem host1_v44 (W : Valuation τ sig (Elt Ideal)) :
    StableHlo.after (hostOps1 (F := Ideal)) W (Proc.devRef .tc main_v44) = kRow (W (Proc.devRef .tc main_arg3)) := by
  after_results
  unfold kRow; rfl
theorem host2_v46 (W : Valuation τ sig (Elt Ideal)) :
    StableHlo.after (hostOps2 (F := Ideal)) W (Proc.devRef .tc main_v46) = kRow (W (Proc.devRef .tc main_arg4)) := by
  after_results
  unfold kRow; rfl
theorem host2_v47 (W : Valuation τ sig (Elt Ideal)) :
    StableHlo.after (hostOps2 (F := Ideal)) W (Proc.devRef .tc main_v47) = kRow (W (Proc.devRef .tc main_arg5)) := by
  after_results
  unfold kRow; rfl
set_option maxHeartbeats 2000000 in
theorem host5_v63 (W : Valuation τ sig (Elt Ideal)) :
    StableHlo.after (hostOps5 (F := Ideal)) W (Proc.devRef .tc main_v63) = aggOf (W (Proc.devRef .tc main_v1)) (W (Proc.devRef .tc main_v3)) (W (Proc.devRef .tc main_v25)) (W (Proc.devRef .tc main_v50)) := by
  after_results_simp
  unfold aggOf eWrap; rfl
theorem host5_v66 (W : Valuation τ sig (Elt Ideal)) :
    StableHlo.after (hostOps5 (F := Ideal)) W (Proc.devRef .tc main_v66) = selfOf (W (Proc.devRef .tc main_v26)) (W (Proc.devRef .tc main_v50)) := by
  after_results
  unfold selfOf; rfl
theorem host5_v67 (W : Valuation τ sig (Elt Ideal)) :
    StableHlo.after (hostOps5 (F := Ideal)) W (Proc.devRef .tc main_v67) = kRow (W (Proc.devRef .tc main_arg7)) := by
  after_results
  unfold kRow; rfl

/-! ## The edge list's pieces along the fold -/

theorem W1_v1_val (c : Dev nD) : W1 m ρ c (Proc.devRef .tc main_v1) = eRow (m ((c : Thread nD τ).loc main_arg1)) :=
  (host0_v1 (W0 m ρ c)).trans (congrArg eRow (W0_arg1 m ρ c))
theorem W2_v1_val (c : Dev nD) : W2 m ρ c (Proc.devRef .tc main_v1) = eRow (m ((c : Thread nD τ).loc main_arg1)) :=
  (W2_v1 m ρ c).trans (W1_v1_val m ρ c)
theorem W8_v1_val (c : Dev nD) : W8 m ρ c (Proc.devRef .tc main_v1) = eRow (m ((c : Thread nD τ).loc main_arg1)) :=
  (W8_v1 m ρ c).trans (W1_v1_val m ρ c)
theorem W1_v3_val (c : Dev nD) : W1 m ρ c (Proc.devRef .tc main_v3) = eCol (m ((c : Thread nD τ).loc main_arg1)) :=
  (host0_v3 (W0 m ρ c)).trans (congrArg eCol (W0_arg1 m ρ c))
theorem W2_v3_val (c : Dev nD) : W2 m ρ c (Proc.devRef .tc main_v3) = eCol (m ((c : Thread nD τ).loc main_arg1)) :=
  (W2_v3 m ρ c).trans (W1_v3_val m ρ c)
theorem W8_v3_val (c : Dev nD) : W8 m ρ c (Proc.devRef .tc main_v3) = eCol (m ((c : Thread nD τ).loc main_arg1)) :=
  (W8_v3 m ρ c).trans (W1_v3_val m ρ c)
theorem W1_v25_val (c : Dev nD) : W1 m ρ c (Proc.devRef .tc main_v25) = eCoef (m ((c : Thread nD τ).loc main_arg1)) :=
  (host0_v25 (W0 m ρ c)).trans (congrArg eCoef (W0_arg1 m ρ c))
theorem W2_v25_val (c : Dev nD) : W2 m ρ c (Proc.devRef .tc main_v25) = eCoef (m ((c : Thread nD τ).loc main_arg1)) :=
  (W2_v25 m ρ c).trans (W1_v25_val m ρ c)
theorem W8_v25_val (c : Dev nD) : W8 m ρ c (Proc.devRef .tc main_v25) = eCoef (m ((c : Thread nD τ).loc main_arg1)) :=
  (W8_v25 m ρ c).trans (W1_v25_val m ρ c)
theorem W1_v26_val (c : Dev nD) : W1 m ρ c (Proc.devRef .tc main_v26) = eScale (m ((c : Thread nD τ).loc main_arg1)) :=
  (host0_v26 (W0 m ρ c)).trans (congrArg eScale (W0_arg1 m ρ c))
theorem W2_v26_val (c : Dev nD) : W2 m ρ c (Proc.devRef .tc main_v26) = eScale (m ((c : Thread nD τ).loc main_arg1)) :=
  (W2_v26 m ρ c).trans (W1_v26_val m ρ c)
theorem W8_v26_val (c : Dev nD) : W8 m ρ c (Proc.devRef .tc main_v26) = eScale (m ((c : Thread nD τ).loc main_arg1)) :=
  (W8_v26 m ρ c).trans (W1_v26_val m ρ c)

/-! ## What the later host stretches leave in the buffers the regions read -/

theorem W3_v40 (c : Dev nD) : W3 m ρ c (Proc.devRef .tc main_v40) = kAgg (m ((c : Thread nD τ).loc main_arg1)) (W2 m ρ c (Proc.devRef .tc main_v27)) := by
  rw [kAgg_split]
  refine (host1_v40 (W2 m ρ c)).trans ?_
  rw [W2_v1_val m ρ c, W2_v3_val m ρ c, W2_v25_val m ρ c]
theorem W3_v43 (c : Dev nD) : W3 m ρ c (Proc.devRef .tc main_v43) = kSelf (m ((c : Thread nD τ).loc main_arg1)) (W2 m ρ c (Proc.devRef .tc main_v27)) := by
  rw [kSelf_split]
  refine (host1_v43 (W2 m ρ c)).trans ?_
  rw [W2_v26_val m ρ c]
theorem W3_v44 (c : Dev nD) : W3 m ρ c (Proc.devRef .tc main_v44) = kRow (m ((c : Thread nD τ).loc main_arg3)) :=
  (host1_v44 (W2 m ρ c)).trans (congrArg kRow (W2_arg3 m ρ c))
theorem W5_v46 (c : Dev nD) : W5 m ρ c (Proc.devRef .tc main_v46) = kRow (m ((c : Thread nD τ).loc main_arg4)) :=
  (host2_v46 (W4 m ρ c)).trans (congrArg kRow (W4_arg4 m ρ c))
theorem W5_v47 (c : Dev nD) : W5 m ρ c (Proc.devRef .tc main_v47) = kRow (m ((c : Thread nD τ).loc main_arg5)) :=
  (host2_v47 (W4 m ρ c)).trans (congrArg kRow (W4_arg5 m ρ c))
theorem W9_v63 (c : Dev nD) : W9 m ρ c (Proc.devRef .tc main_v63) = kAgg (m ((c : Thread nD τ).loc main_arg1)) (W8 m ρ c (Proc.devRef .tc main_v50)) := by
  rw [kAgg_split]
  refine (host5_v63 (W8 m ρ c)).trans ?_
  rw [W8_v1_val m ρ c, W8_v3_val m ρ c, W8_v25_val m ρ c]
theorem W9_v66 (c : Dev nD) : W9 m ρ c (Proc.devRef .tc main_v66) = kSelf (m ((c : Thread nD τ).loc main_arg1)) (W8 m ρ c (Proc.devRef .tc main_v50)) := by
  rw [kSelf_split]
  refine (host5_v66 (W8 m ρ c)).trans ?_
  rw [W8_v26_val m ρ c]
theorem W9_v67 (c : Dev nD) : W9 m ρ c (Proc.devRef .tc main_v67) = kRow (m ((c : Thread nD τ).loc main_arg7)) :=
  (host5_v67 (W8 m ρ c)).trans (congrArg kRow (W8_arg7 m ρ c))

/-! ## The result -/

/-- The last region's output array, read through the fold: the specification's function of the eight argument arrays as
    launched. Each rewrite below is one link of the fold, from the last boundary back to the first. -/
theorem result_eq (c : Dev nD) : W10 m ρ c (Proc.devRef .tc main_v68)
    = kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W10_v68 m ρ c, W9_v63 m ρ c, W9_v66 m ρ c, W9_v67 m ρ c, W8_v50 m ρ c, W7_arg6 m ρ c, W7_v49 m ρ c, W6_v48_0 m ρ c, W6_v48_1 m ρ c, W6_v45 m ρ c, W5_v45 m ρ c, W6_v46 m ρ c, W6_v47 m ρ c, W5_v46 m ρ c, W5_v47 m ρ c, W4_v45 m ρ c, W3_v40 m ρ c, W3_v43 m ρ c, W3_v44 m ρ c, W2_v27 m ρ c, W1_arg0 m ρ c, W1_arg2 m ρ c]
  unfold kernelResult
  rfl

end Cert.KernelIdeal.HandValue

end
-- ==== Proof.Finite.lean ====
/- FINITENESS of the batch normalisation's input. The two forms of the variance agree over the reals; over the extended
   reals they agree at entries that are real. So this module shows that every entry of the first graph convolution's
   output is (the coercion of) a real number, given that the inputs are.

   * The precondition compares |x| with +∞ entry by entry and takes the conjunction over every array: so every entry
     of every float argument is a real (`real_of_pre`).
   * Being real is kept by sums, differences, products and finite sums; so by a matrix product of real arrays, by a
     gather (which reads SOME entry of its operand), by a broadcast (likewise), and by an accumulating scatter (the
     operand's entry plus the finite sum of the updates that land on it).
   * A node's degree is zero plus a finite sum of ones plus one: a real ≥ 1. Its reciprocal square root is therefore
     a real; so are the edge coefficients (products of two gathered reciprocal square roots) and the self-loop
     coefficients (its square).
   * The convolution's output is the scattered sum of real rows times real coefficients, plus real rows times real
     self coefficients, plus a real bias (`h1_real`). -/
import proofs.«130829_j5128190951936_1_alg».proof.Proof.RefValue
import Idealize.ShloMosaic.Lib.ReduceAll
import Idealize.ShloMosaic.Lib.IdealHost

noncomputable section

open scoped BigOperators

namespace Cert.Finite

open Idealize.ShloMosaic Idealize.ShloMosaic.ValueIdx

/-! ## Being a real -/

/-- An extended real that is the coercion of a real. -/
abbrev IsReal (x : EReal) : Prop := ∃ r : ℝ, x = (r : EReal)
/-- A family of extended reals every member of which is real. -/
abbrev Reals {ι : Type} (f : ι → EReal) : Prop := ∀ i, IsReal (f i)
/-- An extended real that is the coercion of a real that is not negative. -/
abbrev IsNonneg (x : EReal) : Prop := ∃ r : ℝ, 0 ≤ r ∧ x = (r : EReal)

theorem isReal_zero : IsReal 0 := ⟨0, EReal.coe_zero.symm⟩
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
/-- A finite sum of reals is a real. -/
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isNonneg_add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
/-- A finite sum of nonnegative reals is a nonnegative real. -/
theorem isNonneg_sum {ι : Type} (s : Finset ι) (f : ι → EReal) (h : ∀ i ∈ s, IsNonneg (f i)) : IsNonneg (∑ i ∈ s, f i) := by
  classical
  induction s using Finset.induction_on with
  | empty => exact ⟨0, le_refl 0, by simp⟩
  | insert a s ha ih =>
    rw [Finset.sum_insert ha]
    exact isNonneg_add (h a (Finset.mem_insert_self a s)) (ih fun i hi => h i (Finset.mem_insert_of_mem hi))

/-- The reciprocal square root of a positive real is a real. -/
theorem isReal_rsqrt {x : EReal} (hx : ∃ r : ℝ, 0 < r ∧ x = (r : EReal)) : IsReal (Ideal.rsqrt x) := by
  obtain ⟨r, hr, rfl⟩ := hx
  refine ⟨(Real.sqrt r)⁻¹, ?_⟩
  rw [Ideal.rsqrt_coe, if_neg (not_lt.mpr hr.le), if_neg hr.ne']

/-! ## The operations that keep a family real -/

/-- A gather of a real family is real: it reads some entry of its operand. -/
theorem gather_reals {s si t : Shape} {w : Nat} (d : GatherDims s si t) (x : s.Idx → EReal) (idx : IVec si w) (hx : Reals x) :
    Reals (Host.gather d x idx) := fun j => hx _
/-- A broadcast of a real family is real: it reads some entry of its operand. -/
theorem broadcastInDim_reals {s t : Shape} (dims : Fin s.rank → Fin t.rank) (h : s.BroadcastsInDim t dims) (x : s.Idx → EReal)
    (hx : Reals x) : Reals (broadcastInDim t dims h x) := fun j => hx _
/-- An entrywise product of real families is real. -/
theorem mulf_reals {s : Shape} {φ : FTy} (a b : FVec Ideal s φ) (ha : Reals a) (hb : Reals b) : Reals (mulf a b) :=
  fun i => isReal_mul (ha i) (hb i)
/-- An accumulating scatter of real updates into a real operand is real: each entry is the operand's plus the finite
    sum of the updates that land on it. -/
theorem scatterAdd_reals {s si u : Shape} {w : Nat} {φ : FTy} (d : ScatterDims s si u) (x : FVec Ideal s φ) (idx : IVec si w)
    (upd : FVec Ideal u φ) (hx : Reals x) (hu : Reals upd) : Reals (Host.scatterAdd d x idx upd) := fun i =>
  isReal_add (hx i) (isReal_sum _ _ fun j _ => hu j)
/-- A matrix product of real arrays is real: each entry is a finite sum of products. -/
theorem mm64_reals (x : (⟨2, ![100000, 64]⟩ : Shape).Idx → EReal) (w : (⟨2, ![64, 128]⟩ : Shape).Idx → EReal) (hx : Reals x) (hw : Reals w) :
    Reals (Cert.Spec.Gmm64 x w) := fun i => isReal_sum _ _ fun k _ => isReal_mul (hx _) (hw _)
theorem mm128_reals (x : (⟨2, ![100000, 128]⟩ : Shape).Idx → EReal) (w : (⟨2, ![128, 128]⟩ : Shape).Idx → EReal) (hx : Reals x) (hw : Reals w) :
    Reals (Cert.Spec.Gmm128 x w) := fun i => isReal_sum _ _ fun k _ => isReal_mul (hx _) (hw _)
/-- The sum of two real arrays and a real row vector is real. -/
theorem comb_reals (a hs : (⟨2, ![100000, 128]⟩ : Shape).Idx → EReal) (b : (⟨2, ![1, 128]⟩ : Shape).Idx → EReal)
    (ha : Reals a) (hh : Reals hs) (hb : Reals b) : Reals (Cert.Spec.Gcomb a hs b) :=
  fun i => isReal_add (isReal_add (ha i) (hh i)) (hb _)

/-! ## The precondition: every entry of every float argument is a real -/

/-- The single-precision word of +∞ is the top of the extended reals. -/
theorem top_word : Ideal.ofBits .f32 0x7F800000#32 = ⊤ := by simp [Ideal.ofBits, Ideal.ieee]

/-- An extended real whose absolute value is below +∞ is a real. -/
theorem isReal_of_abs_lt_top (x : EReal) (h : Ideal.cmp .olt (max x (-x)) (Ideal.ofBits .f32 0x7F800000#32) = 1#1) : IsReal x := by
  rw [top_word] at h
  induction x using EReal.rec with
  | bot => exact absurd h (by simp [Ideal.cmp])
  | coe r => exact ⟨r, rfl⟩
  | top => exact absurd h (by simp [Ideal.cmp])

instance : Subsingleton Cert.Pre_finite_inputs.S_.Idx := ⟨fun a b => funext fun d => d.elim0⟩

/-- The conjunction over an array of "|entry| < +∞" being true says every entry is a real. -/
theorem reals_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel) (j : Cert.Pre_finite_inputs.S_.Idx)
    (e : Host.reduce IntOp.andi (cmpf .olt (Host.absf x) (broadcastInDim s ![] hb (constant Cert.Pre_finite_inputs.S_ .f32 0x7F800000#32)))
      (constantI Cert.Pre_finite_inputs.S_ 1 1#1) hr hu j = 1#1) : Reals x := by
  intro i
  have hi := Host.reduce_andi_all _ _ hr hu j e i
  exact isReal_of_abs_lt_top (x i) hi

/-- From the precondition — the conjunction is all ones — every float argument's every entry is a real. -/
theorem real_of_pre [Cert.Pre_finite_inputs.Facts] (x0 : FVec Ideal Cert.Pre_finite_inputs.S100000x64 .f32)
    (x1 : IVec Cert.Pre_finite_inputs.S2x1600000 32) (x2 : FVec Ideal Cert.Pre_finite_inputs.S64x128 .f32)
    (x3 x4 x5 : FVec Ideal Cert.Pre_finite_inputs.S128 .f32) (x6 : FVec Ideal Cert.Pre_finite_inputs.S128x128 .f32)
    (x7 : FVec Ideal Cert.Pre_finite_inputs.S128 .f32)
    (h : Cert.Pre_finite_inputs.fn (F := Ideal) x0 x1 x2 x3 x4 x5 x6 x7 = fun _ => 1#1) :
    Reals x0 ∧ Reals x2 ∧ Reals x3 ∧ Reals x4 ∧ Reals x5 ∧ Reals x6 ∧ Reals x7 := by
  have h1 := congrFun h ix0
  dsimp only [Cert.Pre_finite_inputs.fn, Cert.Pre_finite_inputs.fn_part1] at h1
  obtain ⟨h28, h32⟩ := IntOp.andi_eq_one.1 h1
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨reals_of_all x0 _ _ _ _ h3, reals_of_all x2 _ _ _ _ h7, reals_of_all x3 _ _ _ _ h12, reals_of_all x4 _ _ _ _ h17,
    reals_of_all x5 _ _ _ _ h22, reals_of_all x6 _ _ _ _ h27, reals_of_all x7 _ _ _ _ h32⟩

/-- An accumulating scatter of nonnegative reals into nonnegative reals is a nonnegative real at every entry. -/
theorem scatterAdd_nonneg {s si u : Shape} {w : Nat} {φ : FTy} (d : ScatterDims s si u) (x : FVec Ideal s φ) (idx : IVec si w)
    (upd : FVec Ideal u φ) (hx : ∀ i, IsNonneg (x i)) (hu : ∀ j, IsNonneg (upd j)) (i : s.Idx) :
    IsNonneg (Host.scatterAdd d x idx upd i) :=
  isNonneg_add (hx i) (isNonneg_sum _ _ fun j _ => hu j)

/-! ## The reference's degree, its reciprocal square root, and the coefficients made of it -/

section Reference

open Cert.ReferenceIdeal Cert.ReferenceIdeal.Gen Cert.ReferenceIdeal.Read Cert.ReferenceIdeal.RefValue

variable (x1 : (⟨S2x1600000, .i32⟩ : BufTy).Contents (Elt Ideal))

/-- The update of the degree count: a one per edge. -/
theorem ones_edge (i : S1600000.Idx) : val_main_v5 (F := Ideal) i = 1 := by
  rw [val_main_v5_apply, val_main_cst_apply]; exact Ideal.ofBits_one_f32
/-- The degree count starts from zero at every node. -/
theorem zeros_node (i : S100000.Idx) : val_main_v6 (F := Ideal) i = 0 := by
  rw [val_main_v6_apply, val_main_cst_0_apply]; exact Ideal.ofBits_zero_f32
/-- The self loop: a one per node. -/
theorem ones_node (i : S100000.Idx) : val_main_v9 (F := Ideal) i = 1 := by
  rw [val_main_v9_apply, val_main_cst_1_apply]; exact Ideal.ofBits_one_f32
/-- The neighbourhood sum starts from zero at every entry. -/
theorem zeros_rows (i : S100000x128.Idx) : val_main_v37 (F := Ideal) i = 0 := by
  rw [val_main_v37_apply, val_main_cst_7_apply]; exact Ideal.ofBits_zero_f32

/-- A node's degree — zero plus a one for each edge arriving at it, plus one — is a positive real. -/
theorem deg_pos (i : S100000.Idx) : ∃ r : ℝ, 0 < r ∧ val_main_v10 (F := Ideal) x1 i = (r : EReal) := by
  have hsum : IsNonneg (val_main_v8 (F := Ideal) x1 i) := by
    unfold val_main_v8
    exact scatterAdd_nonneg _ _ _ _ (fun i => ⟨0, le_refl 0, by rw [zeros_node]; exact EReal.coe_zero.symm⟩)
      (fun j => ⟨1, zero_le_one, by rw [ones_edge]; exact EReal.coe_one.symm⟩) i
  obtain ⟨s, hs0, hs⟩ := hsum
  refine ⟨s + 1, by linarith, ?_⟩
  rw [val_main_v10_apply, hs, ones_node]
  show (s : EReal) + 1 = _
  rw [← EReal.coe_one, ← EReal.coe_add]

/-- The reciprocal square root of the degree is a real at every node. -/
theorem dis_reals : Reals (val_main_v11 (F := Ideal) x1) := fun i => by
  obtain ⟨r, hr, e⟩ := deg_pos x1 i
  rw [val_main_v11_apply, e, Ideal.hostUnary_rsqrt_def]
  exact isReal_rsqrt ⟨r, hr, rfl⟩

/-- The edge coefficients — the product of the two ends' reciprocal square roots, broadcast along the columns —
    are real. -/
theorem coef_reals : Reals (val_main_v35 (F := Ideal) x1) := by
  unfold val_main_v35 val_main_v34 val_main_v26 val_main_v18 val_main_v25
  exact broadcastInDim_reals _ _ _ (broadcastInDim_reals _ _ _
    (mulf_reals _ _ (gather_reals _ _ _ (dis_reals x1)) (gather_reals _ _ _ (dis_reals x1))))

/-- The self-loop coefficients — the square of the reciprocal square root, broadcast along the columns — are real. -/
theorem self_reals : Reals (val_main_v42 (F := Ideal) x1) := by
  unfold val_main_v42 val_main_v41 val_main_v40
  exact broadcastInDim_reals _ _ _ (broadcastInDim_reals _ _ _ (mulf_reals _ _ (dis_reals x1) (dis_reals x1)))

/-- The neighbourhood sum of a real array is real. -/
theorem aggregate_reals (h : FVec Ideal S100000x128 .f32) (hh : Reals h) : Reals (aggregate x1 h) := by
  unfold aggregate
  exact scatterAdd_reals _ _ _ _ (fun i => by rw [zeros_rows]; exact isReal_zero)
    (mulf_reals _ _ (gather_reals _ _ _ hh) (coef_reals x1))

/-- The self-loop term of a real array is real. -/
theorem selfTerm_reals (h : FVec Ideal S100000x128 .f32) (hh : Reals h) : Reals (selfTerm x1 h) := by
  unfold selfTerm
  exact mulf_reals _ _ hh (self_reals x1)

/-- A real vector as a row is real. -/
theorem rowOf_reals (b : (⟨1, ![128]⟩ : Shape).Idx → EReal) (hb : Reals b) : Reals (rowOf b) := fun j => hb _

end Reference

open Cert.ReferenceIdeal Cert.ReferenceIdeal.Gen Cert.ReferenceIdeal.Read Cert.ReferenceIdeal.RefValue in
/-- THE BATCH NORMALISATION'S INPUT IS REAL: the first convolution of real node features with real weights and a
    real bias, over any edge list, has every entry a real. -/
theorem h1_real (x0 : (⟨S100000x64, .f32⟩ : BufTy).Contents (Elt Ideal)) (x1 : (⟨S2x1600000, .i32⟩ : BufTy).Contents (Elt Ideal))
    (x2 : (⟨S64x128, .f32⟩ : BufTy).Contents (Elt Ideal))
    (x3 : (⟨S128, .f32⟩ : BufTy).Contents (Elt Ideal)) (h0 : Reals x0) (h2 : Reals x2) (h3 : Reals x3) :
    Reals (Cert.Spec.Gcomb (aggregate x1 (Cert.Spec.Gmm64 x0 x2)) (selfTerm x1 (Cert.Spec.Gmm64 x0 x2)) (rowOf x3)) :=
  comb_reals _ _ _ (aggregate_reals x1 _ (mm64_reals x0 x2 h0 h2)) (selfTerm_reals x1 _ (mm64_reals x0 x2 h0 h2))
    (rowOf_reals x3 h3)

end Cert.Finite
-- ==== Proof.lean ====
/-
  A two-layer graph convolution with batch normalisation between the layers, as six tiled kernels among host operations,
  against its plain array reference, over the extended reals.

  Frames. The kernel's program is ten segments — four stretches of host operations and six kernel calls over a grid of
  twenty blocks of 5000 rows — run one after the other; the contents of every buffer after each segment are a fold from the
  launch memory (a host stretch applies its operations; a call leaves each output array at what its twenty write-backs
  hold), and no segment writes an argument array. The third call carries two running rows between grid points; its two
  outputs are written at the last point only. The reference is host operations alone.

  Values. Every call's output array is one whole-array function of the arrays it finds: two matrix products, two sums with
  a bias row, the column means and variances, the normalisation. The edge gather and scatter-add of both layers are the
  same host operations in both programs and are carried as one function of the edge list and the node array. The one
  place the two programs differ is the variance: the kernel forms the mean of the squares minus the square of the mean, the
  reference the mean of the squared deviations. These agree when every entry of the first layer's output is a real
  number, which follows from the inputs being finite: sums and products of reals are real, a gather reads an entry, a
  scatter-add sums entries, and the degree of a node is at least one so its reciprocal square root is a real.
-/
import proofs.«130829_j5128190951936_1_alg».proof.Defs
import proofs.«130829_j5128190951936_1_alg».proof.Proof.Gen.Kernel
import proofs.«130829_j5128190951936_1_alg».proof.Proof.Gen.KernelIdeal
import proofs.«130829_j5128190951936_1_alg».proof.Proof.Gen.ReferenceIdeal
import proofs.«130829_j5128190951936_1_alg».proof.Proof.Gen.Pre_finite_inputs
import proofs.«130829_j5128190951936_1_alg».proof.Proof.BRun
import proofs.«130829_j5128190951936_1_alg».proof.Proof.IRun
import proofs.«130829_j5128190951936_1_alg».proof.Proof.RefValue
import proofs.«130829_j5128190951936_1_alg».proof.Proof.RefStats
import proofs.«130829_j5128190951936_1_alg».proof.Proof.KSpec
import proofs.«130829_j5128190951936_1_alg».proof.Proof.IChain
import proofs.«130829_j5128190951936_1_alg».proof.Proof.Finite

noncomputable section

namespace Cert.Proof

open Idealize.ShloMosaic Idealize.SL.Sem

/-- The kernel, word for word, runs to the end and leaves its argument arrays as launched. -/
theorem frame_k : Cert.frame_Kernel := fun m ρ _ =>
  (θ_run Cert.Kernel.defs _ _).mono (fun r h c =>
    ⟨
     (h c _ (Cert.Kernel.Hand.mem_uc Cert.Kernel.main_arg0 (by decide))).trans (Cert.Kernel.Hand.W10_main_arg0 m ρ c),
     (h c _ (Cert.Kernel.Hand.mem_uc Cert.Kernel.main_arg1 (by decide))).trans (Cert.Kernel.Hand.W10_main_arg1 m ρ c),
     (h c _ (Cert.Kernel.Hand.mem_uc Cert.Kernel.main_arg2 (by decide))).trans (Cert.Kernel.Hand.W10_main_arg2 m ρ c),
     (h c _ (Cert.Kernel.Hand.mem_uc Cert.Kernel.main_arg3 (by decide))).trans (Cert.Kernel.Hand.W10_main_arg3 m ρ c),
     (h c _ (Cert.Kernel.Hand.mem_uc Cert.Kernel.main_arg4 (by decide))).trans (Cert.Kernel.Hand.W10_main_arg4 m ρ c),
     (h c _ (Cert.Kernel.Hand.mem_uc Cert.Kernel.main_arg5 (by decide))).trans (Cert.Kernel.Hand.W10_main_arg5 m ρ c),
     (h c _ (Cert.Kernel.Hand.mem_uc Cert.Kernel.main_arg6 (by decide))).trans (Cert.Kernel.Hand.W10_main_arg6 m ρ c),
     (h c _ (Cert.Kernel.Hand.mem_uc Cert.Kernel.main_arg7 (by decide))).trans (Cert.Kernel.Hand.W10_main_arg7 m ρ c)⟩)
    (Cert.Kernel.Hand.run_all (F := Bits) m ρ)

/-- So does the kernel read at the extended reals. -/
theorem frame_ki : Cert.frame_KernelIdeal := fun m ρ _ =>
  (θ_run Cert.KernelIdeal.defs _ _).mono (fun r h c =>
    ⟨
     (h c _ (Cert.KernelIdeal.Hand.mem_uc Cert.KernelIdeal.main_arg0 (by decide))).trans (Cert.KernelIdeal.Hand.W10_main_arg0 m ρ c),
     (h c _ (Cert.KernelIdeal.Hand.mem_uc Cert.KernelIdeal.main_arg1 (by decide))).trans (Cert.KernelIdeal.Hand.W10_main_arg1 m ρ c),
     (h c _ (Cert.KernelIdeal.Hand.mem_uc Cert.KernelIdeal.main_arg2 (by decide))).trans (Cert.KernelIdeal.Hand.W10_main_arg2 m ρ c),
     (h c _ (Cert.KernelIdeal.Hand.mem_uc Cert.KernelIdeal.main_arg3 (by decide))).trans (Cert.KernelIdeal.Hand.W10_main_arg3 m ρ c),
     (h c _ (Cert.KernelIdeal.Hand.mem_uc Cert.KernelIdeal.main_arg4 (by decide))).trans (Cert.KernelIdeal.Hand.W10_main_arg4 m ρ c),
     (h c _ (Cert.KernelIdeal.Hand.mem_uc Cert.KernelIdeal.main_arg5 (by decide))).trans (Cert.KernelIdeal.Hand.W10_main_arg5 m ρ c),
     (h c _ (Cert.KernelIdeal.Hand.mem_uc Cert.KernelIdeal.main_arg6 (by decide))).trans (Cert.KernelIdeal.Hand.W10_main_arg6 m ρ c),
     (h c _ (Cert.KernelIdeal.Hand.mem_uc Cert.KernelIdeal.main_arg7 (by decide))).trans (Cert.KernelIdeal.Hand.W10_main_arg7 m ρ c)⟩)
    (Cert.KernelIdeal.Hand.run_all (F := Ideal) m ρ)

/-- The idealisation rewrote nothing. -/
theorem preserves : Cert.preserves_Kernel_KernelIdeal := trivial

/-- From memories agreeing on the arguments both programs end with the same result array, element by element. -/
theorem algebraic : Cert.algebraic_KernelIdeal_ReferenceIdeal := by
  intro m ρ m' ρ' hpre hagree
  refine ⟨fun c => Cert.KernelIdeal.HandValue.kernelResult
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v68 (by decide))).trans (Cert.KernelIdeal.HandValue.result_eq m ρ c),
     (h c _ (Cert.KernelIdeal.Hand.mem_uc Cert.KernelIdeal.main_arg0 (by decide))).trans (Cert.KernelIdeal.Hand.W10_main_arg0 m ρ c),
     (h c _ (Cert.KernelIdeal.Hand.mem_uc Cert.KernelIdeal.main_arg1 (by decide))).trans (Cert.KernelIdeal.Hand.W10_main_arg1 m ρ c),
     (h c _ (Cert.KernelIdeal.Hand.mem_uc Cert.KernelIdeal.main_arg2 (by decide))).trans (Cert.KernelIdeal.Hand.W10_main_arg2 m ρ c),
     (h c _ (Cert.KernelIdeal.Hand.mem_uc Cert.KernelIdeal.main_arg3 (by decide))).trans (Cert.KernelIdeal.Hand.W10_main_arg3 m ρ c),
     (h c _ (Cert.KernelIdeal.Hand.mem_uc Cert.KernelIdeal.main_arg4 (by decide))).trans (Cert.KernelIdeal.Hand.W10_main_arg4 m ρ c),
     (h c _ (Cert.KernelIdeal.Hand.mem_uc Cert.KernelIdeal.main_arg5 (by decide))).trans (Cert.KernelIdeal.Hand.W10_main_arg5 m ρ c),
     (h c _ (Cert.KernelIdeal.Hand.mem_uc Cert.KernelIdeal.main_arg6 (by decide))).trans (Cert.KernelIdeal.Hand.W10_main_arg6 m ρ c),
     (h c _ (Cert.KernelIdeal.Hand.mem_uc Cert.KernelIdeal.main_arg7 (by decide))).trans (Cert.KernelIdeal.Hand.W10_main_arg7 m ρ c)⟩)
      (Cert.KernelIdeal.Hand.run_all (F := Ideal) m ρ)
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7⟩ := hagree c
    obtain ⟨r0, r2, r3, -, -, -, -⟩ := Cert.Finite.real_of_pre _ _ _ _ _ _ _ _ (hpre c)
    rw [Cert.ReferenceIdeal.RefValue.run_eq m' c, e0, e1, e2, e3, e4, e5, e6, e7,
      Cert.ReferenceIdeal.RefValue.refResult_eq_specResult _ _ _ _ _ _ _ _ (Cert.Finite.h1_real _ _ _ _ r0 r2 r3)]
    exact (Cert.KernelIdeal.HandValue.kernelResult_eq_specResult _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
